-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x1x4096 : Shape := ⟨3, ![8, 1, 4096]⟩
abbrev S1x3x1024 : Shape := ⟨3, ![1, 3, 1024]⟩
abbrev S1x1x1024 : Shape := ⟨3, ![1, 1, 1024]⟩
abbrev S1x1x4096 : Shape := ⟨3, ![1, 1, 4096]⟩
abbrev S1x4096 : Shape := ⟨2, ![1, 4096]⟩
abbrev S3x1024 : Shape := ⟨2, ![3, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S8x4096 : Shape := ⟨2, ![8, 4096]⟩
abbrev S_ : Shape := ⟨0, ![]⟩

abbrev nBuf : Space → Nat
  | .hbm => 17
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S8x1x4096, .f32⟩
  | .hbm, ⟨5, _⟩ => ⟨S8x1x4096, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v36 : BitVec 32 := Scalar.muli arg2 c1024_i32
  v36
def k0_off1 (i : grid0.Coords) : Fin 2 → Nat :=
  let c0_20 : Index := 0#32
  let arg2 : BitVec 32 := BitVec.ofNat 32 (i 2).val
  let c1024_i32 : BitVec 32 := 1024#32
  let v36 : BitVec 32 := Scalar.muli arg2 c1024_i32
  let v37 : BitVec 32 := v36
  let v38 : Index := Scalar.indexCast v37
  ![0, v38.toNat]
def k0_cond4 (i : grid0.Coords) : BitVec 1 :=
  let arg1 : BitVec 32 := BitVec.ofNat 32 (i 1).val
  let c3_i32_23 : BitVec 32 := 3#32
  let v48 : BitVec 1 := Scalar.cmpi .eq arg1 c3_i32_23
  let v49 : BitVec 32 := Scalar.extui v48
  let c0_i32_24 : BitVec 32 := 0#32
  let v50 : BitVec 1 := Scalar.cmpi .ne v49 c0_i32_24
  v50

def k0_off2 (i : grid0.Coords) : Fin 2 → Nat :=
  let c0_28 : Index := 0#32
  let arg2 : BitVec 32 := BitVec.ofNat 32 (i 2).val
  let c1024_i32 : BitVec 32 := 1024#32
  let v36 : BitVec 32 := Scalar.muli arg2 c1024_i32
  let v37 : BitVec 32 := v36
  let v56 : Index := Scalar.indexCast v37
  ![0, v56.toNat]
def k0_cond5 (i : grid0.Coords) : BitVec 1 :=
  let arg1 : BitVec 32 := BitVec.ofNat 32 (i 1).val
  let c3_i32_25 : BitVec 32 := 3#32
  let v51 : BitVec 1 := Scalar.cmpi .eq arg1 c3_i32_25
  let arg2 : BitVec 32 := BitVec.ofNat 32 (i 2).val
  let c3_i32_26 : BitVec 32 := 3#32
  let v52 : BitVec 1 := Scalar.cmpi .eq arg2 c3_i32_26
  let v53 : BitVec 1 := Scalar.andi v51 v52
  let v54 : BitVec 32 := Scalar.extui v53
  let c0_i32_27 : BitVec 32 := 0#32
  let v55 : BitVec 1 := Scalar.cmpi .ne v54 c0_i32_27
  v55

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S8x4096x3_S8x3x4096_0_2_1 : S8x4096x3.Transposes [0, 2, 1] S8x3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1x1024_S1x1x1024_0_0_0 : ∀ a, (![0, 0, 0] : Fin 3 → Nat) a + S1x1x1024.size a ≤ S1x1x1024.size a
  h_S1x1x1024 : 0 < S1x1x1024.numel
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x1024_S1024 : S3x1024.Reduces [0] S1024
  shapeCasts_S1024_S1x1024 : S1024.ShapeCasts S1x1024
  transposes_S1x1024_p1_0_S1024x1 : S1x1024.Transposes [1, 0] S1024x1
  broadcasts_S1024x1_S1024x1024 : S1024x1.Broadcasts S1024x1024
  reduces_S1024x1024_S1024 : S1024x1024.Reduces [0] S1024
  shapeCasts_S1x1x1024_S1x1x1024 : S1x1x1024.ShapeCasts S1x1x1024
  shapeCasts_S1x1024_S1x1x1024 : S1x1024.ShapeCasts S1x1x1024
  broadcasts_S1x1024_S1024x1024 : S1x1024.Broadcasts S1024x1024
  reduces_S1024x1024_S1024_2 : S1024x1024.Reduces [1] S1024
  shapeCasts_S1024_S1024x1 : S1024.ShapeCasts S1024x1
  transposes_S1024x1_p1_0_S1x1024 : S1024x1.Transposes [1, 0] S1x1024
  h_S1x1024 : 0 < S1x1024.numel
  shapeCasts_S1x1024_S1x1024 : S1x1024.ShapeCasts S1x1024
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  shapeCasts_S8x1x4096_S8x4096 : S8x1x4096.ShapeCasts S8x4096
  reducesTo_S8x4096_S_d0_1 : S8x4096.ReducesTo [0, 1] S_
  h_S_ : 0 < S_.numel
  dot_S3x1024_S3x1024_S1024x1024_0_0_1_1_n_n_wf : DotDims.WF S3x1024 S3x1024 S1024x1024 [0] [0] [1] [1] [] []
  hrank0 : 0 < grid0.rank
  k0_mult1_dvd : ∀ i : grid0.Coords, 128 ∣ (k0_mult1 i).toNat
  k0_off1_inb : ∀ i : grid0.Coords, ∀ a, (k0_off1 i) a + S1x1024.size a ≤ S1x4096.size a
  k0_off2_inb : ∀ i : grid0.Coords, ∀ (k0_h4 : k0_cond4 i = 1#1), ∀ a, (k0_off2 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S8x3x4096.size a
  hwx0_0 : ∀ i : grid0.Coords, EltTy.bits .f32 = 32 ∨ (Rect.block (s := S8x3x4096) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x4096.size a
  hwx0_1 : ∀ i : grid0.Coords, EltTy.bits .f32 = 32 ∨ (Rect.block (s := S8x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S3x1024_S3x1024_S1024x1024_0_0_1_1_n_n : DotDims S3x1024 S3x1024 S1024x1024 where
  lhsContracting := [0]
  rhsContracting := [0]
  lhsNonContracting := [1]
  rhsNonContracting := [1]
  lhsBatch := []
  rhsBatch := []
  wf := dot_S3x1024_S3x1024_S1024x1024_0_0_1_1_n_n_wf

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond5 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Kernel.Cases.lean ====
/-
  The five conditionals of the kernel body as propositions over the grid coordinates (b, r, c) of a point,
  and where on the 8 x 4 x 4 grid each of them holds: point t has r = (t / 4) % 4 and c = t % 4.
  The running minimum over the gt tiles is reset where c = 0 and finished (plus |x|^2, floored at 0) where c = 3;
  the column minimum kept in the scratch row is reset at (r, c) = (0, 0), finished tile by tile where r = 3,
  and copied out at (r, c) = (3, 3).
-/
import proofs.«152746_j51754355916968_2_alg».proof.Proof.Gen.Kernel.Frame
import proofs.«152746_j51754355916968_2_alg».proof.Proof.Gen.Kernel.Skeleton

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch row is reset: r = 0 and c = 0. -/
abbrev cReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The running row minimum is reset: c = 0. -/
abbrev cFirst (i : grid0.Coords) : Prop :=
  (Scalar.cmpi .ne (Scalar.extui (Scalar.cmpi .eq (BitVec.ofNat 32 (i 2).val) 0#32)) 0#32) = 1#1
/-- The running row minimum is finished: c = 3. -/
abbrev cLast (i : grid0.Coords) : Prop :=
  (Scalar.cmpi .ne (Scalar.extui (Scalar.cmpi .eq (BitVec.ofNat 32 (i 2).val) 3#32)) 0#32) = 1#1
/-- The column minimum of the current tile is finished: r = 3. -/
abbrev rLast (i : grid0.Coords) : Prop := k0_cond4 i = 1#1
/-- The column minima are copied out: r = 3 and c = 3. -/
abbrev cOut (i : grid0.Coords) : Prop := k0_cond5 i = 1#1

theorem hReset : ∀ t : Fin cfg0.N, cReset (grid0.coords t) ↔ t.val % 16 = 0 :=
  (by decide +kernel : ∀ t : Fin grid0.N, cReset (grid0.coords t) ↔ t.val % 16 = 0)
theorem hFirst : ∀ t : Fin cfg0.N, cFirst (grid0.coords t) ↔ t.val % 4 = 0 :=
  (by decide +kernel : ∀ t : Fin grid0.N, cFirst (grid0.coords t) ↔ t.val % 4 = 0)
theorem hLast : ∀ t : Fin cfg0.N, cLast (grid0.coords t) ↔ t.val % 4 = 3 :=
  (by decide +kernel : ∀ t : Fin grid0.N, cLast (grid0.coords t) ↔ t.val % 4 = 3)
theorem hRLast : ∀ t : Fin cfg0.N, rLast (grid0.coords t) ↔ 12 ≤ t.val % 16 :=
  (by decide +kernel : ∀ t : Fin grid0.N, rLast (grid0.coords t) ↔ 12 ≤ t.val % 16)
theorem hOut : ∀ t : Fin cfg0.N, cOut (grid0.coords t) ↔ t.val % 16 = 15 :=
  (by decide +kernel : ∀ t : Fin grid0.N, cOut (grid0.coords t) ↔ t.val % 16 = 15)

/-- Each window's current staging memref at point `t`, as the pipeline passes it, and its wholeness. -/
abbrev ms0 (t : Fin cfg0.N) : Memref sig .tc .vmem S1x3x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
/-- The scratch row: a whole scoped buffer of the kernel's own. -/
abbrev scM : Memref sig .tc .vmem S1x4096 .f32 := Memref.whole cc0_scratch0

/-- The region's invariant with the scratch row as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Where the second output's window is idle: everywhere but at (r, c) = (3, 3). -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ cOut (grid0.coords t) → cfg0.idle 3 (grid0.coords t) = true := by decide +kernel
theorem live3 : ∀ t : Fin cfg0.N, cOut (grid0.coords t) → cfg0.idle 3 (grid0.coords t) = false := by decide +kernel
theorem noFlush3 : ∀ t : Fin cfg0.N, ¬ cOut (grid0.coords t) → (cfg0.win 3).flush t = false := by decide +kernel

end Cert.Kernel.Gen.Hand

end
-- ==== Proof.Kernel.RunA.lean ====
/-
  The kernel body at the first point of a batch, (r, c) = (0, 0): the scratch row and the running row minimum are reset to +inf first, then lowered.
-/
import proofs.«152746_j51754355916968_2_alg».proof.Proof.Kernel.Cases

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runA (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : cReset i) (h2 : cFirst i) (h3 : ¬cLast i) (h4 : ¬rLast i) (h5 : ¬cOut i)
    (x0 : Vec F S1x3x1024 .f32) (x1 : Vec F S1x3x1024 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare y3 ∗ (∃ d, owns (c : Thread nD τ) arg7 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ (∃ f, arg7.view.loc (c : Thread nD τ) ↦[arg7.view.set]{fullShare} arg7.view.writes (Elt F) f L7)) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%d2, %f2, -, H2⟩, H3, ⟨%ds, %fs, -, HS⟩, Hk⟩
    obtain rfl := harg3.eq_unread hf0; obtain rfl := harg4.eq_unread hf1
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexists _; iexact HS

end Cert.Kernel.Gen.Hand

end
-- ==== Proof.Kernel.RunMid.lean ====
/-
  The kernel body at a point with r < 3 and c = 1 or 2: no conditional is taken; the running row minimum and the scratch tile are lowered.
-/
import proofs.«152746_j51754355916968_2_alg».proof.Proof.Kernel.Cases

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runMid (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : ¬rLast i) (h5 : ¬cOut i)
    (x0 : Vec F S1x3x1024 .f32) (x1 : Vec F S1x3x1024 .f32) (xo : Vec F S1x1x1024 .f32) (xs : Vec F S1x4096 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ owns (c : Thread nD τ) arg5 fullShare xo ∗ owns (c : Thread nD τ) arg6 fullShare y3 ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, H3, ⟨%fs, %hfs, HS⟩, Hk⟩
    obtain rfl := harg3.eq_unread hf0; obtain rfl := harg4.eq_unread hf1
    obtain rfl := harg5.eq_unread hf2
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexact HS

end Cert.Kernel.Gen.Hand

end
-- ==== Proof.Kernel.RunC.lean ====
/-
  The kernel body at a point with r < 3 and c = 3: the running row minimum is lowered and then finished (|x|^2 added, floored at 0).
-/
import proofs.«152746_j51754355916968_2_alg».proof.Proof.Kernel.Cases

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runC (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : ¬rLast i) (h5 : ¬cOut i)
    (x0 : Vec F S1x3x1024 .f32) (x1 : Vec F S1x3x1024 .f32) (xo : Vec F S1x1x1024 .f32) (xs : Vec F S1x4096 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ owns (c : Thread nD τ) arg5 fullShare xo ∗ owns (c : Thread nD τ) arg6 fullShare y3 ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, H3, ⟨%fs, %hfs, HS⟩, Hk⟩
    obtain rfl := harg3.eq_unread hf0; obtain rfl := harg4.eq_unread hf1
    obtain rfl := harg5.eq_unread hf2
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexact HS

end Cert.Kernel.Gen.Hand

end
-- ==== Proof.Kernel.RunD.lean ====
/-
  The kernel body at a point with r = 1 or 2 and c = 0: the running row minimum is reset to +inf, then lowered.
-/
import proofs.«152746_j51754355916968_2_alg».proof.Proof.Kernel.Cases

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runD (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : ¬rLast i) (h5 : ¬cOut i)
    (x0 : Vec F S1x3x1024 .f32) (x1 : Vec F S1x3x1024 .f32) (xs : Vec F S1x4096 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare y3 ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%d2, %f2, -, H2⟩, H3, ⟨%fs, %hfs, HS⟩, Hk⟩
    obtain rfl := harg3.eq_unread hf0; obtain rfl := harg4.eq_unread hf1
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexact HS

end Cert.Kernel.Gen.Hand

end
-- ==== Proof.Kernel.RunE.lean ====
/-
  The kernel body at (r, c) = (3, 0): the running row minimum is reset, and the scratch tile is lowered and then finished (|y|^2 added, floored at 0).
-/
import proofs.«152746_j51754355916968_2_alg».proof.Proof.Kernel.Cases

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runE (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : rLast i) (h5 : ¬cOut i)
    (x0 : Vec F S1x3x1024 .f32) (x1 : Vec F S1x3x1024 .f32) (xs : Vec F S1x4096 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare y3 ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%d2, %f2, -, H2⟩, H3, ⟨%fs, %hfs, HS⟩, Hk⟩
    obtain rfl := harg3.eq_unread hf0; obtain rfl := harg4.eq_unread hf1
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexact HS

end Cert.Kernel.Gen.Hand

end
-- ==== Proof.Kernel.RunFin.lean ====
/-
  The kernel body at a point with r = 3 and c = 1 or 2: the scratch tile is lowered and then finished.
-/
import proofs.«152746_j51754355916968_2_alg».proof.Proof.Kernel.Cases

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runFin (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : rLast i) (h5 : ¬cOut i)
    (x0 : Vec F S1x3x1024 .f32) (x1 : Vec F S1x3x1024 .f32) (xo : Vec F S1x1x1024 .f32) (xs : Vec F S1x4096 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ owns (c : Thread nD τ) arg5 fullShare xo ∗ owns (c : Thread nD τ) arg6 fullShare y3 ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, H3, ⟨%fs, %hfs, HS⟩, Hk⟩
    obtain rfl := harg3.eq_unread hf0; obtain rfl := harg4.eq_unread hf1
    obtain rfl := harg5.eq_unread hf2
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexact HS

end Cert.Kernel.Gen.Hand

end
-- ==== Proof.Kernel.RunG.lean ====
/-
  The kernel body at the last point of a batch, (r, c) = (3, 3): both minima are finished and the scratch row is copied into the second output's buffer.
-/
import proofs.«152746_j51754355916968_2_alg».proof.Proof.Kernel.Cases

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) :
    Σ' (L5 : List (View.Piece (Elt F) S1x1x1024 .f32)) (L6 : List (View.Piece (Elt F) S1x1x4096 .f32)), { L7 : List (View.Piece (Elt F) S1x4096 .f32) //
      ∀ (E : Set ℕ) (K : PUnit → sProp 𝕄),
        iprop(owns (c : Thread nD τ) arg3 fullShare x0 ∗ owns (c : Thread nD τ) arg4 fullShare x1
            ∗ owns (c : Thread nD τ) arg5 fullShare xo ∗ (∃ d, owns (c : Thread nD τ) arg6 fullShare d) ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1
    obtain rfl := harg5.eq_unread hf2
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexact HS

end Cert.Kernel.Gen.Hand

end
-- ==== Proof.Kernel.Body.lean ====
/-
  What the kernel leaves, point by point, in the first output's staging buffer (the running minimum over the gt tiles
  of |y|^2 - 2 x.y for the pred tile of the point), in the second output's staging buffer (the scratch row, copied at the last
  point of a batch) and in the scratch row (per gt tile the running minimum over the pred tiles of |x|^2 - 2 x.y), as a recursion
  on the point; the pipeline's proof data over it; and the body obligation, by cases on the seven kinds of point.
-/
import Idealize.ShloMosaic.Lib.Pipeline.Value
import proofs.«152746_j51754355916968_2_alg».proof.Proof.Kernel.RunA
import proofs.«152746_j51754355916968_2_alg».proof.Proof.Kernel.RunMid
import proofs.«152746_j51754355916968_2_alg».proof.Proof.Kernel.RunC
import proofs.«152746_j51754355916968_2_alg».proof.Proof.Kernel.RunD
import proofs.«152746_j51754355916968_2_alg».proof.Proof.Kernel.RunE
import proofs.«152746_j51754355916968_2_alg».proof.Proof.Kernel.RunFin
import proofs.«152746_j51754355916968_2_alg».proof.Proof.Kernel.RunG

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, through which its contents are stated (the choice does not matter where the
    stores cover the buffer). -/
abbrev VO2 : View sig .tc .vmem S1x1x1024 .f32 := (Memref.whole cc0_stg2_0 : Memref sig .tc .vmem S1x1x1024 .f32).view
abbrev VO3 : View sig .tc .vmem S1x1x4096 .f32 := (Memref.whole cc0_stg3_0 : Memref sig .tc .vmem S1x1x4096 .f32).view
abbrev hscM : (scM : Memref sig .tc .vmem S1x4096 .f32).IsWhole := Memref.isWhole_whole _

/-- What a point leaves: the first output's buffer, the second output's buffer, the scratch row. -/
structure St (F : FTy → Type) [FloatOps F] where
  X : Vec F S1x1x1024 .f32
  Y : Vec F S1x1x4096 .f32
  S : Vec F S1x4096 .f32

/-- Some contents, for the point before the first (which the first point does not read). -/
def St.junk : St F := ⟨VO2.read (Elt F) VO2.junk, VO3.read (Elt F) VO3.junk, scM.view.read (Elt F) scM.view.junk⟩

/-! ### A point of kind A -/

/-- The stores into the first output's buffer tile it. -/
theorem coverXA (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : cReset i) (h2 : cFirst i) (h3 : ¬cLast i) (h4 : ¬rLast i) (h5 : ¬cOut i)
    (x0 : Vec F S1x3x1024 .f32) (x1 : Vec F S1x3x1024 .f32) (y : S1x1x1024.Idx) :
    ∃ pc ∈ (runA c i arg3 harg3 arg4 harg4 arg5 harg5 arg6 harg6 arg7 harg7 h1 h2 h3 h4 h5 x0 x1).1, y ∈ pc.1.set :=
  View.cover_of_tiledL (runA c i arg3 harg3 arg4 harg4 arg5 harg5 arg6 harg6 arg7 harg7 h1 h2 h3 h4 h5 x0 x1).1 S1x1x1024.size (by sl_kernel_rfl) y

/-- What the point leaves in the first output's buffer: its pieces read back. -/
def XA (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : cReset i) (h2 : cFirst i) (h3 : ¬cLast i) (h4 : ¬rLast i) (h5 : ¬cOut i)
    (x0 : Vec F S1x3x1024 .f32) (x1 : Vec F S1x3x1024 .f32) : Vec F S1x1x1024 .f32 :=
  VO2.read (Elt F) (VO2.writes (Elt F) VO2.junk (runA c i arg3 harg3 arg4 harg4 arg5 harg5 arg6 harg6 arg7 harg7 h1 h2 h3 h4 h5 x0 x1).1)

/-- The stores into the scratch row cover it (it is reset whole first). -/
theorem coverSA (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : cReset i) (h2 : cFirst i) (h3 : ¬cLast i) (h4 : ¬rLast i) (h5 : ¬cOut i)
    (x0 : Vec F S1x3x1024 .f32) (x1 : Vec F S1x3x1024 .f32) (y : S1x4096.Idx) :
    ∃ pc ∈ (runA c i arg3 harg3 arg4 harg4 arg5 harg5 arg6 harg6 arg7 harg7 h1 h2 h3 h4 h5 x0 x1).2.1, y ∈ pc.1.set := by
  have hmem : (⟨Rect.unit (s := S1x4096) ![0, 0] S1x4096.size inb_S1x4096_S1x4096_0_0, k0_pay5⟩ : View.Piece (Elt F) S1x4096 .f32)
      ∈ (runA c i arg3 harg3 arg4 harg4 arg5 harg5 arg6 harg6 arg7 harg7 h1 h2 h3 h4 h5 x0 x1).2.1 := by
    unfold runA; dsimp only; sl_unfold_words
    exact List.mem_cons_of_mem _ (List.mem_singleton_self _)
  exact ⟨_, hmem, View.mem_set_unit_zero (funext fun a => by match a with | ⟨0, _⟩ => rfl | ⟨1, _⟩ => rfl) inb_S1x4096_S1x4096_0_0 y⟩

/-- What the point leaves in the scratch row: its pieces read back. -/
def SA (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : cReset i) (h2 : cFirst i) (h3 : ¬cLast i) (h4 : ¬rLast i) (h5 : ¬cOut i)
    (x0 : Vec F S1x3x1024 .f32) (x1 : Vec F S1x3x1024 .f32) : Vec F S1x4096 .f32 :=
  arg7.view.read (Elt F) (arg7.view.writes (Elt F) arg7.view.junk (runA c i arg3 harg3 arg4 harg4 arg5 harg5 arg6 harg6 arg7 harg7 h1 h2 h3 h4 h5 x0 x1).2.1)

/-! ### A point of kind Mid -/

/-- The stores into the first output's buffer tile it. -/
theorem coverXMid (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : ¬rLast i) (h5 : ¬cOut i)
    (x0 : Vec F S1x3x1024 .f32) (x1 : Vec F S1x3x1024 .f32) (xo : Vec F S1x1x1024 .f32) (xs : Vec F S1x4096 .f32) (y : S1x1x1024.Idx) :
    ∃ pc ∈ (runMid c i arg3 harg3 arg4 harg4 arg5 harg5 arg6 harg6 arg7 harg7 h1 h2 h3 h4 h5 x0 x1 xo xs).1, y ∈ pc.1.set :=
  View.cover_of_tiledL (runMid c i arg3 harg3 arg4 harg4 arg5 harg5 arg6 harg6 arg7 harg7 h1 h2 h3 h4 h5 x0 x1 xo xs).1 S1x1x1024.size (by sl_kernel_rfl) y

/-- What the point leaves in the first output's buffer: its pieces read back. -/
def XMid (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : ¬rLast i) (h5 : ¬cOut i)
    (x0 : Vec F S1x3x1024 .f32) (x1 : Vec F S1x3x1024 .f32) (xo : Vec F S1x1x1024 .f32) (xs : Vec F S1x4096 .f32) : Vec F S1x1x1024 .f32 :=
  VO2.read (Elt F) (VO2.writes (Elt F) VO2.junk (runMid c i arg3 harg3 arg4 harg4 arg5 harg5 arg6 harg6 arg7 harg7 h1 h2 h3 h4 h5 x0 x1 xo xs).1)

/-- What the point leaves in the scratch row: what it held, overwritten by the point's stores into the current tile. -/
def SMid (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : ¬rLast i) (h5 : ¬cOut i)
    (x0 : Vec F S1x3x1024 .f32) (x1 : Vec F S1x3x1024 .f32) (xo : Vec F S1x1x1024 .f32) (xs : Vec F S1x4096 .f32) : Vec F S1x4096 .f32 :=
  arg7.view.read (Elt F) (arg7.view.writes (Elt F) (harg7.unread xs) (runMid c i arg3 harg3 arg4 harg4 arg5 harg5 arg6 harg6 arg7 harg7 h1 h2 h3 h4 h5 x0 x1 xo xs).2.1)

/-! ### A point of kind C -/

/-- The stores into the first output's buffer tile it. -/
theorem coverXC (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : ¬rLast i) (h5 : ¬cOut i)
    (x0 : Vec F S1x3x1024 .f32) (x1 : Vec F S1x3x1024 .f32) (xo : Vec F S1x1x1024 .f32) (xs : Vec F S1x4096 .f32) (y : S1x1x1024.Idx) :
    ∃ pc ∈ (runC c i arg3 harg3 arg4 harg4 arg5 harg5 arg6 harg6 arg7 harg7 h1 h2 h3 h4 h5 x0 x1 xo xs).1, y ∈ pc.1.set :=
  View.cover_of_tiledL (runC c i arg3 harg3 arg4 harg4 arg5 harg5 arg6 harg6 arg7 harg7 h1 h2 h3 h4 h5 x0 x1 xo xs).1 S1x1x1024.size (by sl_kernel_rfl) y

/-- What the point leaves in the first output's buffer: its pieces read back. -/
def XC (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : ¬rLast i) (h5 : ¬cOut i)
    (x0 : Vec F S1x3x1024 .f32) (x1 : Vec F S1x3x1024 .f32) (xo : Vec F S1x1x1024 .f32) (xs : Vec F S1x4096 .f32) : Vec F S1x1x1024 .f32 :=
  VO2.read (Elt F) (VO2.writes (Elt F) VO2.junk (runC c i arg3 harg3 arg4 harg4 arg5 harg5 arg6 harg6 arg7 harg7 h1 h2 h3 h4 h5 x0 x1 xo xs).1)

/-- What the point leaves in the scratch row: what it held, overwritten by the point's stores into the current tile. -/
def SC (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : ¬rLast i) (h5 : ¬cOut i)
    (x0 : Vec F S1x3x1024 .f32) (x1 : Vec F S1x3x1024 .f32) (xo : Vec F S1x1x1024 .f32) (xs : Vec F S1x4096 .f32) : Vec F S1x4096 .f32 :=
  arg7.view.read (Elt F) (arg7.view.writes (Elt F) (harg7.unread xs) (runC c i arg3 harg3 arg4 harg4 arg5 harg5 arg6 harg6 arg7 harg7 h1 h2 h3 h4 h5 x0 x1 xo xs).2.1)

/-! ### A point of kind D -/

/-- The stores into the first output's buffer tile it. -/
theorem coverXD (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : ¬rLast i) (h5 : ¬cOut i)
    (x0 : Vec F S1x3x1024 .f32) (x1 : Vec F S1x3x1024 .f32) (xs : Vec F S1x4096 .f32) (y : S1x1x1024.Idx) :
    ∃ pc ∈ (runD c i arg3 harg3 arg4 harg4 arg5 harg5 arg6 harg6 arg7 harg7 h1 h2 h3 h4 h5 x0 x1 xs).1, y ∈ pc.1.set :=
  View.cover_of_tiledL (runD c i arg3 harg3 arg4 harg4 arg5 harg5 arg6 harg6 arg7 harg7 h1 h2 h3 h4 h5 x0 x1 xs).1 S1x1x1024.size (by sl_kernel_rfl) y

/-- What the point leaves in the first output's buffer: its pieces read back. -/
def XD (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : ¬rLast i) (h5 : ¬cOut i)
    (x0 : Vec F S1x3x1024 .f32) (x1 : Vec F S1x3x1024 .f32) (xs : Vec F S1x4096 .f32) : Vec F S1x1x1024 .f32 :=
  VO2.read (Elt F) (VO2.writes (Elt F) VO2.junk (runD c i arg3 harg3 arg4 harg4 arg5 harg5 arg6 harg6 arg7 harg7 h1 h2 h3 h4 h5 x0 x1 xs).1)

/-- What the point leaves in the scratch row: what it held, overwritten by the point's stores into the current tile. -/
def SD (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : ¬rLast i) (h5 : ¬cOut i)
    (x0 : Vec F S1x3x1024 .f32) (x1 : Vec F S1x3x1024 .f32) (xs : Vec F S1x4096 .f32) : Vec F S1x4096 .f32 :=
  arg7.view.read (Elt F) (arg7.view.writes (Elt F) (harg7.unread xs) (runD c i arg3 harg3 arg4 harg4 arg5 harg5 arg6 harg6 arg7 harg7 h1 h2 h3 h4 h5 x0 x1 xs).2.1)

/-! ### A point of kind E -/

/-- The stores into the first output's buffer tile it. -/
theorem coverXE (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : rLast i) (h5 : ¬cOut i)
    (x0 : Vec F S1x3x1024 .f32) (x1 : Vec F S1x3x1024 .f32) (xs : Vec F S1x4096 .f32) (y : S1x1x1024.Idx) :
    ∃ pc ∈ (runE c i arg3 harg3 arg4 harg4 arg5 harg5 arg6 harg6 arg7 harg7 h1 h2 h3 h4 h5 x0 x1 xs).1, y ∈ pc.1.set :=
  View.cover_of_tiledL (runE c i arg3 harg3 arg4 harg4 arg5 harg5 arg6 harg6 arg7 harg7 h1 h2 h3 h4 h5 x0 x1 xs).1 S1x1x1024.size (by sl_kernel_rfl) y

/-- What the point leaves in the first output's buffer: its pieces read back. -/
def XE (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : rLast i) (h5 : ¬cOut i)
    (x0 : Vec F S1x3x1024 .f32) (x1 : Vec F S1x3x1024 .f32) (xs : Vec F S1x4096 .f32) : Vec F S1x1x1024 .f32 :=
  VO2.read (Elt F) (VO2.writes (Elt F) VO2.junk (runE c i arg3 harg3 arg4 harg4 arg5 harg5 arg6 harg6 arg7 harg7 h1 h2 h3 h4 h5 x0 x1 xs).1)

/-- What the point leaves in the scratch row: what it held, overwritten by the point's stores into the current tile. -/
def SE (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : rLast i) (h5 : ¬cOut i)
    (x0 : Vec F S1x3x1024 .f32) (x1 : Vec F S1x3x1024 .f32) (xs : Vec F S1x4096 .f32) : Vec F S1x4096 .f32 :=
  arg7.view.read (Elt F) (arg7.view.writes (Elt F) (harg7.unread xs) (runE c i arg3 harg3 arg4 harg4 arg5 harg5 arg6 harg6 arg7 harg7 h1 h2 h3 h4 h5 x0 x1 xs).2.1)

/-! ### A point of kind Fin -/

/-- The stores into the first output's buffer tile it. -/
theorem coverXFin (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : rLast i) (h5 : ¬cOut i)
    (x0 : Vec F S1x3x1024 .f32) (x1 : Vec F S1x3x1024 .f32) (xo : Vec F S1x1x1024 .f32) (xs : Vec F S1x4096 .f32) (y : S1x1x1024.Idx) :
    ∃ pc ∈ (runFin c i arg3 harg3 arg4 harg4 arg5 harg5 arg6 harg6 arg7 harg7 h1 h2 h3 h4 h5 x0 x1 xo xs).1, y ∈ pc.1.set :=
  View.cover_of_tiledL (runFin c i arg3 harg3 arg4 harg4 arg5 harg5 arg6 harg6 arg7 harg7 h1 h2 h3 h4 h5 x0 x1 xo xs).1 S1x1x1024.size (by sl_kernel_rfl) y

/-- What the point leaves in the first output's buffer: its pieces read back. -/
def XFin (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : rLast i) (h5 : ¬cOut i)
    (x0 : Vec F S1x3x1024 .f32) (x1 : Vec F S1x3x1024 .f32) (xo : Vec F S1x1x1024 .f32) (xs : Vec F S1x4096 .f32) : Vec F S1x1x1024 .f32 :=
  VO2.read (Elt F) (VO2.writes (Elt F) VO2.junk (runFin c i arg3 harg3 arg4 harg4 arg5 harg5 arg6 harg6 arg7 harg7 h1 h2 h3 h4 h5 x0 x1 xo xs).1)

/-- What the point leaves in the scratch row: what it held, overwritten by the point's stores into the current tile. -/
def SFin (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : rLast i) (h5 : ¬cOut i)
    (x0 : Vec F S1x3x1024 .f32) (x1 : Vec F S1x3x1024 .f32) (xo : Vec F S1x1x1024 .f32) (xs : Vec F S1x4096 .f32) : Vec F S1x4096 .f32 :=
  arg7.view.read (Elt F) (arg7.view.writes (Elt F) (harg7.unread xs) (runFin c i arg3 harg3 arg4 harg4 arg5 harg5 arg6 harg6 arg7 harg7 h1 h2 h3 h4 h5 x0 x1 xo xs).2.1)

/-! ### A point of kind G -/

/-- The stores into the first output's buffer tile it. -/
theorem coverXG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) (y : S1x1x1024.Idx) :
    ∃ pc ∈ (runG c i arg3 harg3 arg4 harg4 arg5 harg5 arg6 harg6 arg7 harg7 h1 h2 h3 h4 h5 x0 x1 xo xs).1, y ∈ pc.1.set :=
  View.cover_of_tiledL (runG c i arg3 harg3 arg4 harg4 arg5 harg5 arg6 harg6 arg7 harg7 h1 h2 h3 h4 h5 x0 x1 xo xs).1 S1x1x1024.size (by sl_kernel_rfl) y

/-- What the point leaves in the first output's buffer: its pieces read back. -/
def XG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) : Vec F S1x1x1024 .f32 :=
  VO2.read (Elt F) (VO2.writes (Elt F) VO2.junk (runG c i arg3 harg3 arg4 harg4 arg5 harg5 arg6 harg6 arg7 harg7 h1 h2 h3 h4 h5 x0 x1 xo xs).1)

/-- The store into the second output's buffer covers it. -/
theorem coverYG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) (y : S1x1x4096.Idx) :
    ∃ pc ∈ (runG c i arg3 harg3 arg4 harg4 arg5 harg5 arg6 harg6 arg7 harg7 h1 h2 h3 h4 h5 x0 x1 xo xs).2.1, y ∈ pc.1.set :=
  View.cover_of_tiledL (runG c i arg3 harg3 arg4 harg4 arg5 harg5 arg6 harg6 arg7 harg7 h1 h2 h3 h4 h5 x0 x1 xo xs).2.1 S1x1x4096.size (by sl_kernel_rfl) y

/-- What the point leaves in the second output's buffer: the scratch row, copied. -/
def YG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) : Vec F S1x1x4096 .f32 :=
  VO3.read (Elt F) (VO3.writes (Elt F) VO3.junk (runG c i arg3 harg3 arg4 harg4 arg5 harg5 arg6 harg6 arg7 harg7 h1 h2 h3 h4 h5 x0 x1 xo xs).2.1)

/-- What the point leaves in the scratch row: what it held, overwritten by the point's stores into the current tile. -/
def SG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) : Vec F S1x4096 .f32 :=
  arg7.view.read (Elt F) (arg7.view.writes (Elt F) (harg7.unread xs) (runG c i arg3 harg3 arg4 harg4 arg5 harg5 arg6 harg6 arg7 harg7 h1 h2 h3 h4 h5 x0 x1 xo xs).2.2.1)

/-! ## Point by point -/

/-- What point `t` leaves, given what the point before left (`p`): the kind of the point is read off its number —
    c = t % 4 and r = (t / 4) % 4, so (r, c) = (3, 3) is t % 16 = 15, (0, 0) is t % 16 = 0 and r = 3 is 12 ≤ t % 16. The second
    output's buffer is stored at (3, 3) only; elsewhere its entry is carried along unread. -/
def step (c : Dev nD) (t : Fin cfg0.N) (p : St F) : St F :=
  if hO : t.val % 16 = 15 then ⟨XG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S, YG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S, SG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S⟩
  else if hR : t.val % 16 = 0 then ⟨XA c (grid0.coords t) (ms0 t) (hs0 t) (ms1 t) (hs1 t) (ms2 t) (hs2 t) (ms3 t) (hs3 t) scM hscM ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t), p.Y, SA c (grid0.coords t) (ms0 t) (hs0 t) (ms1 t) (hs1 t) (ms2 t) (hs2 t) (ms3 t) (hs3 t) scM hscM ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t)⟩
  else if hL : t.val % 4 = 3 then ⟨XC c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) (fun h => absurd ((hRLast t).mp h) (by (try dsimp only); omega)) (fun h => absurd ((hOut t).mp h) (by (try dsimp only); omega)) (iblk m c 0 t) (iblk m c 1 t) p.X p.S, p.Y, SC c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) (fun h => absurd ((hRLast t).mp h) (by (try dsimp only); omega)) (fun h => absurd ((hOut t).mp h) (by (try dsimp only); omega)) (iblk m c 0 t) (iblk m c 1 t) p.X p.S⟩
  else if hF : t.val % 4 = 0 then
    if hE : 12 ≤ t.val % 16 then ⟨XE c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.S, p.Y, SE c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.S⟩
    else ⟨XD c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.S, p.Y, SD c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.S⟩
  else if hE : 12 ≤ t.val % 16 then ⟨XFin c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.X p.S, p.Y, SFin c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.X p.S⟩
  else ⟨XMid c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.X p.S, p.Y, SMid c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.X p.S⟩

/-- THE ACCUMULATION: what the two outputs' staging buffers and the scratch row hold after the body at position `n`. -/
def outsAt (c : Dev nD) : (n : ℕ) → n < cfg0.N → St F
  | 0, hn => step m c ⟨0, hn⟩ St.junk
  | n + 1, hn => step m c ⟨n + 1, hn⟩ (outsAt c n (Nat.lt_of_succ_lt hn))

/-- At a later point: the step over what the point before left. -/
theorem outsAt_pos (c : Dev nD) (t : Fin cfg0.N) (ht : t.val ≠ 0) :
    outsAt m c t.val t.isLt = step m c t (outsAt m c (t.val - 1) (Nat.lt_of_le_of_lt (Nat.sub_le _ _) t.isLt)) := by
  obtain ⟨n, hn⟩ := t
  cases n with
  | zero => exact absurd rfl ht
  | succ n => rfl

/-- At the first point: the step over anything (the point is of kind A, which reads nothing the point before left). -/
theorem outsAt_zero (c : Dev nD) (t : Fin cfg0.N) (ht : t.val = 0) :
    outsAt m c t.val t.isLt = step m c t St.junk := by
  obtain ⟨n, hn⟩ := t
  cases n with
  | zero => rfl
  | succ n => exact absurd ht (Nat.succ_ne_zero n)

theorem step_A (c : Dev nD) (t : Fin cfg0.N) (p : St F) (hO : ¬t.val % 16 = 15) (hR : t.val % 16 = 0) :
    step m c t p = ⟨XA c (grid0.coords t) (ms0 t) (hs0 t) (ms1 t) (hs1 t) (ms2 t) (hs2 t) (ms3 t) (hs3 t) scM hscM ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t), p.Y, SA c (grid0.coords t) (ms0 t) (hs0 t) (ms1 t) (hs1 t) (ms2 t) (hs2 t) (ms3 t) (hs3 t) scM hscM ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t)⟩ :=
  (dif_neg hO).trans (dif_pos hR)

theorem step_Mid (c : Dev nD) (t : Fin cfg0.N) (p : St F) (hO : ¬t.val % 16 = 15) (hR : ¬t.val % 16 = 0) (hL : ¬t.val % 4 = 3) (hF : ¬t.val % 4 = 0) (hE : ¬12 ≤ t.val % 16) :
    step m c t p = ⟨XMid c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.X p.S, p.Y, SMid c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.X p.S⟩ :=
  (dif_neg hO).trans ((dif_neg hR).trans ((dif_neg hL).trans ((dif_neg hF).trans (dif_neg hE))))

theorem step_C (c : Dev nD) (t : Fin cfg0.N) (p : St F) (hO : ¬t.val % 16 = 15) (hR : ¬t.val % 16 = 0) (hL : t.val % 4 = 3) :
    step m c t p = ⟨XC c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) (fun h => absurd ((hRLast t).mp h) (by (try dsimp only); omega)) (fun h => absurd ((hOut t).mp h) (by (try dsimp only); omega)) (iblk m c 0 t) (iblk m c 1 t) p.X p.S, p.Y, SC c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) (fun h => absurd ((hRLast t).mp h) (by (try dsimp only); omega)) (fun h => absurd ((hOut t).mp h) (by (try dsimp only); omega)) (iblk m c 0 t) (iblk m c 1 t) p.X p.S⟩ :=
  (dif_neg hO).trans ((dif_neg hR).trans (dif_pos hL))

theorem step_D (c : Dev nD) (t : Fin cfg0.N) (p : St F) (hO : ¬t.val % 16 = 15) (hR : ¬t.val % 16 = 0) (hL : ¬t.val % 4 = 3) (hF : t.val % 4 = 0) (hE : ¬12 ≤ t.val % 16) :
    step m c t p = ⟨XD c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.S, p.Y, SD c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.S⟩ :=
  (dif_neg hO).trans ((dif_neg hR).trans ((dif_neg hL).trans ((dif_pos hF).trans (dif_neg hE))))

theorem step_E (c : Dev nD) (t : Fin cfg0.N) (p : St F) (hO : ¬t.val % 16 = 15) (hR : ¬t.val % 16 = 0) (hL : ¬t.val % 4 = 3) (hF : t.val % 4 = 0) (hE : 12 ≤ t.val % 16) :
    step m c t p = ⟨XE c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.S, p.Y, SE c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.S⟩ :=
  (dif_neg hO).trans ((dif_neg hR).trans ((dif_neg hL).trans ((dif_pos hF).trans (dif_pos hE))))

theorem step_Fin (c : Dev nD) (t : Fin cfg0.N) (p : St F) (hO : ¬t.val % 16 = 15) (hR : ¬t.val % 16 = 0) (hL : ¬t.val % 4 = 3) (hF : ¬t.val % 4 = 0) (hE : 12 ≤ t.val % 16) :
    step m c t p = ⟨XFin c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.X p.S, p.Y, SFin c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.X p.S⟩ :=
  (dif_neg hO).trans ((dif_neg hR).trans ((dif_neg hL).trans ((dif_neg hF).trans (dif_pos hE))))

theorem step_G (c : Dev nD) (t : Fin cfg0.N) (p : St F) (hO : t.val % 16 = 15) :
    step m c t p = ⟨XG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S, YG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S, SG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S⟩ :=
  (dif_pos hO)

/-! ## The region's invariant and the proof data -/

/-- The region invariant before position `n`: before the first point the launch's (the scratch row at anything);
    afterwards the scratch row at what the point before left in it, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).S)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).S)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).S)) ∗ (∃ r, prngReg c r)) := by
  cases n with
  | zero => exact absurd rfl hz
  | succ n => rfl

/-- The proof data of the pipeline on core `c`: the arrays as the region finds them; after the body at point `t` each
    input's buffer at its block and the outputs' at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).X
    | ⟨3, _⟩ => (outsAt m c t.val t.isLt).Y
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).X := by dsimp only [dats]
theorem after3 (c : Dev nD) (t : Fin cfg0.N) : (dats m 0 c).after 3 t = (outsAt m c t.val t.isLt).Y := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Where c > 0 the first output's buffer holds what the point before left: its block index has not moved, so it was not
    written back in between. -/
theorem before2 (c : Dev nD) (t : Fin cfg0.N) (ht : ¬t.val % 4 = 0) (d) :
    (dats m 0 c).before 2 t d = (outsAt m c (t.val - 1) (Nat.lt_of_le_of_lt (Nat.sub_le _ _) t.isLt)).X :=
  ((dats m 0 c).before_out_kept 2 rfl t (fun h => ht (by rw [h]))
    (Bool.eq_false_iff.mpr fun h => by
      have h' := (flush0_2 ⟨t.val - 1, Nat.lt_of_le_of_lt (Nat.sub_le _ _) t.isLt⟩).mp h
      dsimp only at h'; omega)
    (fun _ => rfl) (fun _ _ => rfl) d).trans (after2 m c _)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' buffers hold their blocks; the point's number says which of the seven kinds it is; where
    c > 0 the first output's buffer holds what the point before left; the invariant hands the body the scratch row at what the
    point before left (at anything at the first point) and takes it back at this point's contents; the second output's buffer
    is handed back untouched except at the last point of a batch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  have hN : t.val < 128 := lt_of_lt_of_eq t.isLt (show cfg0.N = 128 from N_0)
  by_cases hO : t.val % 16 = 15
  · have hF : ¬t.val % 4 = 0 := by omega
    rw [show (dats m 0 c).leavesExact 3 t = owns (c : Thread nD τ) (ms3 t) fullShare ((dats m 0 c).after 3 t) from by
          unfold Dat.leavesExact; rw [live3 t ((hOut t).mpr (by (try dsimp only); omega))], after3]
    simp only [before2 m c t hF]
    have hz : t.val ≠ 0 := by omega
    rw [outsAt_pos m c t hz, step_G m c t _ hO]
    dsimp only
    unfold XG SG YG; (try dsimp only)
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runG c (grid0.coords t) _ _ _ _ _ _ _ _ _ _ (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) _ _).2.2.2 Set.univ _)
    isplitl [H0]; · iexact H0
    isplitl [H1]; · iexact H1
    isplitl [H2]; · iexact H2
    isplitl [H3]; · iexists _; iexact H3
    isplitl [HS]; · iexact HS
    iintro ⟨H0, H1, ⟨%e2, H2⟩, ⟨%e3, H3⟩, HS⟩
    isplitl [HS Hg]
    · isplitl [HS]
      · unfold owns; iexists _; isplitr
        swap; · iexact HS
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverXG c _ _ _ _ _ _ _ _ _ _ _ _ _ _ _ _ _ _ _ _)
    unfold owns; iexists _; isplitr
    swap; · iexact H3
    ipureintro; exact View.read_writes_of_cover _ _ _ _ _ (coverYG c _ _ _ _ _ _ _ _ _ _ _ _ _ _ _ _ _ _ _ _)

  by_cases hR : t.val % 16 = 0
  · rw [Dat.leavesExact_idle (dats m 0 c) 3 t (idle3 t (fun h => absurd ((hOut t).mp h) (by (try dsimp only); omega))) (noFlush3 t (fun h => absurd ((hOut t).mp h) (by (try dsimp only); omega)))]
    by_cases hz : t.val = 0
    · rw [outsAt_zero m c t hz, step_A m c t _ hO hR]
      dsimp only
      unfold XA SA; (try dsimp only)
      rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (coverSA c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverXA c _ _ _ _ _ _ _ _ _ _ _ _ _ _ _ _ _ _)
      iexists _; iexact H3
    · rw [outsAt_pos m c t hz, step_A m c t _ hO hR]
      dsimp only
      unfold XA SA; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (coverSA c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverXA c _ _ _ _ _ _ _ _ _ _ _ _ _ _ _ _ _ _)
      iexists _; iexact H3
  by_cases hL : t.val % 4 = 3
  · have hF : ¬t.val % 4 = 0 := by omega
    rw [Dat.leavesExact_idle (dats m 0 c) 3 t (idle3 t (fun h => absurd ((hOut t).mp h) (by (try dsimp only); omega))) (noFlush3 t (fun h => absurd ((hOut t).mp h) (by (try dsimp only); omega)))]
    simp only [before2 m c t hF]
    have hz : t.val ≠ 0 := by omega
    rw [outsAt_pos m c t hz, step_C m c t _ hO hR hL]
    dsimp only
    unfold XC SC; (try dsimp only)
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runC c (grid0.coords t) _ _ _ _ _ _ _ _ _ _ (fun h => absurd ((hReset t).mp h) (by (try dsimp only); omega)) (fun h => absurd ((hFirst t).mp h) (by (try dsimp only); omega)) ((hLast t).mpr (by (try dsimp only); omega)) (fun h => absurd ((hRLast t).mp h) (by (try dsimp only); omega)) (fun h => absurd ((hOut t).mp h) (by (try dsimp only); omega)) (iblk m c 0 t) (iblk m c 1 t) _ _).2.2 _ Set.univ _)
    isplitl [H0]; · iexact H0
    isplitl [H1]; · iexact H1
    isplitl [H2]; · iexact H2
    isplitl [H3]; · iexact H3
    isplitl [HS]; · iexact HS
    iintro ⟨H0, H1, ⟨%e2, H2⟩, H3, HS⟩
    isplitl [HS Hg]
    · isplitl [HS]
      · unfold owns; iexists _; isplitr
        swap; · iexact HS
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverXC c _ _ _ _ _ _ _ _ _ _ _ _ _ _ _ _ _ _ _ _)
    iexists _; iexact H3

  by_cases hF : t.val % 4 = 0
  · by_cases hE : 12 ≤ t.val % 16
    · rw [Dat.leavesExact_idle (dats m 0 c) 3 t (idle3 t (fun h => absurd ((hOut t).mp h) (by (try dsimp only); omega))) (noFlush3 t (fun h => absurd ((hOut t).mp h) (by (try dsimp only); omega)))]
      have hz : t.val ≠ 0 := by omega
      rw [outsAt_pos m c t hz, step_E m c t _ hO hR hL hF hE]
      dsimp only
      unfold XE SE; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runE c (grid0.coords t) _ _ _ _ _ _ _ _ _ _ (fun h => absurd ((hReset t).mp h) (by (try dsimp only); omega)) ((hFirst t).mpr (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverXE c _ _ _ _ _ _ _ _ _ _ _ _ _ _ _ _ _ _ _)
      iexists _; iexact H3
    · rw [Dat.leavesExact_idle (dats m 0 c) 3 t (idle3 t (fun h => absurd ((hOut t).mp h) (by (try dsimp only); omega))) (noFlush3 t (fun h => absurd ((hOut t).mp h) (by (try dsimp only); omega)))]
      have hz : t.val ≠ 0 := by omega
      rw [outsAt_pos m c t hz, step_D m c t _ hO hR hL hF hE]
      dsimp only
      unfold XD SD; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runD c (grid0.coords t) _ _ _ _ _ _ _ _ _ _ (fun h => absurd ((hReset t).mp h) (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverXD c _ _ _ _ _ _ _ _ _ _ _ _ _ _ _ _ _ _ _)
      iexists _; iexact H3
  by_cases hE : 12 ≤ t.val % 16
  · rw [Dat.leavesExact_idle (dats m 0 c) 3 t (idle3 t (fun h => absurd ((hOut t).mp h) (by (try dsimp only); omega))) (noFlush3 t (fun h => absurd ((hOut t).mp h) (by (try dsimp only); omega)))]
    simp only [before2 m c t hF]
    have hz : t.val ≠ 0 := by omega
    rw [outsAt_pos m c t hz, step_Fin m c t _ hO hR hL hF hE]
    dsimp only
    unfold XFin SFin; (try dsimp only)
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runFin c (grid0.coords t) _ _ _ _ _ _ _ _ _ _ (fun h => absurd ((hReset t).mp h) (by (try dsimp only); omega)) (fun h => absurd ((hFirst t).mp h) (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) _ _).2.2 _ Set.univ _)
    isplitl [H0]; · iexact H0
    isplitl [H1]; · iexact H1
    isplitl [H2]; · iexact H2
    isplitl [H3]; · iexact H3
    isplitl [HS]; · iexact HS
    iintro ⟨H0, H1, ⟨%e2, H2⟩, H3, HS⟩
    isplitl [HS Hg]
    · isplitl [HS]
      · unfold owns; iexists _; isplitr
        swap; · iexact HS
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverXFin c _ _ _ _ _ _ _ _ _ _ _ _ _ _ _ _ _ _ _ _)
    iexists _; iexact H3
  · rw [Dat.leavesExact_idle (dats m 0 c) 3 t (idle3 t (fun h => absurd ((hOut t).mp h) (by (try dsimp only); omega))) (noFlush3 t (fun h => absurd ((hOut t).mp h) (by (try dsimp only); omega)))]
    simp only [before2 m c t hF]
    have hz : t.val ≠ 0 := by omega
    rw [outsAt_pos m c t hz, step_Mid m c t _ hO hR hL hF hE]
    dsimp only
    unfold XMid SMid; (try dsimp only)
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runMid c (grid0.coords t) _ _ _ _ _ _ _ _ _ _ (fun h => absurd ((hReset t).mp h) (by (try dsimp only); omega)) (fun h => absurd ((hFirst t).mp h) (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) _ _).2.2 _ Set.univ _)
    isplitl [H0]; · iexact H0
    isplitl [H1]; · iexact H1
    isplitl [H2]; · iexact H2
    isplitl [H3]; · iexact H3
    isplitl [HS]; · iexact HS
    iintro ⟨H0, H1, ⟨%e2, H2⟩, H3, HS⟩
    isplitl [HS Hg]
    · isplitl [HS]
      · unfold owns; iexists _; isplitr
        swap; · iexact HS
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverXMid c _ _ _ _ _ _ _ _ _ _ _ _ _ _ _ _ _ _ _ _)
    iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch row's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

/-! ## The run and the frame -/

set_option backward.isDefEq.respectTransparency.types false in
/-- Every weakly fair execution of @main terminates, and every final state has every array of the pipeline at what the library
    computes from the proof data, and every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Gen.Hand

end
-- ==== Proof.KernelIdeal.Cases.lean ====
/-
  The five conditionals of the kernel body as propositions over the grid coordinates (b, r, c) of a point,
  and where on the 8 x 4 x 4 grid each of them holds: point t has r = (t / 4) % 4 and c = t % 4.
  The running minimum over the gt tiles is reset where c = 0 and finished (plus |x|^2, floored at 0) where c = 3;
  the column minimum kept in the scratch row is reset at (r, c) = (0, 0), finished tile by tile where r = 3,
  and copied out at (r, c) = (3, 3).
-/
import proofs.«152746_j51754355916968_2_alg».proof.Proof.Gen.KernelIdeal.Frame
import proofs.«152746_j51754355916968_2_alg».proof.Proof.Gen.KernelIdeal.Skeleton

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch row is reset: r = 0 and c = 0. -/
abbrev cReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The running row minimum is reset: c = 0. -/
abbrev cFirst (i : grid0.Coords) : Prop :=
  (Scalar.cmpi .ne (Scalar.extui (Scalar.cmpi .eq (BitVec.ofNat 32 (i 2).val) 0#32)) 0#32) = 1#1
/-- The running row minimum is finished: c = 3. -/
abbrev cLast (i : grid0.Coords) : Prop :=
  (Scalar.cmpi .ne (Scalar.extui (Scalar.cmpi .eq (BitVec.ofNat 32 (i 2).val) 3#32)) 0#32) = 1#1
/-- The column minimum of the current tile is finished: r = 3. -/
abbrev rLast (i : grid0.Coords) : Prop := k0_cond4 i = 1#1
/-- The column minima are copied out: r = 3 and c = 3. -/
abbrev cOut (i : grid0.Coords) : Prop := k0_cond5 i = 1#1

theorem hReset : ∀ t : Fin cfg0.N, cReset (grid0.coords t) ↔ t.val % 16 = 0 :=
  (by decide +kernel : ∀ t : Fin grid0.N, cReset (grid0.coords t) ↔ t.val % 16 = 0)
theorem hFirst : ∀ t : Fin cfg0.N, cFirst (grid0.coords t) ↔ t.val % 4 = 0 :=
  (by decide +kernel : ∀ t : Fin grid0.N, cFirst (grid0.coords t) ↔ t.val % 4 = 0)
theorem hLast : ∀ t : Fin cfg0.N, cLast (grid0.coords t) ↔ t.val % 4 = 3 :=
  (by decide +kernel : ∀ t : Fin grid0.N, cLast (grid0.coords t) ↔ t.val % 4 = 3)
theorem hRLast : ∀ t : Fin cfg0.N, rLast (grid0.coords t) ↔ 12 ≤ t.val % 16 :=
  (by decide +kernel : ∀ t : Fin grid0.N, rLast (grid0.coords t) ↔ 12 ≤ t.val % 16)
theorem hOut : ∀ t : Fin cfg0.N, cOut (grid0.coords t) ↔ t.val % 16 = 15 :=
  (by decide +kernel : ∀ t : Fin grid0.N, cOut (grid0.coords t) ↔ t.val % 16 = 15)

/-- Each window's current staging memref at point `t`, as the pipeline passes it, and its wholeness. -/
abbrev ms0 (t : Fin cfg0.N) : Memref sig .tc .vmem S1x3x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
/-- The scratch row: a whole scoped buffer of the kernel's own. -/
abbrev scM : Memref sig .tc .vmem S1x4096 .f32 := Memref.whole cc0_scratch0

/-- The region's invariant with the scratch row as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Where the second output's window is idle: everywhere but at (r, c) = (3, 3). -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ cOut (grid0.coords t) → cfg0.idle 3 (grid0.coords t) = true := by decide +kernel
theorem live3 : ∀ t : Fin cfg0.N, cOut (grid0.coords t) → cfg0.idle 3 (grid0.coords t) = false := by decide +kernel
theorem noFlush3 : ∀ t : Fin cfg0.N, ¬ cOut (grid0.coords t) → (cfg0.win 3).flush t = false := by decide +kernel

end Cert.KernelIdeal.Gen.Hand

end
-- ==== Proof.KernelIdeal.RunA.lean ====
/-
  The kernel body at the first point of a batch, (r, c) = (0, 0): the scratch row and the running row minimum are reset to +inf first, then lowered.
-/
import proofs.«152746_j51754355916968_2_alg».proof.Proof.KernelIdeal.Cases

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runA (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : cReset i) (h2 : cFirst i) (h3 : ¬cLast i) (h4 : ¬rLast i) (h5 : ¬cOut i)
    (x0 : Vec F S1x3x1024 .f32) (x1 : Vec F S1x3x1024 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare y3 ∗ (∃ d, owns (c : Thread nD τ) arg7 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ (∃ f, arg7.view.loc (c : Thread nD τ) ↦[arg7.view.set]{fullShare} arg7.view.writes (Elt F) f L7)) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%d2, %f2, -, H2⟩, H3, ⟨%ds, %fs, -, HS⟩, Hk⟩
    obtain rfl := harg3.eq_unread hf0; obtain rfl := harg4.eq_unread hf1
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexists _; iexact HS

end Cert.KernelIdeal.Gen.Hand

end
-- ==== Proof.KernelIdeal.RunMid.lean ====
/-
  The kernel body at a point with r < 3 and c = 1 or 2: no conditional is taken; the running row minimum and the scratch tile are lowered.
-/
import proofs.«152746_j51754355916968_2_alg».proof.Proof.KernelIdeal.Cases

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runMid (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : ¬rLast i) (h5 : ¬cOut i)
    (x0 : Vec F S1x3x1024 .f32) (x1 : Vec F S1x3x1024 .f32) (xo : Vec F S1x1x1024 .f32) (xs : Vec F S1x4096 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ owns (c : Thread nD τ) arg5 fullShare xo ∗ owns (c : Thread nD τ) arg6 fullShare y3 ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, H3, ⟨%fs, %hfs, HS⟩, Hk⟩
    obtain rfl := harg3.eq_unread hf0; obtain rfl := harg4.eq_unread hf1
    obtain rfl := harg5.eq_unread hf2
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexact HS

end Cert.KernelIdeal.Gen.Hand

end
-- ==== Proof.KernelIdeal.RunC.lean ====
/-
  The kernel body at a point with r < 3 and c = 3: the running row minimum is lowered and then finished (|x|^2 added, floored at 0).
-/
import proofs.«152746_j51754355916968_2_alg».proof.Proof.KernelIdeal.Cases

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runC (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : ¬rLast i) (h5 : ¬cOut i)
    (x0 : Vec F S1x3x1024 .f32) (x1 : Vec F S1x3x1024 .f32) (xo : Vec F S1x1x1024 .f32) (xs : Vec F S1x4096 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ owns (c : Thread nD τ) arg5 fullShare xo ∗ owns (c : Thread nD τ) arg6 fullShare y3 ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, H3, ⟨%fs, %hfs, HS⟩, Hk⟩
    obtain rfl := harg3.eq_unread hf0; obtain rfl := harg4.eq_unread hf1
    obtain rfl := harg5.eq_unread hf2
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexact HS

end Cert.KernelIdeal.Gen.Hand

end
-- ==== Proof.KernelIdeal.RunD.lean ====
/-
  The kernel body at a point with r = 1 or 2 and c = 0: the running row minimum is reset to +inf, then lowered.
-/
import proofs.«152746_j51754355916968_2_alg».proof.Proof.KernelIdeal.Cases

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runD (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : ¬rLast i) (h5 : ¬cOut i)
    (x0 : Vec F S1x3x1024 .f32) (x1 : Vec F S1x3x1024 .f32) (xs : Vec F S1x4096 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare y3 ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%d2, %f2, -, H2⟩, H3, ⟨%fs, %hfs, HS⟩, Hk⟩
    obtain rfl := harg3.eq_unread hf0; obtain rfl := harg4.eq_unread hf1
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexact HS

end Cert.KernelIdeal.Gen.Hand

end
-- ==== Proof.KernelIdeal.RunE.lean ====
/-
  The kernel body at (r, c) = (3, 0): the running row minimum is reset, and the scratch tile is lowered and then finished (|y|^2 added, floored at 0).
-/
import proofs.«152746_j51754355916968_2_alg».proof.Proof.KernelIdeal.Cases

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runE (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : rLast i) (h5 : ¬cOut i)
    (x0 : Vec F S1x3x1024 .f32) (x1 : Vec F S1x3x1024 .f32) (xs : Vec F S1x4096 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ (∃ d, owns (c : Thread nD τ) arg5 fullShare d) ∗ owns (c : Thread nD τ) arg6 fullShare y3 ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%d2, %f2, -, H2⟩, H3, ⟨%fs, %hfs, HS⟩, Hk⟩
    obtain rfl := harg3.eq_unread hf0; obtain rfl := harg4.eq_unread hf1
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexact HS

end Cert.KernelIdeal.Gen.Hand

end
-- ==== Proof.KernelIdeal.RunFin.lean ====
/-
  The kernel body at a point with r = 3 and c = 1 or 2: the scratch tile is lowered and then finished.
-/
import proofs.«152746_j51754355916968_2_alg».proof.Proof.KernelIdeal.Cases

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runFin (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : rLast i) (h5 : ¬cOut i)
    (x0 : Vec F S1x3x1024 .f32) (x1 : Vec F S1x3x1024 .f32) (xo : Vec F S1x1x1024 .f32) (xs : Vec F S1x4096 .f32) :
    Σ' (L5 : List (View.Piece (Elt F) S1x1x1024 .f32)), { L7 : List (View.Piece (Elt F) S1x4096 .f32) //
      ∀ (y3 : Vec F S1x1x4096 .f32) (E : Set ℕ) (K : PUnit → sProp 𝕄),
        iprop(owns (c : Thread nD τ) arg3 fullShare x0 ∗ owns (c : Thread nD τ) arg4 fullShare x1
            ∗ owns (c : Thread nD τ) arg5 fullShare xo ∗ owns (c : Thread nD τ) arg6 fullShare y3 ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ owns (c : Thread nD τ) arg6 fullShare y3
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, fun y3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, H3, ⟨%fs, %hfs, HS⟩, Hk⟩
    obtain rfl := harg3.eq_unread hf0; obtain rfl := harg4.eq_unread hf1
    obtain rfl := harg5.eq_unread hf2
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexact HS

end Cert.KernelIdeal.Gen.Hand

end
-- ==== Proof.KernelIdeal.RunG.lean ====
/-
  The kernel body at the last point of a batch, (r, c) = (3, 3): both minima are finished and the scratch row is copied into the second output's buffer.
-/
import proofs.«152746_j51754355916968_2_alg».proof.Proof.KernelIdeal.Cases

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of this kind, on any whole staging memrefs: the two input buffers at their blocks; the first
    output's buffer and the scratch row at the contents named, or at anything where the body overwrites them before it uses
    them; the second output's buffer at anything. It returns the inputs as they were and each buffer it stored into with the
    pieces its stores wrote (last first). -/
noncomputable def runG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) :
    Σ' (L5 : List (View.Piece (Elt F) S1x1x1024 .f32)) (L6 : List (View.Piece (Elt F) S1x1x4096 .f32)), { L7 : List (View.Piece (Elt F) S1x4096 .f32) //
      ∀ (E : Set ℕ) (K : PUnit → sProp 𝕄),
        iprop(owns (c : Thread nD τ) arg3 fullShare x0 ∗ owns (c : Thread nD τ) arg4 fullShare x1
            ∗ owns (c : Thread nD τ) arg5 fullShare xo ∗ (∃ d, owns (c : Thread nD τ) arg6 fullShare d) ∗ owns (c : Thread nD τ) arg7 fullShare xs
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ arg7.view.loc (c : Thread nD τ) ↦[arg7.view.set]{fullShare} arg7.view.writes (Elt F) (harg7.unread xs) L7) -∗ K ⟨⟩))
          ⊢ wp frame (wpE (defs₀ (F := F)) Variants.none c none) E (cc0__kernel i arg3 harg3 arg4 harg4 arg5 harg5 arg6 harg6 arg7 harg7) K } := by
  refine ⟨?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1
    obtain rfl := harg5.eq_unread hf2
    obtain rfl := harg7.eq_unread hfs
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexact HS

end Cert.KernelIdeal.Gen.Hand

end
-- ==== Proof.KernelIdeal.Body.lean ====
/-
  What the kernel leaves, point by point, in the first output's staging buffer (the running minimum over the gt tiles
  of |y|^2 - 2 x.y for the pred tile of the point), in the second output's staging buffer (the scratch row, copied at the last
  point of a batch) and in the scratch row (per gt tile the running minimum over the pred tiles of |x|^2 - 2 x.y), as a recursion
  on the point; the pipeline's proof data over it; and the body obligation, by cases on the seven kinds of point.
-/
import Idealize.ShloMosaic.Lib.Pipeline.Value
import proofs.«152746_j51754355916968_2_alg».proof.Proof.KernelIdeal.RunA
import proofs.«152746_j51754355916968_2_alg».proof.Proof.KernelIdeal.RunMid
import proofs.«152746_j51754355916968_2_alg».proof.Proof.KernelIdeal.RunC
import proofs.«152746_j51754355916968_2_alg».proof.Proof.KernelIdeal.RunD
import proofs.«152746_j51754355916968_2_alg».proof.Proof.KernelIdeal.RunE
import proofs.«152746_j51754355916968_2_alg».proof.Proof.KernelIdeal.RunFin
import proofs.«152746_j51754355916968_2_alg».proof.Proof.KernelIdeal.RunG

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, through which its contents are stated (the choice does not matter where the
    stores cover the buffer). -/
abbrev VO2 : View sig .tc .vmem S1x1x1024 .f32 := (Memref.whole cc0_stg2_0 : Memref sig .tc .vmem S1x1x1024 .f32).view
abbrev VO3 : View sig .tc .vmem S1x1x4096 .f32 := (Memref.whole cc0_stg3_0 : Memref sig .tc .vmem S1x1x4096 .f32).view
abbrev hscM : (scM : Memref sig .tc .vmem S1x4096 .f32).IsWhole := Memref.isWhole_whole _

/-- What a point leaves: the first output's buffer, the second output's buffer, the scratch row. -/
structure St (F : FTy → Type) [FloatOps F] where
  X : Vec F S1x1x1024 .f32
  Y : Vec F S1x1x4096 .f32
  S : Vec F S1x4096 .f32

/-- Some contents, for the point before the first (which the first point does not read). -/
def St.junk : St F := ⟨VO2.read (Elt F) VO2.junk, VO3.read (Elt F) VO3.junk, scM.view.read (Elt F) scM.view.junk⟩

/-! ### A point of kind A -/

/-- The stores into the first output's buffer tile it. -/
theorem coverXA (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : cReset i) (h2 : cFirst i) (h3 : ¬cLast i) (h4 : ¬rLast i) (h5 : ¬cOut i)
    (x0 : Vec F S1x3x1024 .f32) (x1 : Vec F S1x3x1024 .f32) (y : S1x1x1024.Idx) :
    ∃ pc ∈ (runA c i arg3 harg3 arg4 harg4 arg5 harg5 arg6 harg6 arg7 harg7 h1 h2 h3 h4 h5 x0 x1).1, y ∈ pc.1.set :=
  View.cover_of_tiledL (runA c i arg3 harg3 arg4 harg4 arg5 harg5 arg6 harg6 arg7 harg7 h1 h2 h3 h4 h5 x0 x1).1 S1x1x1024.size (by sl_kernel_rfl) y

/-- What the point leaves in the first output's buffer: its pieces read back. -/
def XA (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : cReset i) (h2 : cFirst i) (h3 : ¬cLast i) (h4 : ¬rLast i) (h5 : ¬cOut i)
    (x0 : Vec F S1x3x1024 .f32) (x1 : Vec F S1x3x1024 .f32) : Vec F S1x1x1024 .f32 :=
  VO2.read (Elt F) (VO2.writes (Elt F) VO2.junk (runA c i arg3 harg3 arg4 harg4 arg5 harg5 arg6 harg6 arg7 harg7 h1 h2 h3 h4 h5 x0 x1).1)

/-- The stores into the scratch row cover it (it is reset whole first). -/
theorem coverSA (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : cReset i) (h2 : cFirst i) (h3 : ¬cLast i) (h4 : ¬rLast i) (h5 : ¬cOut i)
    (x0 : Vec F S1x3x1024 .f32) (x1 : Vec F S1x3x1024 .f32) (y : S1x4096.Idx) :
    ∃ pc ∈ (runA c i arg3 harg3 arg4 harg4 arg5 harg5 arg6 harg6 arg7 harg7 h1 h2 h3 h4 h5 x0 x1).2.1, y ∈ pc.1.set := by
  have hmem : (⟨Rect.unit (s := S1x4096) ![0, 0] S1x4096.size inb_S1x4096_S1x4096_0_0, k0_pay5⟩ : View.Piece (Elt F) S1x4096 .f32)
      ∈ (runA c i arg3 harg3 arg4 harg4 arg5 harg5 arg6 harg6 arg7 harg7 h1 h2 h3 h4 h5 x0 x1).2.1 := by
    unfold runA; dsimp only; sl_unfold_words
    exact List.mem_cons_of_mem _ (List.mem_singleton_self _)
  exact ⟨_, hmem, View.mem_set_unit_zero (funext fun a => by match a with | ⟨0, _⟩ => rfl | ⟨1, _⟩ => rfl) inb_S1x4096_S1x4096_0_0 y⟩

/-- What the point leaves in the scratch row: its pieces read back. -/
def SA (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : cReset i) (h2 : cFirst i) (h3 : ¬cLast i) (h4 : ¬rLast i) (h5 : ¬cOut i)
    (x0 : Vec F S1x3x1024 .f32) (x1 : Vec F S1x3x1024 .f32) : Vec F S1x4096 .f32 :=
  arg7.view.read (Elt F) (arg7.view.writes (Elt F) arg7.view.junk (runA c i arg3 harg3 arg4 harg4 arg5 harg5 arg6 harg6 arg7 harg7 h1 h2 h3 h4 h5 x0 x1).2.1)

/-! ### A point of kind Mid -/

/-- The stores into the first output's buffer tile it. -/
theorem coverXMid (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : ¬rLast i) (h5 : ¬cOut i)
    (x0 : Vec F S1x3x1024 .f32) (x1 : Vec F S1x3x1024 .f32) (xo : Vec F S1x1x1024 .f32) (xs : Vec F S1x4096 .f32) (y : S1x1x1024.Idx) :
    ∃ pc ∈ (runMid c i arg3 harg3 arg4 harg4 arg5 harg5 arg6 harg6 arg7 harg7 h1 h2 h3 h4 h5 x0 x1 xo xs).1, y ∈ pc.1.set :=
  View.cover_of_tiledL (runMid c i arg3 harg3 arg4 harg4 arg5 harg5 arg6 harg6 arg7 harg7 h1 h2 h3 h4 h5 x0 x1 xo xs).1 S1x1x1024.size (by sl_kernel_rfl) y

/-- What the point leaves in the first output's buffer: its pieces read back. -/
def XMid (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : ¬rLast i) (h5 : ¬cOut i)
    (x0 : Vec F S1x3x1024 .f32) (x1 : Vec F S1x3x1024 .f32) (xo : Vec F S1x1x1024 .f32) (xs : Vec F S1x4096 .f32) : Vec F S1x1x1024 .f32 :=
  VO2.read (Elt F) (VO2.writes (Elt F) VO2.junk (runMid c i arg3 harg3 arg4 harg4 arg5 harg5 arg6 harg6 arg7 harg7 h1 h2 h3 h4 h5 x0 x1 xo xs).1)

/-- What the point leaves in the scratch row: what it held, overwritten by the point's stores into the current tile. -/
def SMid (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : ¬rLast i) (h5 : ¬cOut i)
    (x0 : Vec F S1x3x1024 .f32) (x1 : Vec F S1x3x1024 .f32) (xo : Vec F S1x1x1024 .f32) (xs : Vec F S1x4096 .f32) : Vec F S1x4096 .f32 :=
  arg7.view.read (Elt F) (arg7.view.writes (Elt F) (harg7.unread xs) (runMid c i arg3 harg3 arg4 harg4 arg5 harg5 arg6 harg6 arg7 harg7 h1 h2 h3 h4 h5 x0 x1 xo xs).2.1)

/-! ### A point of kind C -/

/-- The stores into the first output's buffer tile it. -/
theorem coverXC (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : ¬rLast i) (h5 : ¬cOut i)
    (x0 : Vec F S1x3x1024 .f32) (x1 : Vec F S1x3x1024 .f32) (xo : Vec F S1x1x1024 .f32) (xs : Vec F S1x4096 .f32) (y : S1x1x1024.Idx) :
    ∃ pc ∈ (runC c i arg3 harg3 arg4 harg4 arg5 harg5 arg6 harg6 arg7 harg7 h1 h2 h3 h4 h5 x0 x1 xo xs).1, y ∈ pc.1.set :=
  View.cover_of_tiledL (runC c i arg3 harg3 arg4 harg4 arg5 harg5 arg6 harg6 arg7 harg7 h1 h2 h3 h4 h5 x0 x1 xo xs).1 S1x1x1024.size (by sl_kernel_rfl) y

/-- What the point leaves in the first output's buffer: its pieces read back. -/
def XC (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : ¬rLast i) (h5 : ¬cOut i)
    (x0 : Vec F S1x3x1024 .f32) (x1 : Vec F S1x3x1024 .f32) (xo : Vec F S1x1x1024 .f32) (xs : Vec F S1x4096 .f32) : Vec F S1x1x1024 .f32 :=
  VO2.read (Elt F) (VO2.writes (Elt F) VO2.junk (runC c i arg3 harg3 arg4 harg4 arg5 harg5 arg6 harg6 arg7 harg7 h1 h2 h3 h4 h5 x0 x1 xo xs).1)

/-- What the point leaves in the scratch row: what it held, overwritten by the point's stores into the current tile. -/
def SC (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : ¬rLast i) (h5 : ¬cOut i)
    (x0 : Vec F S1x3x1024 .f32) (x1 : Vec F S1x3x1024 .f32) (xo : Vec F S1x1x1024 .f32) (xs : Vec F S1x4096 .f32) : Vec F S1x4096 .f32 :=
  arg7.view.read (Elt F) (arg7.view.writes (Elt F) (harg7.unread xs) (runC c i arg3 harg3 arg4 harg4 arg5 harg5 arg6 harg6 arg7 harg7 h1 h2 h3 h4 h5 x0 x1 xo xs).2.1)

/-! ### A point of kind D -/

/-- The stores into the first output's buffer tile it. -/
theorem coverXD (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : ¬rLast i) (h5 : ¬cOut i)
    (x0 : Vec F S1x3x1024 .f32) (x1 : Vec F S1x3x1024 .f32) (xs : Vec F S1x4096 .f32) (y : S1x1x1024.Idx) :
    ∃ pc ∈ (runD c i arg3 harg3 arg4 harg4 arg5 harg5 arg6 harg6 arg7 harg7 h1 h2 h3 h4 h5 x0 x1 xs).1, y ∈ pc.1.set :=
  View.cover_of_tiledL (runD c i arg3 harg3 arg4 harg4 arg5 harg5 arg6 harg6 arg7 harg7 h1 h2 h3 h4 h5 x0 x1 xs).1 S1x1x1024.size (by sl_kernel_rfl) y

/-- What the point leaves in the first output's buffer: its pieces read back. -/
def XD (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : ¬rLast i) (h5 : ¬cOut i)
    (x0 : Vec F S1x3x1024 .f32) (x1 : Vec F S1x3x1024 .f32) (xs : Vec F S1x4096 .f32) : Vec F S1x1x1024 .f32 :=
  VO2.read (Elt F) (VO2.writes (Elt F) VO2.junk (runD c i arg3 harg3 arg4 harg4 arg5 harg5 arg6 harg6 arg7 harg7 h1 h2 h3 h4 h5 x0 x1 xs).1)

/-- What the point leaves in the scratch row: what it held, overwritten by the point's stores into the current tile. -/
def SD (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : ¬rLast i) (h5 : ¬cOut i)
    (x0 : Vec F S1x3x1024 .f32) (x1 : Vec F S1x3x1024 .f32) (xs : Vec F S1x4096 .f32) : Vec F S1x4096 .f32 :=
  arg7.view.read (Elt F) (arg7.view.writes (Elt F) (harg7.unread xs) (runD c i arg3 harg3 arg4 harg4 arg5 harg5 arg6 harg6 arg7 harg7 h1 h2 h3 h4 h5 x0 x1 xs).2.1)

/-! ### A point of kind E -/

/-- The stores into the first output's buffer tile it. -/
theorem coverXE (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : rLast i) (h5 : ¬cOut i)
    (x0 : Vec F S1x3x1024 .f32) (x1 : Vec F S1x3x1024 .f32) (xs : Vec F S1x4096 .f32) (y : S1x1x1024.Idx) :
    ∃ pc ∈ (runE c i arg3 harg3 arg4 harg4 arg5 harg5 arg6 harg6 arg7 harg7 h1 h2 h3 h4 h5 x0 x1 xs).1, y ∈ pc.1.set :=
  View.cover_of_tiledL (runE c i arg3 harg3 arg4 harg4 arg5 harg5 arg6 harg6 arg7 harg7 h1 h2 h3 h4 h5 x0 x1 xs).1 S1x1x1024.size (by sl_kernel_rfl) y

/-- What the point leaves in the first output's buffer: its pieces read back. -/
def XE (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : rLast i) (h5 : ¬cOut i)
    (x0 : Vec F S1x3x1024 .f32) (x1 : Vec F S1x3x1024 .f32) (xs : Vec F S1x4096 .f32) : Vec F S1x1x1024 .f32 :=
  VO2.read (Elt F) (VO2.writes (Elt F) VO2.junk (runE c i arg3 harg3 arg4 harg4 arg5 harg5 arg6 harg6 arg7 harg7 h1 h2 h3 h4 h5 x0 x1 xs).1)

/-- What the point leaves in the scratch row: what it held, overwritten by the point's stores into the current tile. -/
def SE (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : rLast i) (h5 : ¬cOut i)
    (x0 : Vec F S1x3x1024 .f32) (x1 : Vec F S1x3x1024 .f32) (xs : Vec F S1x4096 .f32) : Vec F S1x4096 .f32 :=
  arg7.view.read (Elt F) (arg7.view.writes (Elt F) (harg7.unread xs) (runE c i arg3 harg3 arg4 harg4 arg5 harg5 arg6 harg6 arg7 harg7 h1 h2 h3 h4 h5 x0 x1 xs).2.1)

/-! ### A point of kind Fin -/

/-- The stores into the first output's buffer tile it. -/
theorem coverXFin (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : rLast i) (h5 : ¬cOut i)
    (x0 : Vec F S1x3x1024 .f32) (x1 : Vec F S1x3x1024 .f32) (xo : Vec F S1x1x1024 .f32) (xs : Vec F S1x4096 .f32) (y : S1x1x1024.Idx) :
    ∃ pc ∈ (runFin c i arg3 harg3 arg4 harg4 arg5 harg5 arg6 harg6 arg7 harg7 h1 h2 h3 h4 h5 x0 x1 xo xs).1, y ∈ pc.1.set :=
  View.cover_of_tiledL (runFin c i arg3 harg3 arg4 harg4 arg5 harg5 arg6 harg6 arg7 harg7 h1 h2 h3 h4 h5 x0 x1 xo xs).1 S1x1x1024.size (by sl_kernel_rfl) y

/-- What the point leaves in the first output's buffer: its pieces read back. -/
def XFin (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : rLast i) (h5 : ¬cOut i)
    (x0 : Vec F S1x3x1024 .f32) (x1 : Vec F S1x3x1024 .f32) (xo : Vec F S1x1x1024 .f32) (xs : Vec F S1x4096 .f32) : Vec F S1x1x1024 .f32 :=
  VO2.read (Elt F) (VO2.writes (Elt F) VO2.junk (runFin c i arg3 harg3 arg4 harg4 arg5 harg5 arg6 harg6 arg7 harg7 h1 h2 h3 h4 h5 x0 x1 xo xs).1)

/-- What the point leaves in the scratch row: what it held, overwritten by the point's stores into the current tile. -/
def SFin (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : rLast i) (h5 : ¬cOut i)
    (x0 : Vec F S1x3x1024 .f32) (x1 : Vec F S1x3x1024 .f32) (xo : Vec F S1x1x1024 .f32) (xs : Vec F S1x4096 .f32) : Vec F S1x4096 .f32 :=
  arg7.view.read (Elt F) (arg7.view.writes (Elt F) (harg7.unread xs) (runFin c i arg3 harg3 arg4 harg4 arg5 harg5 arg6 harg6 arg7 harg7 h1 h2 h3 h4 h5 x0 x1 xo xs).2.1)

/-! ### A point of kind G -/

/-- The stores into the first output's buffer tile it. -/
theorem coverXG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) (y : S1x1x1024.Idx) :
    ∃ pc ∈ (runG c i arg3 harg3 arg4 harg4 arg5 harg5 arg6 harg6 arg7 harg7 h1 h2 h3 h4 h5 x0 x1 xo xs).1, y ∈ pc.1.set :=
  View.cover_of_tiledL (runG c i arg3 harg3 arg4 harg4 arg5 harg5 arg6 harg6 arg7 harg7 h1 h2 h3 h4 h5 x0 x1 xo xs).1 S1x1x1024.size (by sl_kernel_rfl) y

/-- What the point leaves in the first output's buffer: its pieces read back. -/
def XG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) : Vec F S1x1x1024 .f32 :=
  VO2.read (Elt F) (VO2.writes (Elt F) VO2.junk (runG c i arg3 harg3 arg4 harg4 arg5 harg5 arg6 harg6 arg7 harg7 h1 h2 h3 h4 h5 x0 x1 xo xs).1)

/-- The store into the second output's buffer covers it. -/
theorem coverYG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) (y : S1x1x4096.Idx) :
    ∃ pc ∈ (runG c i arg3 harg3 arg4 harg4 arg5 harg5 arg6 harg6 arg7 harg7 h1 h2 h3 h4 h5 x0 x1 xo xs).2.1, y ∈ pc.1.set :=
  View.cover_of_tiledL (runG c i arg3 harg3 arg4 harg4 arg5 harg5 arg6 harg6 arg7 harg7 h1 h2 h3 h4 h5 x0 x1 xo xs).2.1 S1x1x4096.size (by sl_kernel_rfl) y

/-- What the point leaves in the second output's buffer: the scratch row, copied. -/
def YG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) : Vec F S1x1x4096 .f32 :=
  VO3.read (Elt F) (VO3.writes (Elt F) VO3.junk (runG c i arg3 harg3 arg4 harg4 arg5 harg5 arg6 harg6 arg7 harg7 h1 h2 h3 h4 h5 x0 x1 xo xs).2.1)

/-- What the point leaves in the scratch row: what it held, overwritten by the point's stores into the current tile. -/
def SG (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) : Vec F S1x4096 .f32 :=
  arg7.view.read (Elt F) (arg7.view.writes (Elt F) (harg7.unread xs) (runG c i arg3 harg3 arg4 harg4 arg5 harg5 arg6 harg6 arg7 harg7 h1 h2 h3 h4 h5 x0 x1 xo xs).2.2.1)

/-! ## Point by point -/

/-- What point `t` leaves, given what the point before left (`p`): the kind of the point is read off its number —
    c = t % 4 and r = (t / 4) % 4, so (r, c) = (3, 3) is t % 16 = 15, (0, 0) is t % 16 = 0 and r = 3 is 12 ≤ t % 16. The second
    output's buffer is stored at (3, 3) only; elsewhere its entry is carried along unread. -/
def step (c : Dev nD) (t : Fin cfg0.N) (p : St F) : St F :=
  if hO : t.val % 16 = 15 then ⟨XG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S, YG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S, SG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S⟩
  else if hR : t.val % 16 = 0 then ⟨XA c (grid0.coords t) (ms0 t) (hs0 t) (ms1 t) (hs1 t) (ms2 t) (hs2 t) (ms3 t) (hs3 t) scM hscM ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t), p.Y, SA c (grid0.coords t) (ms0 t) (hs0 t) (ms1 t) (hs1 t) (ms2 t) (hs2 t) (ms3 t) (hs3 t) scM hscM ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t)⟩
  else if hL : t.val % 4 = 3 then ⟨XC c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) (fun h => absurd ((hRLast t).mp h) (by (try dsimp only); omega)) (fun h => absurd ((hOut t).mp h) (by (try dsimp only); omega)) (iblk m c 0 t) (iblk m c 1 t) p.X p.S, p.Y, SC c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) (fun h => absurd ((hRLast t).mp h) (by (try dsimp only); omega)) (fun h => absurd ((hOut t).mp h) (by (try dsimp only); omega)) (iblk m c 0 t) (iblk m c 1 t) p.X p.S⟩
  else if hF : t.val % 4 = 0 then
    if hE : 12 ≤ t.val % 16 then ⟨XE c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.S, p.Y, SE c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.S⟩
    else ⟨XD c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.S, p.Y, SD c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.S⟩
  else if hE : 12 ≤ t.val % 16 then ⟨XFin c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.X p.S, p.Y, SFin c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.X p.S⟩
  else ⟨XMid c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.X p.S, p.Y, SMid c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.X p.S⟩

/-- THE ACCUMULATION: what the two outputs' staging buffers and the scratch row hold after the body at position `n`. -/
def outsAt (c : Dev nD) : (n : ℕ) → n < cfg0.N → St F
  | 0, hn => step m c ⟨0, hn⟩ St.junk
  | n + 1, hn => step m c ⟨n + 1, hn⟩ (outsAt c n (Nat.lt_of_succ_lt hn))

/-- At a later point: the step over what the point before left. -/
theorem outsAt_pos (c : Dev nD) (t : Fin cfg0.N) (ht : t.val ≠ 0) :
    outsAt m c t.val t.isLt = step m c t (outsAt m c (t.val - 1) (Nat.lt_of_le_of_lt (Nat.sub_le _ _) t.isLt)) := by
  obtain ⟨n, hn⟩ := t
  cases n with
  | zero => exact absurd rfl ht
  | succ n => rfl

/-- At the first point: the step over anything (the point is of kind A, which reads nothing the point before left). -/
theorem outsAt_zero (c : Dev nD) (t : Fin cfg0.N) (ht : t.val = 0) :
    outsAt m c t.val t.isLt = step m c t St.junk := by
  obtain ⟨n, hn⟩ := t
  cases n with
  | zero => rfl
  | succ n => exact absurd ht (Nat.succ_ne_zero n)

theorem step_A (c : Dev nD) (t : Fin cfg0.N) (p : St F) (hO : ¬t.val % 16 = 15) (hR : t.val % 16 = 0) :
    step m c t p = ⟨XA c (grid0.coords t) (ms0 t) (hs0 t) (ms1 t) (hs1 t) (ms2 t) (hs2 t) (ms3 t) (hs3 t) scM hscM ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t), p.Y, SA c (grid0.coords t) (ms0 t) (hs0 t) (ms1 t) (hs1 t) (ms2 t) (hs2 t) (ms3 t) (hs3 t) scM hscM ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t)⟩ :=
  (dif_neg hO).trans (dif_pos hR)

theorem step_Mid (c : Dev nD) (t : Fin cfg0.N) (p : St F) (hO : ¬t.val % 16 = 15) (hR : ¬t.val % 16 = 0) (hL : ¬t.val % 4 = 3) (hF : ¬t.val % 4 = 0) (hE : ¬12 ≤ t.val % 16) :
    step m c t p = ⟨XMid c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.X p.S, p.Y, SMid c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.X p.S⟩ :=
  (dif_neg hO).trans ((dif_neg hR).trans ((dif_neg hL).trans ((dif_neg hF).trans (dif_neg hE))))

theorem step_C (c : Dev nD) (t : Fin cfg0.N) (p : St F) (hO : ¬t.val % 16 = 15) (hR : ¬t.val % 16 = 0) (hL : t.val % 4 = 3) :
    step m c t p = ⟨XC c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) (fun h => absurd ((hRLast t).mp h) (by (try dsimp only); omega)) (fun h => absurd ((hOut t).mp h) (by (try dsimp only); omega)) (iblk m c 0 t) (iblk m c 1 t) p.X p.S, p.Y, SC c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) (fun h => absurd ((hRLast t).mp h) (by (try dsimp only); omega)) (fun h => absurd ((hOut t).mp h) (by (try dsimp only); omega)) (iblk m c 0 t) (iblk m c 1 t) p.X p.S⟩ :=
  (dif_neg hO).trans ((dif_neg hR).trans (dif_pos hL))

theorem step_D (c : Dev nD) (t : Fin cfg0.N) (p : St F) (hO : ¬t.val % 16 = 15) (hR : ¬t.val % 16 = 0) (hL : ¬t.val % 4 = 3) (hF : t.val % 4 = 0) (hE : ¬12 ≤ t.val % 16) :
    step m c t p = ⟨XD c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.S, p.Y, SD c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) p.S⟩ :=
  (dif_neg hO).trans ((dif_neg hR).trans ((dif_neg hL).trans ((dif_pos hF).trans (dif_neg hE))))

theorem step_E (c : Dev nD) (t : Fin cfg0.N) (p : St F) (hO : ¬t.val % 16 = 15) (hR : ¬t.val % 16 = 0) (hL : ¬t.val % 4 = 3) (hF : t.val % 4 = 0) (hE : 12 ≤ t.val % 16) :
    step m c t p = ⟨XE c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.S, p.Y, SE c (grid0.coords t) (ms0 t) (hs0 t) (ms1 t) (hs1 t) (ms2 t) (hs2 t) (ms3 t) (hs3 t) scM hscM (fun h => absurd ((hReset t).mp h) (by (try dsimp only); omega)) ((hFirst t).mpr (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.S⟩ :=
  (dif_neg hO).trans ((dif_neg hR).trans ((dif_neg hL).trans ((dif_pos hF).trans (dif_pos hE))))

theorem step_Fin (c : Dev nD) (t : Fin cfg0.N) (p : St F) (hO : ¬t.val % 16 = 15) (hR : ¬t.val % 16 = 0) (hL : ¬t.val % 4 = 3) (hF : ¬t.val % 4 = 0) (hE : 12 ≤ t.val % 16) :
    step m c t p = ⟨XFin c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.X p.S, p.Y, SFin c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) p.X p.S⟩ :=
  (dif_neg hO).trans ((dif_neg hR).trans ((dif_neg hL).trans ((dif_neg hF).trans (dif_pos hE))))

theorem step_G (c : Dev nD) (t : Fin cfg0.N) (p : St F) (hO : t.val % 16 = 15) :
    step m c t p = ⟨XG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S, YG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S, SG c (grid0.coords t) (ms0 t) (hs0 t) (ms1 t) (hs1 t) (ms2 t) (hs2 t) (ms3 t) (hs3 t) scM hscM (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) p.X p.S⟩ :=
  (dif_pos hO)

/-! ## The region's invariant and the proof data -/

/-- The region invariant before position `n`: before the first point the launch's (the scratch row at anything);
    afterwards the scratch row at what the point before left in it, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).S)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).S)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).S)) ∗ (∃ r, prngReg c r)) := by
  cases n with
  | zero => exact absurd rfl hz
  | succ n => rfl

/-- The proof data of the pipeline on core `c`: the arrays as the region finds them; after the body at point `t` each
    input's buffer at its block and the outputs' at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).X
    | ⟨3, _⟩ => (outsAt m c t.val t.isLt).Y
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).X := by dsimp only [dats]
theorem after3 (c : Dev nD) (t : Fin cfg0.N) : (dats m 0 c).after 3 t = (outsAt m c t.val t.isLt).Y := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Where c > 0 the first output's buffer holds what the point before left: its block index has not moved, so it was not
    written back in between. -/
theorem before2 (c : Dev nD) (t : Fin cfg0.N) (ht : ¬t.val % 4 = 0) (d) :
    (dats m 0 c).before 2 t d = (outsAt m c (t.val - 1) (Nat.lt_of_le_of_lt (Nat.sub_le _ _) t.isLt)).X :=
  ((dats m 0 c).before_out_kept 2 rfl t (fun h => ht (by rw [h]))
    (Bool.eq_false_iff.mpr fun h => by
      have h' := (flush0_2 ⟨t.val - 1, Nat.lt_of_le_of_lt (Nat.sub_le _ _) t.isLt⟩).mp h
      dsimp only at h'; omega)
    (fun _ => rfl) (fun _ _ => rfl) d).trans (after2 m c _)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' buffers hold their blocks; the point's number says which of the seven kinds it is; where
    c > 0 the first output's buffer holds what the point before left; the invariant hands the body the scratch row at what the
    point before left (at anything at the first point) and takes it back at this point's contents; the second output's buffer
    is handed back untouched except at the last point of a batch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  have hN : t.val < 128 := lt_of_lt_of_eq t.isLt (show cfg0.N = 128 from N_0)
  by_cases hO : t.val % 16 = 15
  · have hF : ¬t.val % 4 = 0 := by omega
    rw [show (dats m 0 c).leavesExact 3 t = owns (c : Thread nD τ) (ms3 t) fullShare ((dats m 0 c).after 3 t) from by
          unfold Dat.leavesExact; rw [live3 t ((hOut t).mpr (by (try dsimp only); omega))], after3]
    simp only [before2 m c t hF]
    have hz : t.val ≠ 0 := by omega
    rw [outsAt_pos m c t hz, step_G m c t _ hO]
    dsimp only
    unfold XG SG YG; (try dsimp only)
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runG c (grid0.coords t) _ _ _ _ _ _ _ _ _ _ (fun h => absurd ((hReset t).mp h) (by (try dsimp only); omega)) (fun h => absurd ((hFirst t).mp h) (by (try dsimp only); omega)) ((hLast t).mpr (by (try dsimp only); omega)) ((hRLast t).mpr (by (try dsimp only); omega)) ((hOut t).mpr (by (try dsimp only); omega)) (iblk m c 0 t) (iblk m c 1 t) _ _).2.2.2 Set.univ _)
    isplitl [H0]; · iexact H0
    isplitl [H1]; · iexact H1
    isplitl [H2]; · iexact H2
    isplitl [H3]; · iexists _; iexact H3
    isplitl [HS]; · iexact HS
    iintro ⟨H0, H1, ⟨%e2, H2⟩, ⟨%e3, H3⟩, HS⟩
    isplitl [HS Hg]
    · isplitl [HS]
      · unfold owns; iexists _; isplitr
        swap; · iexact HS
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverXG c _ _ _ _ _ _ _ _ _ _ _ _ _ _ _ _ _ _ _ _)
    unfold owns; iexists _; isplitr
    swap; · iexact H3
    ipureintro; exact View.read_writes_of_cover _ _ _ _ _ (coverYG c _ _ _ _ _ _ _ _ _ _ _ _ _ _ _ _ _ _ _ _)

  by_cases hR : t.val % 16 = 0
  · rw [Dat.leavesExact_idle (dats m 0 c) 3 t (idle3 t (fun h => absurd ((hOut t).mp h) (by (try dsimp only); omega))) (noFlush3 t (fun h => absurd ((hOut t).mp h) (by (try dsimp only); omega)))]
    by_cases hz : t.val = 0
    · rw [outsAt_zero m c t hz, step_A m c t _ hO hR]
      dsimp only
      unfold XA SA; (try dsimp only)
      rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t)).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (coverSA c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverXA c _ _ _ _ _ _ _ _ _ _ _ _ _ _ _ _ _ _)
      iexists _; iexact H3
    · rw [outsAt_pos m c t hz, step_A m c t _ hO hR]
      dsimp only
      unfold XA SA; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((hReset t).mpr (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t)).2.2 _ Set.univ _)
      isplitl [H0]; · iexact H0
      isplitl [H1]; · iexact H1
      isplitl [H2]; · iexists _; iexact H2
      isplitl [H3]; · iexact H3
      isplitl [HS]; · iexists _; iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (coverSA c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverXA c _ _ _ _ _ _ _ _ _ _ _ _ _ _ _ _ _ _)
      iexists _; iexact H3
  by_cases hL : t.val % 4 = 3
  · have hF : ¬t.val % 4 = 0 := by omega
    rw [Dat.leavesExact_idle (dats m 0 c) 3 t (idle3 t (fun h => absurd ((hOut t).mp h) (by (try dsimp only); omega))) (noFlush3 t (fun h => absurd ((hOut t).mp h) (by (try dsimp only); omega)))]
    simp only [before2 m c t hF]
    have hz : t.val ≠ 0 := by omega
    rw [outsAt_pos m c t hz, step_C m c t _ hO hR hL]
    dsimp only
    unfold XC SC; (try dsimp only)
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runC c (grid0.coords t) _ _ _ _ _ _ _ _ _ _ (fun h => absurd ((hReset t).mp h) (by (try dsimp only); omega)) (fun h => absurd ((hFirst t).mp h) (by (try dsimp only); omega)) ((hLast t).mpr (by (try dsimp only); omega)) (fun h => absurd ((hRLast t).mp h) (by (try dsimp only); omega)) (fun h => absurd ((hOut t).mp h) (by (try dsimp only); omega)) (iblk m c 0 t) (iblk m c 1 t) _ _).2.2 _ Set.univ _)
    isplitl [H0]; · iexact H0
    isplitl [H1]; · iexact H1
    isplitl [H2]; · iexact H2
    isplitl [H3]; · iexact H3
    isplitl [HS]; · iexact HS
    iintro ⟨H0, H1, ⟨%e2, H2⟩, H3, HS⟩
    isplitl [HS Hg]
    · isplitl [HS]
      · unfold owns; iexists _; isplitr
        swap; · iexact HS
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverXC c _ _ _ _ _ _ _ _ _ _ _ _ _ _ _ _ _ _ _ _)
    iexists _; iexact H3

  by_cases hF : t.val % 4 = 0
  · by_cases hE : 12 ≤ t.val % 16
    · rw [Dat.leavesExact_idle (dats m 0 c) 3 t (idle3 t (fun h => absurd ((hOut t).mp h) (by (try dsimp only); omega))) (noFlush3 t (fun h => absurd ((hOut t).mp h) (by (try dsimp only); omega)))]
      have hz : t.val ≠ 0 := by omega
      rw [outsAt_pos m c t hz, step_E m c t _ hO hR hL hF hE]
      dsimp only
      unfold XE SE; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runE c (grid0.coords t) _ _ _ _ _ _ _ _ _ _ (fun h => absurd ((hReset t).mp h) (by (try dsimp only); omega)) ((hFirst t).mpr (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverXE c _ _ _ _ _ _ _ _ _ _ _ _ _ _ _ _ _ _ _)
      iexists _; iexact H3
    · rw [Dat.leavesExact_idle (dats m 0 c) 3 t (idle3 t (fun h => absurd ((hOut t).mp h) (by (try dsimp only); omega))) (noFlush3 t (fun h => absurd ((hOut t).mp h) (by (try dsimp only); omega)))]
      have hz : t.val ≠ 0 := by omega
      rw [outsAt_pos m c t hz, step_D m c t _ hO hR hL hF hE]
      dsimp only
      unfold XD SD; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runD c (grid0.coords t) _ _ _ _ _ _ _ _ _ _ (fun h => absurd ((hReset t).mp h) (by (try dsimp only); omega)) ((hFirst t).mpr (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverXD c _ _ _ _ _ _ _ _ _ _ _ _ _ _ _ _ _ _ _)
      iexists _; iexact H3
  by_cases hE : 12 ≤ t.val % 16
  · rw [Dat.leavesExact_idle (dats m 0 c) 3 t (idle3 t (fun h => absurd ((hOut t).mp h) (by (try dsimp only); omega))) (noFlush3 t (fun h => absurd ((hOut t).mp h) (by (try dsimp only); omega)))]
    simp only [before2 m c t hF]
    have hz : t.val ≠ 0 := by omega
    rw [outsAt_pos m c t hz, step_Fin m c t _ hO hR hL hF hE]
    dsimp only
    unfold XFin SFin; (try dsimp only)
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runFin c (grid0.coords t) _ _ _ _ _ _ _ _ _ _ (fun h => absurd ((hReset t).mp h) (by (try dsimp only); omega)) (fun h => absurd ((hFirst t).mp h) (by (try dsimp only); omega)) (fun h => absurd ((hLast t).mp h) (by (try dsimp only); omega)) ((hRLast t).mpr (by (try dsimp only); omega)) (fun h => absurd ((hOut t).mp h) (by (try dsimp only); omega)) (iblk m c 0 t) (iblk m c 1 t) _ _).2.2 _ Set.univ _)
    isplitl [H0]; · iexact H0
    isplitl [H1]; · iexact H1
    isplitl [H2]; · iexact H2
    isplitl [H3]; · iexact H3
    isplitl [HS]; · iexact HS
    iintro ⟨H0, H1, ⟨%e2, H2⟩, H3, HS⟩
    isplitl [HS Hg]
    · isplitl [HS]
      · unfold owns; iexists _; isplitr
        swap; · iexact HS
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverXFin c _ _ _ _ _ _ _ _ _ _ _ _ _ _ _ _ _ _ _ _)
    iexists _; iexact H3
  · rw [Dat.leavesExact_idle (dats m 0 c) 3 t (idle3 t (fun h => absurd ((hOut t).mp h) (by (try dsimp only); omega))) (noFlush3 t (fun h => absurd ((hOut t).mp h) (by (try dsimp only); omega)))]
    simp only [before2 m c t hF]
    have hz : t.val ≠ 0 := by omega
    rw [outsAt_pos m c t hz, step_Mid m c t _ hO hR hL hF hE]
    dsimp only
    unfold XMid SMid; (try dsimp only)
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runMid c (grid0.coords t) _ _ _ _ _ _ _ _ _ _ (fun h => absurd ((hReset t).mp h) (by (try dsimp only); omega)) (fun h => absurd ((hFirst t).mp h) (by (try dsimp only); omega)) (fun h => absurd ((hLast t).mp h) (by (try dsimp only); omega)) (fun h => absurd ((hRLast t).mp h) (by (try dsimp only); omega)) (fun h => absurd ((hOut t).mp h) (by (try dsimp only); omega)) (iblk m c 0 t) (iblk m c 1 t) _ _).2.2 _ Set.univ _)
    isplitl [H0]; · iexact H0
    isplitl [H1]; · iexact H1
    isplitl [H2]; · iexact H2
    isplitl [H3]; · iexact H3
    isplitl [HS]; · iexact HS
    iintro ⟨H0, H1, ⟨%e2, H2⟩, H3, HS⟩
    isplitl [HS Hg]
    · isplitl [HS]
      · unfold owns; iexists _; isplitr
        swap; · iexact HS
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverXMid c _ _ _ _ _ _ _ _ _ _ _ _ _ _ _ _ _ _ _ _)
    iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch row's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

/-! ## The run and the frame -/

set_option backward.isDefEq.respectTransparency.types false in
/-- Every weakly fair execution of @main terminates, and every final state has every array of the pipeline at what the library
    computes from the proof data, and every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Gen.Hand

end
-- ==== Proof.KernelIdeal.PiecesX.lean ====
/-
  What each kind of point leaves in the first output's staging buffer, as the body's arithmetic of the two input blocks and of
  what the buffer held: the running minimum lowered by this pair of tiles' row minima, from +inf where c = 0, and finished where
  c = 3.
-/
import proofs.«152746_j51754355916968_2_alg».proof.Proof.KernelIdeal.Body
import Idealize.ShloMosaic.Lib.Pipeline.Value

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → ℕ) = fun _ => 0 :=
  funext fun a => by match a with | ⟨0, _⟩ => rfl | ⟨1, _⟩ => rfl | ⟨2, _⟩ => rfl
theorem hz2 : (![0, 0] : Fin 2 → ℕ) = fun _ => 0 :=
  funext fun a => by match a with | ⟨0, _⟩ => rfl | ⟨1, _⟩ => rfl

theorem XA_eq (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : cReset i) (h2 : cFirst i) (h3 : ¬cLast i) (h4 : ¬rLast i) (h5 : ¬cOut i)
    (x0 : Vec F S1x3x1024 .f32) (x1 : Vec F S1x3x1024 .f32) :
    XA c i arg3 harg3 arg4 harg4 arg5 harg5 arg6 harg6 arg7 harg7 h1 h2 h3 h4 h5 x0 x1 = k0_pay12 x0 x1 (k0_pay6 (F := F)) := by
  unfold XA
  rw [View.read_writes_eq_canon _ _ _ (coverXA c i arg3 harg3 arg4 harg4 arg5 harg5 arg6 harg6 arg7 harg7 h1 h2 h3 h4 h5 x0 x1)]
  unfold runA; dsimp only; sl_unfold_words
  rw [View.canon_cons_unit_zero hz3]
  simp only [View.readAt_eq_ld, harg3.read_unread, harg4.read_unread, harg5.read_unread, harg7.read_unread, View.readCov_cons_toLoadRect, View.ld_unit_zero (S := S1x3x1024) hz3, View.ld_unit_zero (S := S1x1x1024) hz3]

theorem XMid_eq (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : ¬rLast i) (h5 : ¬cOut i)
    (x0 : Vec F S1x3x1024 .f32) (x1 : Vec F S1x3x1024 .f32) (xo : Vec F S1x1x1024 .f32) (xs : Vec F S1x4096 .f32) :
    XMid c i arg3 harg3 arg4 harg4 arg5 harg5 arg6 harg6 arg7 harg7 h1 h2 h3 h4 h5 x0 x1 xo xs = k0_pay12 x0 x1 xo := by
  unfold XMid
  rw [View.read_writes_eq_canon _ _ _ (coverXMid c i arg3 harg3 arg4 harg4 arg5 harg5 arg6 harg6 arg7 harg7 h1 h2 h3 h4 h5 x0 x1 xo xs)]
  unfold runMid; dsimp only; sl_unfold_words
  rw [View.canon_cons_unit_zero hz3]
  simp only [View.readAt_eq_ld, harg3.read_unread, harg4.read_unread, harg5.read_unread, harg7.read_unread, View.readCov_cons_toLoadRect, View.ld_unit_zero (S := S1x3x1024) hz3, View.ld_unit_zero (S := S1x1x1024) hz3]

theorem XC_eq (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : ¬rLast i) (h5 : ¬cOut i)
    (x0 : Vec F S1x3x1024 .f32) (x1 : Vec F S1x3x1024 .f32) (xo : Vec F S1x1x1024 .f32) (xs : Vec F S1x4096 .f32) :
    XC c i arg3 harg3 arg4 harg4 arg5 harg5 arg6 harg6 arg7 harg7 h1 h2 h3 h4 h5 x0 x1 xo xs = k0_pay2 (k0_pay10 x0) (k0_pay12 x0 x1 xo) := by
  unfold XC
  rw [View.read_writes_eq_canon _ _ _ (coverXC c i arg3 harg3 arg4 harg4 arg5 harg5 arg6 harg6 arg7 harg7 h1 h2 h3 h4 h5 x0 x1 xo xs)]
  unfold runC; dsimp only; sl_unfold_words
  rw [View.canon_cons_unit_zero hz3]
  simp only [View.readAt_eq_ld, harg3.read_unread, harg4.read_unread, harg5.read_unread, harg7.read_unread, View.readCov_cons_toLoadRect, View.ld_unit_zero (S := S1x3x1024) hz3, View.ld_unit_zero (S := S1x1x1024) hz3]

theorem XD_eq (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : ¬rLast i) (h5 : ¬cOut i)
    (x0 : Vec F S1x3x1024 .f32) (x1 : Vec F S1x3x1024 .f32) (xs : Vec F S1x4096 .f32) :
    XD c i arg3 harg3 arg4 harg4 arg5 harg5 arg6 harg6 arg7 harg7 h1 h2 h3 h4 h5 x0 x1 xs = k0_pay12 x0 x1 (k0_pay6 (F := F)) := by
  unfold XD
  rw [View.read_writes_eq_canon _ _ _ (coverXD c i arg3 harg3 arg4 harg4 arg5 harg5 arg6 harg6 arg7 harg7 h1 h2 h3 h4 h5 x0 x1 xs)]
  unfold runD; dsimp only; sl_unfold_words
  rw [View.canon_cons_unit_zero hz3]
  simp only [View.readAt_eq_ld, harg3.read_unread, harg4.read_unread, harg5.read_unread, harg7.read_unread, View.readCov_cons_toLoadRect, View.ld_unit_zero (S := S1x3x1024) hz3, View.ld_unit_zero (S := S1x1x1024) hz3]

theorem XE_eq (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : cFirst i) (h3 : ¬cLast i) (h4 : rLast i) (h5 : ¬cOut i)
    (x0 : Vec F S1x3x1024 .f32) (x1 : Vec F S1x3x1024 .f32) (xs : Vec F S1x4096 .f32) :
    XE c i arg3 harg3 arg4 harg4 arg5 harg5 arg6 harg6 arg7 harg7 h1 h2 h3 h4 h5 x0 x1 xs = k0_pay12 x0 x1 (k0_pay6 (F := F)) := by
  unfold XE
  rw [View.read_writes_eq_canon _ _ _ (coverXE c i arg3 harg3 arg4 harg4 arg5 harg5 arg6 harg6 arg7 harg7 h1 h2 h3 h4 h5 x0 x1 xs)]
  unfold runE; dsimp only; sl_unfold_words
  rw [View.canon_cons_unit_zero hz3]
  simp only [View.readAt_eq_ld, harg3.read_unread, harg4.read_unread, harg5.read_unread, harg7.read_unread, View.readCov_cons_toLoadRect, View.ld_unit_zero (S := S1x3x1024) hz3, View.ld_unit_zero (S := S1x1x1024) hz3]

theorem XFin_eq (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : ¬cLast i) (h4 : rLast i) (h5 : ¬cOut i)
    (x0 : Vec F S1x3x1024 .f32) (x1 : Vec F S1x3x1024 .f32) (xo : Vec F S1x1x1024 .f32) (xs : Vec F S1x4096 .f32) :
    XFin c i arg3 harg3 arg4 harg4 arg5 harg5 arg6 harg6 arg7 harg7 h1 h2 h3 h4 h5 x0 x1 xo xs = k0_pay12 x0 x1 xo := by
  unfold XFin
  rw [View.read_writes_eq_canon _ _ _ (coverXFin c i arg3 harg3 arg4 harg4 arg5 harg5 arg6 harg6 arg7 harg7 h1 h2 h3 h4 h5 x0 x1 xo xs)]
  unfold runFin; dsimp only; sl_unfold_words
  rw [View.canon_cons_unit_zero hz3]
  simp only [View.readAt_eq_ld, harg3.read_unread, harg4.read_unread, harg5.read_unread, harg7.read_unread, View.readCov_cons_toLoadRect, View.ld_unit_zero (S := S1x3x1024) hz3, View.ld_unit_zero (S := S1x1x1024) hz3]

theorem XG_eq (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (arg7 : Memref sig .tc .vmem S1x4096 .f32) (harg7 : arg7.IsWhole)
    (h1 : ¬cReset i) (h2 : ¬cFirst i) (h3 : cLast i) (h4 : rLast i) (h5 : cOut i)
    (x0 : Vec F S1x3x1024 .f32) (x1 : Vec F S1x3x1024 .f32) (xo : Vec F S1x1x1024 .f32) (xs : Vec F S1x4096 .f32) :
    XG c i arg3 harg3 arg4 harg4 arg5 harg5 arg6 harg6 arg7 harg7 h1 h2 h3 h4 h5 x0 x1 xo xs = k0_pay2 (k0_pay10 x0) (k0_pay12 x0 x1 xo) := by
  unfold XG
  rw [View.read_writes_eq_canon _ _ _ (coverXG c i arg3 harg3 arg4 harg4 arg5 harg5 arg6 harg6 arg7 harg7 h1 h2 h3 h4 h5 x0 x1 xo xs)]
  unfold runG; dsimp only; sl_unfold_words
  rw [View.canon_cons_unit_zero hz3]
  simp only [View.readAt_eq_ld, harg3.read_unread, harg4.read_unread, harg5.read_unread, harg7.read_unread, View.readCov_cons_toLoadRect, View.ld_unit_zero (S := S1x3x1024) hz3, View.ld_unit_zero (S := S1x1x1024) hz3]

end Cert.KernelIdeal.Gen.Hand

end
-- ==== Proof.KernelIdeal.StepX.lean ====
/-
  The first output's staging buffer point by point: where c = 0 the running minimum starts from +inf, where c = 1 or 2 it is
  lowered from what the point before left, where c = 3 it is lowered and finished.
-/
import proofs.«152746_j51754355916968_2_alg».proof.Proof.KernelIdeal.PiecesX

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X_first (c : Dev nD) (t : Fin cfg0.N) (h : t.val % 4 = 0) :
    (outsAt m c t.val t.isLt).X = k0_pay12 (iblk m c 0 t) (iblk m c 1 t) (k0_pay6 (F := F)) := by
  have hN : t.val < 128 := lt_of_lt_of_eq t.isLt (show cfg0.N = 128 from N_0)
  have hO : ¬t.val % 16 = 15 := by omega
  have hL : ¬t.val % 4 = 3 := by omega
  by_cases hR : t.val % 16 = 0
  · by_cases hz : t.val = 0
    · rw [outsAt_zero m c t hz, step_A m c t _ hO hR]; dsimp only; exact XA_eq c (grid0.coords t) (ms0 t) (hs0 t) (ms1 t) (hs1 t) (ms2 t) (hs2 t) (ms3 t) (hs3 t) scM hscM _ _ _ _ _ (iblk m c 0 t) (iblk m c 1 t)
    · rw [outsAt_pos m c t hz, step_A m c t _ hO hR]; dsimp only; exact XA_eq c (grid0.coords t) (ms0 t) (hs0 t) (ms1 t) (hs1 t) (ms2 t) (hs2 t) (ms3 t) (hs3 t) scM hscM _ _ _ _ _ (iblk m c 0 t) (iblk m c 1 t)
  · have hz : t.val ≠ 0 := by omega
    by_cases hE : 12 ≤ t.val % 16
    · rw [outsAt_pos m c t hz, step_E m c t _ hO hR hL h hE]; dsimp only; exact XE_eq c (grid0.coords t) (ms0 t) (hs0 t) (ms1 t) (hs1 t) (ms2 t) (hs2 t) (ms3 t) (hs3 t) scM hscM _ _ _ _ _ (iblk m c 0 t) (iblk m c 1 t) (outsAt m c (t.val - 1) (Nat.lt_of_le_of_lt (Nat.sub_le _ _) t.isLt)).S
    · rw [outsAt_pos m c t hz, step_D m c t _ hO hR hL h hE]; dsimp only; exact XD_eq c (grid0.coords t) (ms0 t) (hs0 t) (ms1 t) (hs1 t) (ms2 t) (hs2 t) (ms3 t) (hs3 t) scM hscM _ _ _ _ _ (iblk m c 0 t) (iblk m c 1 t) (outsAt m c (t.val - 1) (Nat.lt_of_le_of_lt (Nat.sub_le _ _) t.isLt)).S

theorem X_mid (c : Dev nD) (t : Fin cfg0.N) (h0 : ¬t.val % 4 = 0) (h3 : ¬t.val % 4 = 3) :
    (outsAt m c t.val t.isLt).X
      = k0_pay12 (iblk m c 0 t) (iblk m c 1 t) (outsAt m c (t.val - 1) (Nat.lt_of_le_of_lt (Nat.sub_le _ _) t.isLt)).X := by
  have hN : t.val < 128 := lt_of_lt_of_eq t.isLt (show cfg0.N = 128 from N_0)
  have hO : ¬t.val % 16 = 15 := by omega
  have hR : ¬t.val % 16 = 0 := by omega
  have hz : t.val ≠ 0 := by omega
  by_cases hE : 12 ≤ t.val % 16
  · rw [outsAt_pos m c t hz, step_Fin m c t _ hO hR h3 h0 hE]; dsimp only; exact XFin_eq c (grid0.coords t) (ms0 t) (hs0 t) (ms1 t) (hs1 t) (ms2 t) (hs2 t) (ms3 t) (hs3 t) scM hscM _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S
  · rw [outsAt_pos m c t hz, step_Mid m c t _ hO hR h3 h0 hE]; dsimp only; exact XMid_eq c (grid0.coords t) (ms0 t) (hs0 t) (ms1 t) (hs1 t) (ms2 t) (hs2 t) (ms3 t) (hs3 t) scM hscM _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S

theorem X_last (c : Dev nD) (t : Fin cfg0.N) (h3 : t.val % 4 = 3) :
    (outsAt m c t.val t.isLt).X
      = k0_pay2 (k0_pay10 (iblk m c 0 t))
          (k0_pay12 (iblk m c 0 t) (iblk m c 1 t) (outsAt m c (t.val - 1) (Nat.lt_of_le_of_lt (Nat.sub_le _ _) t.isLt)).X) := by
  have hN : t.val < 128 := lt_of_lt_of_eq t.isLt (show cfg0.N = 128 from N_0)
  have hz : t.val ≠ 0 := by omega
  by_cases hO : t.val % 16 = 15
  · rw [outsAt_pos m c t hz, step_G m c t _ hO]; dsimp only; exact XG_eq c (grid0.coords t) (ms0 t) (hs0 t) (ms1 t) (hs1 t) (ms2 t) (hs2 t) (ms3 t) (hs3 t) scM hscM _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S
  · have hR : ¬t.val % 16 = 0 := by omega
    rw [outsAt_pos m c t hz, step_C m c t _ hO hR h3]; dsimp only; exact XC_eq c (grid0.coords t) (ms0 t) (hs0 t) (ms1 t) (hs1 t) (ms2 t) (hs2 t) (ms3 t) (hs3 t) scM hscM _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S

end Cert.KernelIdeal.Gen.Hand

end
-- ==== Proof.Spec.lean ====
/-
  The two programs' results as formulas over the argument arrays P (the predicted points) and Q (the ground-truth points),
  both [8, 4096, 3], on the extended reals.

  The kernel's side: per batch b, pred point n and gt point m it uses |p|^2 = sum_d p_d p_d, |q|^2 likewise, and
  2 p.q as sum_d (2 q_d) p_d; the gt points come in 4 tiles of 1024, and the first result at (b, n) is
  max (min over the tiles, from +inf, of the tile's min over its points of (|q|^2 - 2 p.q), plus |p|^2) 0; the second result at
  (b, m) is the same with the roles of the two clouds exchanged. The reference's side: d2 = max ((|p|^2 + |q|^2) - 2 (p.q)) 0,
  each norm a sum started from the zero word, then the minimum over m, respectively over n, from +inf.
  The float words 2.0, 0.0 and +inf are kept as the programs spell them.
-/
import Idealize.ShloMosaic.PureOps.Ideal
import Idealize.ShloMosaic.Lib.ValueIdx
import Mathlib.Data.Finset.Fold
import Mathlib.Algebra.BigOperators.Fin

noncomputable section

namespace Cert.Spec

open Idealize.ShloMosaic Idealize.ShloMosaic.ValueIdx Finset

/-- An argument array at the ideal instance. -/
abbrev Arr : Type := (⟨3, ![8, 4096, 3]⟩ : Shape).Idx → EReal

/-- The float words the programs spell: 2.0, 0.0, +inf. -/
def two : EReal := Ideal.ofBits .f32 0x40000000#32
def zero : EReal := Ideal.ofBits .f32 0x00000000#32
def inf : EReal := Ideal.ofBits .f32 0x7F800000#32

/-- Point `k` of tile `c`. -/
def tix (c : Fin 4) (k : Fin 1024) : Fin 4096 := ⟨1024 * c.val + k.val, by have := c.isLt; have := k.isLt; omega⟩

@[simp] theorem tix_val (c : Fin 4) (k : Fin 1024) : (tix c k).val = 1024 * c.val + k.val := rfl

/-! ## The kernel's side -/

/-- |p_n|^2 as the kernel sums it. -/
def sqK (P : Arr) (b : Fin 8) (n : Fin 4096) : EReal := ∑ d : Fin 3, P (ix3 b n d) * P (ix3 b n d)

/-- 2 p_n . q_m as the kernel's product forms it: the sum over the coordinates of (2 q_d) p_d. -/
def dotK (P Q : Arr) (b : Fin 8) (n m : Fin 4096) : EReal := ∑ d : Fin 3, (two * Q (ix3 b m d)) * P (ix3 b n d)

/-- For pred point `n`, the minimum over the gt points of tile `c` of |q|^2 - 2 p.q, from +inf. -/
def rowMin (P Q : Arr) (b : Fin 8) (n : Fin 4096) (c : Fin 4) : EReal :=
  (univ : Finset (Fin 1024)).fold min inf fun k => sqK Q b (tix c k) - dotK P Q b n (tix c k)

/-- For gt point `m`, the minimum over the pred points of tile `r` of |p|^2 - 2 p.q, from +inf. -/
def colMin (P Q : Arr) (b : Fin 8) (m : Fin 4096) (r : Fin 4) : EReal :=
  (univ : Finset (Fin 1024)).fold min inf fun j => sqK P b (tix r j) - dotK P Q b (tix r j) m

/-- The kernel's first result array at (b, n): the four tiles' minima folded from +inf in tile order, |p|^2 added, floored at 0. -/
def Gx (P Q : Arr) (b : Fin 8) (n : Fin 4096) : EReal :=
  max (min (min (min (min inf (rowMin P Q b n 0)) (rowMin P Q b n 1)) (rowMin P Q b n 2)) (rowMin P Q b n 3) + sqK P b n) zero

/-- The kernel's second result array at (b, m). -/
def Gy (P Q : Arr) (b : Fin 8) (m : Fin 4096) : EReal :=
  max (min (min (min (min inf (colMin P Q b m 0)) (colMin P Q b m 1)) (colMin P Q b m 2)) (colMin P Q b m 3) + sqK Q b m) zero

/-! ## The reference's side -/

/-- |p_n|^2 as the reference sums it: from the zero word. -/
def sqR (P : Arr) (b : Fin 8) (n : Fin 4096) : EReal := zero + ∑ d : Fin 3, P (ix3 b n d) * P (ix3 b n d)

/-- p_n . q_m. -/
def dotR (P Q : Arr) (b : Fin 8) (n m : Fin 4096) : EReal := ∑ d : Fin 3, P (ix3 b n d) * Q (ix3 b m d)

/-- The floored squared distance. -/
def D (P Q : Arr) (b : Fin 8) (n m : Fin 4096) : EReal := max ((sqR P b n + sqR Q b m) - two * dotR P Q b n m) zero

/-- The nearest gt point of pred point `n`. -/
def refX (P Q : Arr) (b : Fin 8) (n : Fin 4096) : EReal := (univ : Finset (Fin 4096)).fold min inf fun m => D P Q b n m

/-- The nearest pred point of gt point `m`. -/
def refY (P Q : Arr) (b : Fin 8) (m : Fin 4096) : EReal := (univ : Finset (Fin 4096)).fold min inf fun n => D P Q b n m

end Cert.Spec

end
-- ==== Proof.KernelIdeal.Blocks.lean ====
/-
  The two input windows' blocks read at coordinates: at point t = (b, r, c) the pred window holds coordinates d of the pred points
  1024 r + j of batch b, the gt window those of the gt points 1024 c + k — each through the transposition [8, 4096, 3] to
  [8, 3, 4096] that the host performs before the call.
-/
import proofs.«152746_j51754355916968_2_alg».proof.Proof.KernelIdeal.Body
import proofs.«152746_j51754355916968_2_alg».proof.Proof.Spec
import Idealize.ShloMosaic.Lib.StableHlo.Run
import Idealize.ShloMosaic.Lib.ValueLayout
import Idealize.ShloMosaic.Lib.Pipeline.Value

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Spec (tix)

variable (m : (ℓ : Loc nD τ sig) → Buf (Elt Ideal) ℓ) (c : Dev nD)

/-- The two argument arrays as the launch finds them. -/
abbrev argP : Cert.Spec.Arr := m ((c : Thread nD τ).loc main_arg0)
abbrev argQ : Cert.Spec.Arr := m ((c : Thread nD τ).loc main_arg1)

/-- What the pred window's array holds when the region is entered: the first argument, transposed. -/
theorem V_v0 : (V m c main_v0 : S8x3x4096.Idx → EReal)
    = transpose S8x3x4096 [0, 2, 1] (argP m c) transposes_S8x4096x3_S8x3x4096_0_2_1 := by
  show StableHlo.after hostOps0 (fun b => m (c, b)) (Proc.devRef .tc main_v0) = _
  after_results

/-- The gt window's likewise. -/
theorem V_v1 : (V m c main_v1 : S8x3x4096.Idx → EReal)
    = transpose S8x3x4096 [0, 2, 1] (argQ m c) transposes_S8x4096x3_S8x3x4096_0_2_1 := by
  show StableHlo.after hostOps0 (fun b => m (c, b)) (Proc.devRef .tc main_v1) = _
  after_results

/-- The pred window's block index at point t is (b, 0, r); the gt window's is (b, 0, c). -/
theorem idx0 : ∀ t : Fin cfg0.N, win0_0.index t (0 : Fin 3) = t.val / 16 ∧ win0_0.index t (1 : Fin 3) = 0 ∧ win0_0.index t (2 : Fin 3) = t.val / 4 % 4 :=
  (by decide +kernel : ∀ t : Fin grid0.N, win0_0.index t (0 : Fin 3) = t.val / 16 ∧ win0_0.index t (1 : Fin 3) = 0 ∧ win0_0.index t (2 : Fin 3) = t.val / 4 % 4)
theorem idx1 : ∀ t : Fin cfg0.N, win0_1.index t (0 : Fin 3) = t.val / 16 ∧ win0_1.index t (1 : Fin 3) = 0 ∧ win0_1.index t (2 : Fin 3) = t.val % 4 :=
  (by decide +kernel : ∀ t : Fin grid0.N, win0_1.index t (0 : Fin 3) = t.val / 16 ∧ win0_1.index t (1 : Fin 3) = 0 ∧ win0_1.index t (2 : Fin 3) = t.val % 4)

/-- The pred block at (0, d, j): coordinate d of pred point 1024 r + j of batch b. -/
theorem iblk0_apply (t : Fin cfg0.N) (d : Fin 3) (j : Fin 1024) (b : Fin 8) (r : Fin 4) (hb : b.val = t.val / 16) (hr : r.val = t.val / 4 % 4) :
    (iblk m c 0 t : S1x3x1024.Idx → EReal) (ix3 0 d j) = argP m c (ix3 b (tix r j) d) := by
  unfold iblk
  show V m c main_v0 (((cfg0.win 0).blk t).view.emb (ix3 0 d j)) = _
  refine (congrFun (V_v0 m c) _).trans ?_
  obtain ⟨h0, h1, h2⟩ := idx0 t
  refine transpose_apply _ _ _ _ (ix3 b (tix r j) d) (fun a => ?_)
  match a with
  | ⟨0, _⟩ =>
    show b.val = win0_0.index t (0 : Fin 3) * 1 + 1 * 0
    rw [h0, hb]; omega
  | ⟨1, _⟩ =>
    show d.val = win0_0.index t (1 : Fin 3) * 3 + 1 * d.val
    rw [h1]; omega
  | ⟨2, _⟩ =>
    show 1024 * r.val + j.val = win0_0.index t (2 : Fin 3) * 1024 + 1 * j.val
    rw [h2, hr]; omega

/-- The gt block at (0, d, k): coordinate d of gt point 1024 c + k of batch b. -/
theorem iblk1_apply (t : Fin cfg0.N) (d : Fin 3) (k : Fin 1024) (b : Fin 8) (cc : Fin 4) (hb : b.val = t.val / 16) (hc : cc.val = t.val % 4) :
    (iblk m c 1 t : S1x3x1024.Idx → EReal) (ix3 0 d k) = argQ m c (ix3 b (tix cc k) d) := by
  unfold iblk
  show V m c main_v1 (((cfg0.win 1).blk t).view.emb (ix3 0 d k)) = _
  refine (congrFun (V_v1 m c) _).trans ?_
  obtain ⟨h0, h1, h2⟩ := idx1 t
  refine transpose_apply _ _ _ _ (ix3 b (tix cc k) d) (fun a => ?_)
  match a with
  | ⟨0, _⟩ =>
    show b.val = win0_1.index t (0 : Fin 3) * 1 + 1 * 0
    rw [h0, hb]; omega
  | ⟨1, _⟩ =>
    show d.val = win0_1.index t (1 : Fin 3) * 3 + 1 * d.val
    rw [h1]; omega
  | ⟨2, _⟩ =>
    show 1024 * cc.val + k.val = win0_1.index t (2 : Fin 3) * 1024 + 1 * k.val
    rw [h2, hc]; omega

end Cert.KernelIdeal.Gen.Hand

end
-- ==== Proof.LibFirstAxisProductAny.lean ====
/-
  A matrix product that contracts the FIRST axis of both operands, read at one entry, for operands of any two float
  formats.

  For a [K, A] left operand and a [K, B] right operand, the [A, B] product taken over the shared first axis has, at
  entry (a, b), the sum over k of left(k, a) times right(k, b). Over the extended reals a float's format does not
  matter, and the product into a zero accumulator is exactly that sum. The record that names the contraction is taken
  as given, with its contracted axes and the two coordinates it copies from the output index as hypotheses.
-/
import Idealize.ShloMosaic.Lib.ValueIdx
import Idealize.ShloMosaic.PureOps.Ideal.Laws

noncomputable section

namespace Cert.FirstAxisProductAny

open Idealize.ShloMosaic Idealize.ShloMosaic.ValueIdx

/-- A product into a zero accumulator that contracts axis 0 of a [K, A] operand with axis 0 of a [K, B] operand, at
    (a, b), is the sum over k of lhs(k, a) * rhs(k, b), whatever the operands' formats. -/
theorem matmul_zero_apply {K A B : ℕ} {φ₁ φ₂ : FTy} (D : DotDims ⟨2, ![K, A]⟩ ⟨2, ![K, B]⟩ ⟨2, ![A, B]⟩)
    (hlc : D.lhsContracting = [(0 : Fin 2)]) (hrc : D.rhsContracting = [(0 : Fin 2)])
    (hl : ∀ (j : (⟨2, ![A, B]⟩ : Shape).Idx) (q : D.contr.Idx), (D.lhsIdx j q 1).val = (j 0).val)
    (hr : ∀ (j : (⟨2, ![A, B]⟩ : Shape).Idx) (q : D.contr.Idx), (D.rhsIdx j q 1).val = (j 1).val)
    (hrank : D.contr.rank = 1) (hsize : D.contr.size ⟨0, by omega⟩ = K)
    (prec : Option ContractPrecision) (lhs : FVec Ideal ⟨2, ![K, A]⟩ φ₁) (rhs : FVec Ideal ⟨2, ![K, B]⟩ φ₂)
    (a : Fin A) (b : Fin B) :
    FloatOps.matmul D prec lhs rhs (constant ⟨2, ![A, B]⟩ .f32 0x00000000#32) (ix2 a b)
      = ∑ k : Fin K, lhs (ix2 k a) * rhs (ix2 k b) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 a b) ((contrEquiv1 D K hrank hsize).symm k) = ix2 k a := funext fun x => Fin.ext (by
    match x with
    | ⟨0, _⟩ => exact (D.lhsIdx_val_of_single hlc _ _).trans hk
    | ⟨1, _⟩ => exact hl _ _)
  have er : D.rhsIdx (ix2 a b) ((contrEquiv1 D K hrank hsize).symm k) = ix2 k b := funext fun x => Fin.ext (by
    match x with
    | ⟨0, _⟩ => exact (D.rhsIdx_val_of_single hrc _ _).trans hk
    | ⟨1, _⟩ => exact hr _ _)
  rw [el, er]

end Cert.FirstAxisProductAny

end
-- ==== Proof.LibAxisOps.lean ====
/-
  Four more operations on small-rank vectors read at coordinates. Every statement is over arbitrary extents and spells
  indices by their coordinates.

  * A sum over the FIRST axis of an [A, B] vector of extended reals, at b: the sum over k of the entry at (k, b).
  * A rotation by one place along the last axis of an [A, B] vector, at (a, b): the entry at (a, b - 1), the index
    taken cyclically, so that position 0 reads position B - 1.
  * Channel ch of an [N, T, C] array, cut out as [N, T, 1] and viewed as [N, T], at (b, t): the entry at (b, t, ch).
  * A host "or" over the last axis, of length two, of an [A, B, 2] array of bits, at (a, b): the "or" of the two bits
    and the initial bit.
-/
import Idealize.ShloMosaic.PureOps.Ideal.Laws
import Idealize.ShloMosaic.PureOps.Reduce
import Idealize.ShloMosaic.Lib.ValueIdx
import Idealize.ShloMosaic.Lib.Pipeline.Value

noncomputable section

namespace Cert.LibAxisOps

open Idealize.ShloMosaic Idealize.ShloMosaic.ValueIdx

/-- A sum over the first axis of an [A, B] vector, at b: the sum over k of the entry at (k, b). -/
theorem sum_first2 {A B : ℕ} (src : FVec Ideal ⟨2, ![A, B]⟩ .f32)
    (h : (⟨2, ![A, B]⟩ : Shape).Reduces [0] ⟨1, ![B]⟩) (hφ : FKind.Formats .f32)
    (hacc : (0x00000000#32 : BitVec 32) = 0x00000000#32) (b : Fin B) :
    multiReduction .add [0] ⟨1, ![B]⟩ src 0x00000000#32 h hφ hacc (ix1 b) = ∑ k : Fin A, src (ix2 k b) := by
  refine (Ideal.multiReduction_add_single src 0x00000000#32 h hφ hacc (ix1 b)).trans ?_
  refine Finset.sum_congr rfl fun k _ => congrArg src ?_
  funext d
  match d with
  | ⟨0, _⟩ => rfl
  | ⟨1, _⟩ => rfl

variable {α : Type}

/-- The position one place before `b` on an axis of extent `B`, cyclically. -/
def before {B : ℕ} (b : Fin B) : Fin B := ⟨(b.val + B - 1 % B) % B, Nat.mod_lt _ (Fin.pos b)⟩

/-- A rotation by one place along the last axis of an [A, B] vector, at (a, b): the entry one place before. -/
theorem rotate_one_last2 {A B : ℕ} (x : (⟨2, ![A, B]⟩ : Shape).Idx → α)
    (h : (⟨2, ![A, B]⟩ : Shape).Rotates 1 none) (a : Fin A) (b : Fin B) :
    dynamicRotate 1 1#32 none x h (ix2 a b) = x (ix2 a (before b)) := by
  unfold dynamicRotate
  refine congrArg x (funext fun d => ?_)
  match d with
  | ⟨0, _⟩ => exact if_neg (Fin.ne_of_val_ne Nat.zero_ne_one)
  | ⟨1, _⟩ => exact if_pos rfl

/-- Channel `ch` of an [N, T, C] array, cut out as [N, T, 1] and viewed as [N, T], at (b, t): the entry at (b, t, ch). -/
theorem channel_plane_apply {N T C : ℕ} (X : (⟨3, ![N, T, C]⟩ : Shape).Idx → α) (ch : Fin C)
    (hs : (⟨3, ![N, T, C]⟩ : Shape).Slices ![0, 0, ch.val] ⟨3, ![N, T, 1]⟩)
    (hc : (⟨3, ![N, T, 1]⟩ : Shape).ShapeCasts ⟨2, ![N, T]⟩) (b : Fin N) (t : Fin T) :
    shapeCast ⟨2, ![N, T]⟩ (extractStridedSlice ⟨3, ![N, T, 1]⟩ ![0, 0, ch.val] X hs) hc (ix2 b t) = X (ix3 b t ch) := by
  refine (shapeCast_apply _ hc (ix2 b t) (ix3 b t (0 : Fin 1)) ?_).trans ?_
  · rw [Shape.rowMajor_val_three, Shape.rowMajor_val_two]
    show (b.val * T + t.val) * 1 + 0 = b.val * T + t.val
    omega
  · refine extractStridedSlice_apply ![0, 0, ch.val] X hs (ix3 b t (0 : Fin 1)) (ix3 b t ch) fun a => ?_
    match a with
    | ⟨0, _⟩ => show b.val = 0 + b.val; omega
    | ⟨1, _⟩ => show t.val = 0 + t.val; omega
    | ⟨2, _⟩ => show ch.val = ch.val + 0; omega

/-- An "or" folded over two bits from an initial bit. -/
theorem fold_or_two (g : Fin 2 → BitVec 1) (i0 : BitVec 1) :
    Finset.fold IntOp.ori i0 g (Finset.univ : Finset (Fin 2)) = IntOp.ori (g 0) (IntOp.ori (g 1) i0) := by
  have hU : (Finset.univ : Finset (Fin 2)) = insert 0 {1} := by decide
  rw [hU, Finset.fold_insert (by decide), Finset.fold_singleton]

/-- A host "or" over the last axis, of length two, of an [A, B, 2] array of bits, at (a, b): the "or" of the two bits
    and the initial bit. -/
theorem hostOr_last2 {A B : ℕ} (x : (⟨3, ![A, B, 2]⟩ : Shape).Idx → BitVec 1) (init : (⟨0, ![]⟩ : Shape).Idx → BitVec 1)
    (h' : (⟨3, ![A, B, 2]⟩ : Shape).ReducesTo [2] ⟨2, ![A, B]⟩) (h : (⟨3, ![A, B, 2]⟩ : Shape).Reduces [2] ⟨2, ![A, B]⟩)
    (hu : 0 < (⟨0, ![]⟩ : Shape).numel) (a : Fin A) (b : Fin B) :
    Host.reduce IntOp.ori x init h' hu (ix2 a b)
      = IntOp.ori (x (ix3 a b 0)) (IntOp.ori (x (ix3 a b 1)) (init ix0)) := by
  rw [Host.reduce_eq_fold_single IntOp.ori x init h' h hu (ix2 a b)]
  refine (fold_or_two (x ∘ h.lift (ix2 a b)) (init (Shape.Idx.first hu))).trans ?_
  have e0 : h.lift (ix2 a b) (0 : Fin 2) = ix3 a b 0 := funext fun d => by
    match d with
    | ⟨0, _⟩ => rfl
    | ⟨1, _⟩ => rfl
    | ⟨2, _⟩ => rfl
  have e1 : h.lift (ix2 a b) (1 : Fin 2) = ix3 a b 1 := funext fun d => by
    match d with
    | ⟨0, _⟩ => rfl
    | ⟨1, _⟩ => rfl
    | ⟨2, _⟩ => rfl
  have ei : Shape.Idx.first hu = (ix0 : (⟨0, ![]⟩ : Shape).Idx) := funext fun d => d.elim0
  show IntOp.ori (x (h.lift (ix2 a b) (0 : Fin 2))) (IntOp.ori (x (h.lift (ix2 a b) (1 : Fin 2))) (init (Shape.Idx.first hu))) = _
  rw [e0, e1, ei]

end Cert.LibAxisOps

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.KernelIdeal.Payloads.lean ====
/-
  The body's arithmetic read index by index on the extended reals: the squared norms |x|^2 and |y|^2 of the two tiles' points
  (sums over the three coordinates), the table 2 x.y (the product of the doubled gt tile with the pred tile, contracted over the
  coordinates), the pred tile's row minima over the gt points and the gt tile's column minima over the pred points, each from
  +inf, and the two finishing steps (add the point's own squared norm, floor at 0).
-/
import proofs.«152746_j51754355916968_2_alg».proof.Proof.Gen.KernelIdeal.Skeleton
import proofs.«152746_j51754355916968_2_alg».proof.Proof.LibFirstAxisProductAny
import proofs.«152746_j51754355916968_2_alg».proof.Proof.LibAxisOps
import proofs.«152746_j51754355916968_2_alg».proof.Proof.LibRowOps
import proofs.«152746_j51754355916968_2_alg».proof.Proof.Spec
import Idealize.ShloMosaic.Lib.ValueLayout
import Idealize.ShloMosaic.Lib.Pipeline.Value
import Idealize.ShloMosaic.PureOps.Reduce
import Idealize.ShloMosaic.PureOps.Ideal.Laws

set_option maxRecDepth 16384

noncomputable section

namespace Cert.KernelIdeal.Gen.Hand

open Idealize.ShloMosaic Idealize.ShloMosaic.TcCoe Idealize.ShloMosaic.ValueIdx Finset
open Cert.Spec (two zero inf)

/-! ## Minima over one axis of a matrix -/

/-- A float minimum over ONE axis, at the ideal values: the fold of `min` from the accumulator's value over that axis. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the FIRST axis of an [A, B] matrix, at b. -/
theorem min_first2 {A B : ℕ} (src : FVec Ideal ⟨2, ![A, B]⟩ .f32) (acc : BitVec 32)
    (h : (⟨2, ![A, B]⟩ : Shape).Reduces [0] ⟨1, ![B]⟩) (hφ : FKind.Formats .f32) (hacc : acc = FKind.minimumf.neutral .f32 hφ) (b : Fin B) :
    multiReduction .minimumf [0] ⟨1, ![B]⟩ src acc h hφ hacc (ix1 b)
      = (Finset.univ : Finset (Fin A)).fold min (Ideal.ofBits .f32 acc) fun k => src (ix2 k b) := by
  refine (multiReduction_minimumf_single src acc h hφ hacc (ix1 b)).trans ?_
  refine Finset.fold_congr fun k _ => congrArg src ?_
  funext d
  match d with
  | ⟨0, _⟩ => rfl
  | ⟨1, _⟩ => rfl

/-- The minimum over the LAST axis of an [A, B] matrix, at a. -/
theorem min_last2 {A B : ℕ} (src : FVec Ideal ⟨2, ![A, B]⟩ .f32) (acc : BitVec 32)
    (h : (⟨2, ![A, B]⟩ : Shape).Reduces [1] ⟨1, ![A]⟩) (hφ : FKind.Formats .f32) (hacc : acc = FKind.minimumf.neutral .f32 hφ) (a : Fin A) :
    multiReduction .minimumf [1] ⟨1, ![A]⟩ src acc h hφ hacc (ix1 a)
      = (Finset.univ : Finset (Fin B)).fold min (Ideal.ofBits .f32 acc) fun k => src (ix2 a k) := by
  refine (multiReduction_minimumf_single src acc h hφ hacc (ix1 a)).trans ?_
  refine Finset.fold_congr fun k _ => congrArg src ?_
  funext d
  match d with
  | ⟨0, _⟩ => rfl
  | ⟨1, _⟩ => rfl

/-! ## The payloads -/

variable (x0 x1 : Vec Ideal S1x3x1024 .f32)

/-- A tile with its unit batch axis dropped. -/
theorem pay7_apply (d : Fin 3) (j : Fin 1024) : k0_pay7 (F := Ideal) x0 (ix2 d j) = x0 (ix3 0 d j) := by
  unfold k0_pay7; exact shapeCast_1ab_ab_apply x0 _ d j
theorem pay8_apply (d : Fin 3) (k : Fin 1024) : k0_pay8 (F := Ideal) x1 (ix2 d k) = x1 (ix3 0 d k) := by
  unfold k0_pay8; exact shapeCast_1ab_ab_apply x1 _ d k

/-- |x_j|^2: the sum over the coordinates of the pred tile's squares. -/
theorem pay10_apply (u : Fin 1) (j : Fin 1024) :
    k0_pay10 (F := Ideal) x0 (ix2 u j) = ∑ d : Fin 3, x0 (ix3 0 d j) * x0 (ix3 0 d j) := by
  unfold k0_pay10
  refine (shapeCast_a_1a_apply _ _ u j).trans ?_
  refine (Cert.LibAxisOps.sum_first2 _ _ _ _ j).trans ?_
  refine Finset.sum_congr rfl fun d _ => ?_
  rw [mulf_apply, pay7_apply]

/-- |y_k|^2 likewise. -/
theorem pay11_apply (u : Fin 1) (k : Fin 1024) :
    k0_pay11 (F := Ideal) x1 (ix2 u k) = ∑ d : Fin 3, x1 (ix3 0 d k) * x1 (ix3 0 d k) := by
  unfold k0_pay11
  refine (shapeCast_a_1a_apply _ _ u k).trans ?_
  refine (Cert.LibAxisOps.sum_first2 _ _ _ _ k).trans ?_
  refine Finset.sum_congr rfl fun d _ => ?_
  rw [mulf_apply, pay8_apply]

/-- 2 x_j . y_k: the doubled gt tile against the pred tile, contracted over the coordinates. -/
theorem pay9_apply (k j : Fin 1024) :
    k0_pay9 (F := Ideal) x0 x1 (ix2 k j) = ∑ d : Fin 3, (two * x1 (ix3 0 d k)) * x0 (ix3 0 d j) := by
  unfold k0_pay9
  refine (Cert.FirstAxisProductAny.matmul_zero_apply dot_S3x1024_S3x1024_S1024x1024_0_0_1_1_n_n rfl rfl (fun _ _ => rfl) (fun _ _ => rfl) rfl rfl
    (some .fp32) _ _ k j).trans ?_
  refine Finset.sum_congr rfl fun d _ => ?_
  rw [mulf_apply, pay8_apply, pay7_apply]; rfl

/-- The row broadcast of |x|^2 over the gt points. -/
theorem pay13_apply (k j : Fin 1024) : k0_pay13 (F := Ideal) x0 (ix2 k j) = k0_pay10 (F := Ideal) x0 (ix2 0 j) := by
  unfold k0_pay13; exact broadcastTo_1b_ab_apply _ _ k j

/-- The running row minimum lowered: min of what the buffer held and this pair's minimum over the gt points of |y|^2 - 2 x.y. -/
theorem pay12_apply (xo : Vec Ideal S1x1x1024 .f32) (j : Fin 1024) :
    k0_pay12 (F := Ideal) x0 x1 xo (ix3 0 0 j)
      = min (xo (ix3 0 0 j)) ((Finset.univ : Finset (Fin 1024)).fold min inf fun k =>
          k0_pay11 (F := Ideal) x1 (ix2 0 k) - k0_pay9 (F := Ideal) x0 x1 (ix2 k j)) := by
  unfold k0_pay12
  rw [minimumf_apply, shapeCast_self]
  refine congrArg (min _) ?_
  refine (shapeCast_ab_1ab_apply _ _ 0 0 j).trans ?_
  refine (shapeCast_a_1a_apply _ _ 0 j).trans ?_
  refine (min_first2 _ _ _ _ _ j).trans ?_
  refine Finset.fold_congr fun k _ => ?_
  rw [subf_apply]
  refine congrArg (· - _) ?_
  refine (Cert.LibRowOps.bcast_a1_ab _ _ k j).trans ?_
  exact transpose_ix2_apply _ _ k 0

/-- The scratch tile lowered: min of what it held and this pair's minimum over the pred points of |x|^2 - 2 x.y. -/
theorem pay1_apply (v14 v31 : FVec Ideal S1024x1024 .f32) (v39 : Vec Ideal S1x1024 .f32) (u : Fin 1) (k : Fin 1024) :
    k0_pay1 (F := Ideal) v14 v31 v39 (ix2 u k)
      = min (v39 (ix2 u k)) ((Finset.univ : Finset (Fin 1024)).fold min inf fun j => v31 (ix2 k j) - v14 (ix2 k j)) := by
  unfold k0_pay1
  rw [shapeCast_self, minimumf_apply]
  refine congrArg (min _) ?_
  refine (transpose_ix2_apply _ _ u k).trans ?_
  refine (Cert.LibRowOps.cast_a_a1 _ _ k u).trans ?_
  refine (min_last2 _ _ _ _ _ k).trans ?_
  refine Finset.fold_congr fun j _ => ?_
  rw [subf_apply]

/-- The row minimum finished: |x|^2 added, floored at 0. -/
theorem pay2_apply (v17 : FVec Ideal S1x1024 .f32) (v56 : Vec Ideal S1x1x1024 .f32) (j : Fin 1024) :
    k0_pay2 (F := Ideal) v17 v56 (ix3 0 0 j) = max (v56 (ix3 0 0 j) + v17 (ix2 0 j)) zero := by
  unfold k0_pay2
  rw [maximumf_apply, addf_apply, shapeCast_self, broadcast_apply]
  refine congrArg (fun z => max (_ + z) _) ?_
  exact shapeCast_ab_1ab_apply _ _ 0 0 j

/-- The column minimum finished: |y|^2 added, floored at 0. -/
theorem pay3_apply (v20 : FVec Ideal S1x1024 .f32) (v57 : Vec Ideal S1x1024 .f32) (u : Fin 1) (k : Fin 1024) :
    k0_pay3 (F := Ideal) v20 v57 (ix2 u k) = max (v57 (ix2 u k) + v20 (ix2 u k)) zero := by
  unfold k0_pay3
  rw [shapeCast_self, maximumf_apply, addf_apply, broadcast_apply]
  rfl

/-- The scratch row copied out. -/
theorem pay4_apply (v56 : Vec Ideal S1x4096 .f32) (u u' : Fin 1) (mm : Fin 4096) :
    k0_pay4 (F := Ideal) v56 (ix3 u u' mm) = v56 (ix2 u' mm) := by
  unfold k0_pay4; exact shapeCast_ab_1ab_apply _ _ u u' mm

/-- The resets: +inf everywhere. -/
theorem pay5_apply (y : S1x4096.Idx) : k0_pay5 (F := Ideal) y = inf := by
  unfold k0_pay5; rw [shapeCast_self]; rfl
theorem pay6_apply (y : S1x1x1024.Idx) : k0_pay6 (F := Ideal) y = inf := rfl

end Cert.KernelIdeal.Gen.Hand

end
-- ==== Proof.KernelIdeal.ValueX.lean ====
/-
  The first result array, point by point, as a formula of the arguments: after the body at point (b, r, c) the first output's
  staging buffer holds, for pred point 1024 r + j, the minimum over the gt tiles 0..c (from +inf, in tile order) of the tile's
  minimum over its points of |y|^2 - 2 x.y; and at c = 3 that minimum plus |x|^2, floored at 0.
-/
import proofs.«152746_j51754355916968_2_alg».proof.Proof.KernelIdeal.StepX
import proofs.«152746_j51754355916968_2_alg».proof.Proof.KernelIdeal.Blocks
import proofs.«152746_j51754355916968_2_alg».proof.Proof.KernelIdeal.Payloads

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Finset
open Cert.Spec

variable (m : (ℓ : Loc nD τ sig) → Buf (Elt Ideal) ℓ) (c : Dev nD)

/-- The gt tiles' minima for pred point `n`, folded from +inf in tile order up to tile `cc`. -/
def rowChain (P Q : Arr) (b : Fin 8) (n : Fin 4096) : ℕ → EReal
  | 0 => min inf (rowMin P Q b n 0)
  | 1 => min (min inf (rowMin P Q b n 0)) (rowMin P Q b n 1)
  | 2 => min (min (min inf (rowMin P Q b n 0)) (rowMin P Q b n 1)) (rowMin P Q b n 2)
  | _ => min (min (min (min inf (rowMin P Q b n 0)) (rowMin P Q b n 1)) (rowMin P Q b n 2)) (rowMin P Q b n 3)

/-- One pair of tiles' row minimum, computed from the two blocks, is the formula's. -/
theorem tile_rowMin (t : Fin cfg0.N) (j : Fin 1024) (b : Fin 8) (r cc : Fin 4) (hb : b.val = t.val / 16) (hr : r.val = t.val / 4 % 4)
    (hc : cc.val = t.val % 4) :
    ((Finset.univ : Finset (Fin 1024)).fold min inf fun k =>
        k0_pay11 (F := Ideal) (iblk m c 1 t) (ix2 0 k) - k0_pay9 (F := Ideal) (iblk m c 0 t) (iblk m c 1 t) (ix2 k j))
      = rowMin (argP m c) (argQ m c) b (tix r j) cc := by
  unfold rowMin
  refine Finset.fold_congr fun k _ => ?_
  rw [pay11_apply, pay9_apply]
  unfold sqK dotK
  congr 1
  · refine Finset.sum_congr rfl fun d _ => ?_
    rw [iblk1_apply m c t d k b cc hb hc]
  · refine Finset.sum_congr rfl fun d _ => ?_
    rw [iblk1_apply m c t d k b cc hb hc, iblk0_apply m c t d j b r hb hr]

/-- |x|^2 of pred point 1024 r + j from the pred block. -/
theorem tile_sqP (t : Fin cfg0.N) (j : Fin 1024) (b : Fin 8) (r : Fin 4) (hb : b.val = t.val / 16) (hr : r.val = t.val / 4 % 4) :
    k0_pay10 (F := Ideal) (iblk m c 0 t) (ix2 0 j) = sqK (argP m c) b (tix r j) := by
  rw [pay10_apply]
  unfold sqK
  refine Finset.sum_congr rfl fun d _ => ?_
  rw [iblk0_apply m c t d j b r hb hr]

/-- THE FIRST BUFFER, POINT BY POINT. -/
theorem X_sem (n : ℕ) : ∀ (hn : n < cfg0.N) (j : Fin 1024) (b : Fin 8) (r : Fin 4), b.val = n / 16 → r.val = n / 4 % 4 →
    (outsAt m c n hn).X (ix3 0 0 j)
      = if n % 4 = 3 then Gx (argP m c) (argQ m c) b (tix r j) else rowChain (argP m c) (argQ m c) b (tix r j) (n % 4) := by
  induction n with
  | zero =>
    intro hn j b r hb hr
    rw [show outsAt m c 0 hn = outsAt m c (⟨0, hn⟩ : Fin cfg0.N).val (⟨0, hn⟩ : Fin cfg0.N).isLt from rfl,
      X_first m c ⟨0, hn⟩ rfl, pay12_apply, pay6_apply, tile_rowMin m c ⟨0, hn⟩ j b r 0 hb hr rfl]
    rfl
  | succ n ih =>
    intro hn j b r hb hr
    have hN : n + 1 < 128 := lt_of_lt_of_eq hn (show cfg0.N = 128 from N_0)
    rw [show outsAt m c (n + 1) hn = outsAt m c (⟨n + 1, hn⟩ : Fin cfg0.N).val (⟨n + 1, hn⟩ : Fin cfg0.N).isLt from rfl]
    by_cases h0 : (n + 1) % 4 = 0
    · rw [X_first m c ⟨n + 1, hn⟩ h0, pay12_apply, pay6_apply, tile_rowMin m c ⟨n + 1, hn⟩ j b r 0 hb hr (by show 0 = (n + 1) % 4; omega),
        if_neg (by omega), h0]
      rfl
    · have e : (outsAt m c ((⟨n + 1, hn⟩ : Fin cfg0.N).val - 1) (Nat.lt_of_le_of_lt (Nat.sub_le _ _) (⟨n + 1, hn⟩ : Fin cfg0.N).isLt)).X (ix3 0 0 j)
          = if n % 4 = 3 then Gx (argP m c) (argQ m c) b (tix r j) else rowChain (argP m c) (argQ m c) b (tix r j) (n % 4) :=
        ih (Nat.lt_of_succ_lt hn) j b r (by omega) (by omega)
      by_cases h3 : (n + 1) % 4 = 3
      · rw [X_last m c ⟨n + 1, hn⟩ h3, pay2_apply, pay12_apply, e, tile_rowMin m c ⟨n + 1, hn⟩ j b r 3 hb hr (by show 3 = (n + 1) % 4; omega),
          tile_sqP m c ⟨n + 1, hn⟩ j b r hb hr, if_neg (by omega), if_pos h3, show n % 4 = 2 from by omega]
        rfl
      · rcases (show (n + 1) % 4 = 1 ∨ (n + 1) % 4 = 2 by omega) with h1 | h2
        · rw [X_mid m c ⟨n + 1, hn⟩ h0 h3, pay12_apply, e, tile_rowMin m c ⟨n + 1, hn⟩ j b r 1 hb hr (by show 1 = (n + 1) % 4; omega),
            if_neg (by omega), if_neg h3, show n % 4 = 0 from by omega, h1]
          rfl
        · rw [X_mid m c ⟨n + 1, hn⟩ h0 h3, pay12_apply, e, tile_rowMin m c ⟨n + 1, hn⟩ j b r 2 hb hr (by show 2 = (n + 1) % 4; omega),
            if_neg (by omega), if_neg h3, show n % 4 = 1 from by omega, h2]
          rfl

/-- Where c = 3 the first output's buffer holds the first result's block: for pred point 1024 r + j of batch b, `Gx`. -/
theorem X_fin (t : Fin cfg0.N) (h3 : t.val % 4 = 3) (b : Fin 8) (r : Fin 4) (hb : b.val = t.val / 16) (hr : r.val = t.val / 4 % 4) (j : Fin 1024) :
    (outsAt m c t.val t.isLt).X (ix3 0 0 j) = Gx (argP m c) (argQ m c) b (tix r j) :=
  (X_sem m c t.val t.isLt j b r hb hr).trans (if_pos h3)

end Cert.KernelIdeal.Gen.Hand

end
-- ==== Proof.KernelIdeal.PiecesS.lean ====
/-
  What each kind of point leaves in the scratch row, read at gt point 1024 c' + k: outside the point's own tile what the row
  held; inside it the running column minimum lowered by this pair of tiles' minimum over the pred points of |x|^2 - 2 x.y — from
  +inf at the first point of a batch — and, where r = 3, finished by adding |y|^2 and flooring at 0. At the last point of a
  batch the second output's buffer receives the row.
-/
import proofs.«152746_j51754355916968_2_alg».proof.Proof.KernelIdeal.Body
import proofs.«152746_j51754355916968_2_alg».proof.Proof.KernelIdeal.Payloads
import Idealize.ShloMosaic.Lib.WritesUnit

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Finset
open Cert.Spec (tix inf zero)

theorem hz3' : (![0, 0, 0] : Fin 3 → ℕ) = fun _ => 0 :=
  funext fun a => by match a with | ⟨0, _⟩ => rfl | ⟨1, _⟩ => rfl | ⟨2, _⟩ => rfl
theorem hz2' : (![0, 0] : Fin 2 → ℕ) = fun _ => 0 :=
  funext fun a => by match a with | ⟨0, _⟩ => rfl | ⟨1, _⟩ => rfl

/-- Reading a row of 4 tiles after a store into the tile at offset 1024 cI: inside that tile the store's payload, elsewhere what
    the earlier stores left. -/
theorem read_tile_cons {sig' : RefSig} {κ : Kind} {sp : Space} {e : EltTy} {Val : EltTy → Type}
    (v : View sig' κ sp S1x4096 e) (f : v.ty.Contents Val) (off : Fin 2 → ℕ)
    (inb : ∀ a, off a + S1x1024.size a ≤ S1x4096.size a) (w : (Rect.unit (s := S1x4096) off S1x1024.size inb).shape.Idx → Val e)
    (L : List (View.Piece Val S1x4096 e)) (cI : ℕ) (heq : off = ![0, 1024 * cI]) (c' : Fin 4) (k : Fin 1024) :
    v.read Val (v.writes Val f ((⟨Rect.unit (s := S1x4096) off S1x1024.size inb, w⟩ : View.Piece Val S1x4096 e) :: L)) (ix2 0 (tix c' k))
      = if c'.val = cI then w (ix2 0 k) else v.read Val (v.writes Val f L) (ix2 0 (tix c' k)) := by
  by_cases hc : c'.val = cI
  · rw [if_pos hc]
    refine View.read_writes_cons_unit_of_mem v f inb w L _ (ix2 0 k) heq (fun a => ?_)
    match a with
    | ⟨0, _⟩ => rfl
    | ⟨1, _⟩ => show 1024 * c'.val + k.val = 1024 * cI + k.val; rw [hc]
  · rw [if_neg hc]
    refine View.read_writes_cons_unit_of_not_mem v f inb w L _ heq (1 : Fin 2) ?_
    show 1024 * c'.val + k.val < 1024 * cI ∨ 1024 * cI + 1024 ≤ 1024 * c'.val + k.val
    have := k.isLt; omega

/-- A load of the tile at offset 1024 cI, at k: the row at gt point 1024 cI + k. -/
theorem load_tile {e : EltTy} {Val : EltTy → Type}
    (X : S1x4096.Idx → Val e) (off : Fin 2 → ℕ) (inb : ∀ a, off a + S1x1024.size a ≤ S1x4096.size a)
    (cI : ℕ) (heq : off = ![0, 1024 * cI]) (c' : Fin 4) (hc : c'.val = cI) (k : Fin 1024) :
    View.ld X (Rect.unit (s := S1x4096) off S1x1024.size inb) (ix2 0 k) = X (ix2 0 (tix c' k)) := by
  subst heq
  refine congrArg X (funext fun a => Fin.ext ?_)
  match a with
  | ⟨0, _⟩ => rfl
  | ⟨1, _⟩ => show 1024 * cI + 1 * k.val = 1024 * c'.val + k.val; rw [hc]; omega

/-- This pair of tiles' minimum, for gt point k of the gt tile, over the pred tile's points of |x|^2 - 2 x.y, from +inf. -/
def colMinBlk (x0 x1 : Vec Ideal S1x3x1024 .f32) (k : Fin 1024) : EReal :=
  (Finset.univ : Finset (Fin 1024)).fold min inf fun j =>
    k0_pay13 (F := Ideal) x0 (ix2 k j) - k0_pay9 (F := Ideal) x0 x1 (ix2 k j)

theorem SMid_apply (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (h1 : ¬cReset i) (h2 : ¬cFirst i) (h3 : ¬cLast i) (h4 : ¬rLast i) (h5 : ¬cOut i)
    (x0 : Vec Ideal S1x3x1024 .f32) (x1 : Vec Ideal S1x3x1024 .f32) (xo : Vec Ideal S1x1x1024 .f32) (xs : Vec Ideal S1x4096 .f32) (c' : Fin 4) (k : Fin 1024) :
    SMid c i arg3 harg3 arg4 harg4 arg5 harg5 arg6 harg6 scM hscM h1 h2 h3 h4 h5 x0 x1 xo xs (ix2 0 (tix c' k))
      = if c'.val = (i 2).val then min (xs (ix2 0 (tix c' k))) (colMinBlk x0 x1 k) else xs (ix2 0 (tix c' k)) := by
  unfold SMid; unfold runMid; dsimp only; sl_unfold_words
  refine (read_tile_cons _ _ _ _ _ _ (i 2).val (k0_off1_eq i) c' k).trans ?_
  by_cases hc : c'.val = (i 2).val
  · rw [if_pos hc, if_pos hc, pay1_apply]
    simp only [View.readAt_eq_ld, harg3.read_unread, harg4.read_unread, hscM.read_unread, View.ld_unit_zero (S := S1x3x1024) hz3']
    refine congrArg (fun z => min z (colMinBlk x0 x1 k)) ?_
    exact load_tile _ _ _ (i 2).val (k0_off1_eq i) c' hc k
  · rw [if_neg hc, if_neg hc, View.writes_nil, hscM.read_unread]

theorem SC_apply (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (h1 : ¬cReset i) (h2 : ¬cFirst i) (h3 : cLast i) (h4 : ¬rLast i) (h5 : ¬cOut i)
    (x0 : Vec Ideal S1x3x1024 .f32) (x1 : Vec Ideal S1x3x1024 .f32) (xo : Vec Ideal S1x1x1024 .f32) (xs : Vec Ideal S1x4096 .f32) (c' : Fin 4) (k : Fin 1024) :
    SC c i arg3 harg3 arg4 harg4 arg5 harg5 arg6 harg6 scM hscM h1 h2 h3 h4 h5 x0 x1 xo xs (ix2 0 (tix c' k))
      = if c'.val = (i 2).val then min (xs (ix2 0 (tix c' k))) (colMinBlk x0 x1 k) else xs (ix2 0 (tix c' k)) := by
  unfold SC; unfold runC; dsimp only; sl_unfold_words
  refine (read_tile_cons _ _ _ _ _ _ (i 2).val (k0_off1_eq i) c' k).trans ?_
  by_cases hc : c'.val = (i 2).val
  · rw [if_pos hc, if_pos hc, pay1_apply]
    simp only [View.readAt_eq_ld, harg3.read_unread, harg4.read_unread, hscM.read_unread, View.ld_unit_zero (S := S1x3x1024) hz3']
    refine congrArg (fun z => min z (colMinBlk x0 x1 k)) ?_
    exact load_tile _ _ _ (i 2).val (k0_off1_eq i) c' hc k
  · rw [if_neg hc, if_neg hc, View.writes_nil, hscM.read_unread]

theorem SD_apply (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (h1 : ¬cReset i) (h2 : cFirst i) (h3 : ¬cLast i) (h4 : ¬rLast i) (h5 : ¬cOut i)
    (x0 : Vec Ideal S1x3x1024 .f32) (x1 : Vec Ideal S1x3x1024 .f32) (xs : Vec Ideal S1x4096 .f32) (c' : Fin 4) (k : Fin 1024) :
    SD c i arg3 harg3 arg4 harg4 arg5 harg5 arg6 harg6 scM hscM h1 h2 h3 h4 h5 x0 x1 xs (ix2 0 (tix c' k))
      = if c'.val = (i 2).val then min (xs (ix2 0 (tix c' k))) (colMinBlk x0 x1 k) else xs (ix2 0 (tix c' k)) := by
  unfold SD; unfold runD; dsimp only; sl_unfold_words
  refine (read_tile_cons _ _ _ _ _ _ (i 2).val (k0_off1_eq i) c' k).trans ?_
  by_cases hc : c'.val = (i 2).val
  · rw [if_pos hc, if_pos hc, pay1_apply]
    simp only [View.readAt_eq_ld, harg3.read_unread, harg4.read_unread, hscM.read_unread, View.ld_unit_zero (S := S1x3x1024) hz3']
    refine congrArg (fun z => min z (colMinBlk x0 x1 k)) ?_
    exact load_tile _ _ _ (i 2).val (k0_off1_eq i) c' hc k
  · rw [if_neg hc, if_neg hc, View.writes_nil, hscM.read_unread]

theorem SE_apply (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (h1 : ¬cReset i) (h2 : cFirst i) (h3 : ¬cLast i) (h4 : rLast i) (h5 : ¬cOut i)
    (x0 : Vec Ideal S1x3x1024 .f32) (x1 : Vec Ideal S1x3x1024 .f32) (xs : Vec Ideal S1x4096 .f32) (c' : Fin 4) (k : Fin 1024) :
    SE c i arg3 harg3 arg4 harg4 arg5 harg5 arg6 harg6 scM hscM h1 h2 h3 h4 h5 x0 x1 xs (ix2 0 (tix c' k))
      = if c'.val = (i 2).val then max (min (xs (ix2 0 (tix c' k))) (colMinBlk x0 x1 k) + k0_pay11 (F := Ideal) x1 (ix2 0 k)) zero
        else xs (ix2 0 (tix c' k)) := by
  unfold SE; unfold runE; dsimp only; sl_unfold_words
  refine (read_tile_cons _ _ _ _ _ _ (i 2).val (k0_off2_eq i) c' k).trans ?_
  by_cases hc : c'.val = (i 2).val
  · rw [if_pos hc, if_pos hc, pay3_apply]
    simp only [View.readAt_eq_ld, harg3.read_unread, harg4.read_unread, hscM.read_unread, View.ld_unit_zero (S := S1x3x1024) hz3']
    refine congrArg (fun z => max (z + k0_pay11 (F := Ideal) x1 (ix2 0 k)) zero) ?_
    refine (congrFun (View.readCov_cons_toLoadRect _ _ _ _) _).trans ?_
    rw [pay1_apply]
    refine congrArg (fun z => min z (colMinBlk x0 x1 k)) ?_
    exact load_tile _ _ _ (i 2).val (k0_off1_eq i) c' hc k
  · rw [if_neg hc, if_neg hc]
    refine (read_tile_cons _ _ _ _ _ _ (i 2).val (k0_off1_eq i) c' k).trans ?_
    rw [if_neg hc, View.writes_nil, hscM.read_unread]

theorem SFin_apply (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (h1 : ¬cReset i) (h2 : ¬cFirst i) (h3 : ¬cLast i) (h4 : rLast i) (h5 : ¬cOut i)
    (x0 : Vec Ideal S1x3x1024 .f32) (x1 : Vec Ideal S1x3x1024 .f32) (xo : Vec Ideal S1x1x1024 .f32) (xs : Vec Ideal S1x4096 .f32) (c' : Fin 4) (k : Fin 1024) :
    SFin c i arg3 harg3 arg4 harg4 arg5 harg5 arg6 harg6 scM hscM h1 h2 h3 h4 h5 x0 x1 xo xs (ix2 0 (tix c' k))
      = if c'.val = (i 2).val then max (min (xs (ix2 0 (tix c' k))) (colMinBlk x0 x1 k) + k0_pay11 (F := Ideal) x1 (ix2 0 k)) zero
        else xs (ix2 0 (tix c' k)) := by
  unfold SFin; unfold runFin; dsimp only; sl_unfold_words
  refine (read_tile_cons _ _ _ _ _ _ (i 2).val (k0_off2_eq i) c' k).trans ?_
  by_cases hc : c'.val = (i 2).val
  · rw [if_pos hc, if_pos hc, pay3_apply]
    simp only [View.readAt_eq_ld, harg3.read_unread, harg4.read_unread, hscM.read_unread, View.ld_unit_zero (S := S1x3x1024) hz3']
    refine congrArg (fun z => max (z + k0_pay11 (F := Ideal) x1 (ix2 0 k)) zero) ?_
    refine (congrFun (View.readCov_cons_toLoadRect _ _ _ _) _).trans ?_
    rw [pay1_apply]
    refine congrArg (fun z => min z (colMinBlk x0 x1 k)) ?_
    exact load_tile _ _ _ (i 2).val (k0_off1_eq i) c' hc k
  · rw [if_neg hc, if_neg hc]
    refine (read_tile_cons _ _ _ _ _ _ (i 2).val (k0_off1_eq i) c' k).trans ?_
    rw [if_neg hc, View.writes_nil, hscM.read_unread]

theorem SG_apply (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (h1 : ¬cReset i) (h2 : ¬cFirst i) (h3 : cLast i) (h4 : rLast i) (h5 : cOut i)
    (x0 : Vec Ideal S1x3x1024 .f32) (x1 : Vec Ideal S1x3x1024 .f32) (xo : Vec Ideal S1x1x1024 .f32) (xs : Vec Ideal S1x4096 .f32) (c' : Fin 4) (k : Fin 1024) :
    SG c i arg3 harg3 arg4 harg4 arg5 harg5 arg6 harg6 scM hscM h1 h2 h3 h4 h5 x0 x1 xo xs (ix2 0 (tix c' k))
      = if c'.val = (i 2).val then max (min (xs (ix2 0 (tix c' k))) (colMinBlk x0 x1 k) + k0_pay11 (F := Ideal) x1 (ix2 0 k)) zero
        else xs (ix2 0 (tix c' k)) := by
  unfold SG; unfold runG; dsimp only; sl_unfold_words
  refine (read_tile_cons _ _ _ _ _ _ (i 2).val (k0_off2_eq i) c' k).trans ?_
  by_cases hc : c'.val = (i 2).val
  · rw [if_pos hc, if_pos hc, pay3_apply]
    simp only [View.readAt_eq_ld, harg3.read_unread, harg4.read_unread, hscM.read_unread, View.ld_unit_zero (S := S1x3x1024) hz3']
    refine congrArg (fun z => max (z + k0_pay11 (F := Ideal) x1 (ix2 0 k)) zero) ?_
    refine (congrFun (View.readCov_cons_toLoadRect _ _ _ _) _).trans ?_
    rw [pay1_apply]
    refine congrArg (fun z => min z (colMinBlk x0 x1 k)) ?_
    exact load_tile _ _ _ (i 2).val (k0_off1_eq i) c' hc k
  · rw [if_neg hc, if_neg hc]
    refine (read_tile_cons _ _ _ _ _ _ (i 2).val (k0_off1_eq i) c' k).trans ?_
    rw [if_neg hc, View.writes_nil, hscM.read_unread]

theorem SA_apply (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (h1 : cReset i) (h2 : cFirst i) (h3 : ¬cLast i) (h4 : ¬rLast i) (h5 : ¬cOut i)
    (x0 : Vec Ideal S1x3x1024 .f32) (x1 : Vec Ideal S1x3x1024 .f32) (c' : Fin 4) (k : Fin 1024) :
    SA c i arg3 harg3 arg4 harg4 arg5 harg5 arg6 harg6 scM hscM h1 h2 h3 h4 h5 x0 x1 (ix2 0 (tix c' k))
      = if c'.val = (i 2).val then min inf (colMinBlk x0 x1 k) else inf := by
  unfold SA; unfold runA; dsimp only; sl_unfold_words
  refine (read_tile_cons _ _ _ _ _ _ (i 2).val (k0_off1_eq i) c' k).trans ?_
  have hwhole : ∀ y : S1x4096.Idx, scM.view.read (Elt Ideal) (scM.view.writes (Elt Ideal) scM.view.junk
      [(⟨Rect.unit (s := S1x4096) ![0, 0] S1x4096.size inb_S1x4096_S1x4096_0_0, k0_pay5 (F := Ideal)⟩ : View.Piece (Elt Ideal) S1x4096 .f32)]) y = inf := fun y => by
    rw [View.read_writes_eq_canon _ _ _ (fun y => ⟨_, List.mem_singleton_self _, View.mem_set_unit_zero hz2' inb_S1x4096_S1x4096_0_0 y⟩), View.canon_unit_zero hz2']
    exact pay5_apply y
  by_cases hc : c'.val = (i 2).val
  · rw [if_pos hc, if_pos hc, pay1_apply]
    simp only [View.readAt_eq_ld, harg3.read_unread, harg4.read_unread, View.ld_unit_zero (S := S1x3x1024) hz3']
    refine congrArg (fun z => min z (colMinBlk x0 x1 k)) ?_
    refine (load_tile _ _ _ (i 2).val (k0_off1_eq i) c' hc k).trans ?_
    exact hwhole _
  · rw [if_neg hc, if_neg hc]; exact hwhole _

/-- At the last point of a batch the second output's buffer receives the scratch row as the point leaves it. -/
theorem YG_apply (c : Dev nD) (i : grid0.Coords)
    (arg3 : Memref sig .tc .vmem S1x3x1024 .f32) (harg3 : arg3.IsWhole) (arg4 : Memref sig .tc .vmem S1x3x1024 .f32) (harg4 : arg4.IsWhole)
    (arg5 : Memref sig .tc .vmem S1x1x1024 .f32) (harg5 : arg5.IsWhole) (arg6 : Memref sig .tc .vmem S1x1x4096 .f32) (harg6 : arg6.IsWhole)
    (h1 : ¬cReset i) (h2 : ¬cFirst i) (h3 : cLast i) (h4 : rLast i) (h5 : cOut i)
    (x0 : Vec Ideal S1x3x1024 .f32) (x1 : Vec Ideal S1x3x1024 .f32) (xo : Vec Ideal S1x1x1024 .f32) (xs : Vec Ideal S1x4096 .f32) (mm : Fin 4096) :
    YG c i arg3 harg3 arg4 harg4 arg5 harg5 arg6 harg6 scM hscM h1 h2 h3 h4 h5 x0 x1 xo xs (ix3 0 0 mm) = SG c i arg3 harg3 arg4 harg4 arg5 harg5 arg6 harg6 scM hscM h1 h2 h3 h4 h5 x0 x1 xo xs (ix2 0 mm) := by
  unfold YG SG
  rw [View.read_writes_eq_canon _ _ _ (coverYG c i arg3 harg3 arg4 harg4 arg5 harg5 arg6 harg6 scM hscM h1 h2 h3 h4 h5 x0 x1 xo xs)]
  unfold runG; dsimp only; sl_unfold_words
  rw [View.canon_unit_zero hz3', pay4_apply]
  rw [View.readAt_eq_ld]
  exact congrFun (View.ld_unit_zero (S := S1x4096) hz2' inb_S1x4096_S1x4096_0_0 _) (ix2 0 mm)

end Cert.KernelIdeal.Gen.Hand

end
-- ==== Proof.KernelIdeal.ValueS.lean ====
/-
  The scratch row, point by point, as a formula of the arguments: after the body at point (b, r, c) the entry of gt point
  1024 c' + k holds, for a tile c' ≤ c, the minimum over the pred tiles 0..r (from +inf, in tile order) of the tile's minimum over
  its points of |x|^2 - 2 x.y — at r = 3 finished: plus |y|^2, floored at 0 —, and for a tile c' > c the same over the pred tiles
  0..r-1 (+inf when r = 0). At the last point of a batch every tile is finished, and the second output's buffer receives the row.
-/
import proofs.«152746_j51754355916968_2_alg».proof.Proof.KernelIdeal.PiecesS
import proofs.«152746_j51754355916968_2_alg».proof.Proof.KernelIdeal.Blocks
import proofs.«152746_j51754355916968_2_alg».proof.Proof.KernelIdeal.Payloads

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Finset
open Cert.Spec

variable (m : (ℓ : Loc nD τ sig) → Buf (Elt Ideal) ℓ) (c : Dev nD)

/-- The pred tiles' minima for gt point `mm`, folded from +inf in tile order up to tile `r`. -/
def colChain (P Q : Arr) (b : Fin 8) (mm : Fin 4096) : ℕ → EReal
  | 0 => min inf (colMin P Q b mm 0)
  | 1 => min (min inf (colMin P Q b mm 0)) (colMin P Q b mm 1)
  | 2 => min (min (min inf (colMin P Q b mm 0)) (colMin P Q b mm 1)) (colMin P Q b mm 2)
  | _ => min (min (min (min inf (colMin P Q b mm 0)) (colMin P Q b mm 1)) (colMin P Q b mm 2)) (colMin P Q b mm 3)

/-- What the scratch row holds at gt point 1024 c' + k after point `n` of batch `b`. -/
def Ssem (P Q : Arr) (b : Fin 8) (n : ℕ) (c' : Fin 4) (k : Fin 1024) : EReal :=
  if c'.val ≤ n % 4 then (if n / 4 % 4 = 3 then Gy P Q b (tix c' k) else colChain P Q b (tix c' k) (n / 4 % 4))
  else (if n / 4 % 4 = 0 then inf else colChain P Q b (tix c' k) (n / 4 % 4 - 1))

/-- The grid's last coordinate of point t is t % 4. -/
theorem coords2 : ∀ t : Fin cfg0.N, (grid0.coords t 2).val = t.val % 4 :=
  (by decide +kernel : ∀ t : Fin grid0.N, (grid0.coords t 2).val = t.val % 4)

/-- One pair of tiles' column minimum, computed from the two blocks, is the formula's. -/
theorem tile_colMin (t : Fin cfg0.N) (k : Fin 1024) (b : Fin 8) (r cc : Fin 4) (hb : b.val = t.val / 16) (hr : r.val = t.val / 4 % 4)
    (hc : cc.val = t.val % 4) :
    colMinBlk (iblk m c 0 t) (iblk m c 1 t) k = colMin (argP m c) (argQ m c) b (tix cc k) r := by
  unfold colMinBlk colMin
  refine Finset.fold_congr fun j _ => ?_
  rw [pay13_apply, pay10_apply, pay9_apply]
  unfold sqK dotK
  congr 1
  · refine Finset.sum_congr rfl fun d _ => ?_
    rw [iblk0_apply m c t d j b r hb hr]
  · refine Finset.sum_congr rfl fun d _ => ?_
    rw [iblk1_apply m c t d k b cc hb hc, iblk0_apply m c t d j b r hb hr]

/-- |y|^2 of gt point 1024 c + k from the gt block. -/
theorem tile_sqQ (t : Fin cfg0.N) (k : Fin 1024) (b : Fin 8) (cc : Fin 4) (hb : b.val = t.val / 16) (hc : cc.val = t.val % 4) :
    k0_pay11 (F := Ideal) (iblk m c 1 t) (ix2 0 k) = sqK (argQ m c) b (tix cc k) := by
  rw [pay11_apply]
  unfold sqK
  refine Finset.sum_congr rfl fun d _ => ?_
  rw [iblk1_apply m c t d k b cc hb hc]

set_option maxHeartbeats 4000000 in
/-- THE SCRATCH ROW, POINT BY POINT. -/
theorem S_sem (n : ℕ) : ∀ (hn : n < cfg0.N) (b : Fin 8) (c' : Fin 4) (k : Fin 1024), b.val = n / 16 →
    (outsAt m c n hn).S (ix2 0 (tix c' k)) = Ssem (argP m c) (argQ m c) b n c' k := by
  induction n with
  | zero =>
    intro hn b c' k hb
    have hc'lt := c'.isLt
    let t : Fin cfg0.N := ⟨0, hn⟩
    have ht : t.val = 0 := rfl
    show (outsAt m c t.val t.isLt).S (ix2 0 (tix c' k)) = _
    rw [outsAt_zero m c t rfl, step_A m c t _ (by omega) (by omega)]
    dsimp only
    rw [SA_apply c (grid0.coords t) (ms0 t) (hs0 t) (ms1 t) (hs1 t) (ms2 t) (hs2 t) (ms3 t) (hs3 t) _ _ _ _ _ (iblk m c 0 t) (iblk m c 1 t) c' k, coords2 t]
    by_cases hc : c'.val = t.val % 4
    · rw [if_pos hc, tile_colMin m c t k b 0 c' hb (by show 0 = t.val / 4 % 4; omega) hc]
      unfold Ssem
      have hc'' : c'.val = 0 := by omega
      simp only [Nat.zero_mod, Nat.zero_div]
      split_ifs <;> first | (exfalso; omega) | rfl
    · rw [if_neg hc]
      unfold Ssem
      have hc'' : c'.val ≠ 0 := by omega
      simp only [Nat.zero_mod, Nat.zero_div]
      split_ifs <;> first | (exfalso; omega) | rfl
  | succ n ih =>
    intro hn b c' k hb
    have hN : n + 1 < 128 := lt_of_lt_of_eq hn (show cfg0.N = 128 from N_0)
    have hc'lt := c'.isLt
    let t : Fin cfg0.N := ⟨n + 1, hn⟩
    have ht : t.val = n + 1 := rfl
    show (outsAt m c t.val t.isLt).S (ix2 0 (tix c' k)) = _
    have hq : (n + 1) % 16 = 0 ∨ (n + 1) % 16 = 1 ∨ (n + 1) % 16 = 2 ∨ (n + 1) % 16 = 3 ∨ (n + 1) % 16 = 4 ∨ (n + 1) % 16 = 5 ∨ (n + 1) % 16 = 6 ∨ (n + 1) % 16 = 7 ∨ (n + 1) % 16 = 8 ∨ (n + 1) % 16 = 9 ∨ (n + 1) % 16 = 10 ∨ (n + 1) % 16 = 11 ∨ (n + 1) % 16 = 12 ∨ (n + 1) % 16 = 13 ∨ (n + 1) % 16 = 14 ∨ (n + 1) % 16 = 15 := by omega
    rcases hq with hq | hq | hq | hq | hq | hq | hq | hq | hq | hq | hq | hq | hq | hq | hq | hq
    · -- the first point of a batch: the row is reset, then tile 0 is lowered
      have h4 : (n + 1) % 4 = 0 := by omega
      have hR4 : (n + 1) / 4 % 4 = 0 := by omega
      have hO : ¬t.val % 16 = 15 := by omega
      have hR : t.val % 16 = 0 := by omega
      rw [outsAt_pos m c t (Nat.succ_ne_zero n), step_A m c t _ hO hR]
      dsimp only
      rw [SA_apply c (grid0.coords t) (ms0 t) (hs0 t) (ms1 t) (hs1 t) (ms2 t) (hs2 t) (ms3 t) (hs3 t) _ _ _ _ _ (iblk m c 0 t) (iblk m c 1 t) c' k, coords2 t]
      by_cases hc : c'.val = t.val % 4
      · rw [if_pos hc, tile_colMin m c t k b 0 c' hb (by show 0 = (n + 1) / 4 % 4; omega) hc]
        unfold Ssem
        simp only [h4, hR4]
        have hc'' : c'.val = 0 := by omega
        split_ifs <;> first | (exfalso; omega) | rfl
      · rw [if_neg hc]
        unfold Ssem
        simp only [h4, hR4]
        have hc'' : c'.val ≠ 0 := by omega
        split_ifs <;> first | (exfalso; omega) | rfl
    · -- (r, c) = (0, 1)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 1 := by omega
      have hR4 : (n + 1) / 4 % 4 = 0 := by omega
      have hn4 : n % 4 = 0 := by omega
      have hnR : n / 4 % 4 = 0 := by omega
      have hO : ¬t.val % 16 = 15 := by omega
      have hR : ¬t.val % 16 = 0 := by omega
      have hL : ¬t.val % 4 = 3 := by omega
      have hF : ¬t.val % 4 = 0 := by omega
      have hE : ¬12 ≤ t.val % 16 := by omega
      rw [outsAt_pos m c t (Nat.succ_ne_zero n), step_Mid m c t _ hO hR hL hF hE]
      dsimp only
      rw [SMid_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 0 c' hb (by show 0 = (n + 1) / 4 % 4; omega) hc]
        unfold Ssem
        simp only [h4, hR4, hn4, hnR]
        have hc'' : c'.val = 1 := by omega
        split_ifs <;> first | (exfalso; omega) | rfl
      · rw [if_neg hc]
        unfold Ssem
        simp only [h4, hR4, hn4, hnR]
        have hc'' : c'.val ≠ 1 := by omega
        split_ifs <;> first | (exfalso; omega) | rfl
    · -- (r, c) = (0, 2)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 2 := by omega
      have hR4 : (n + 1) / 4 % 4 = 0 := by omega
      have hn4 : n % 4 = 1 := by omega
      have hnR : n / 4 % 4 = 0 := by omega
      have hO : ¬t.val % 16 = 15 := by omega
      have hR : ¬t.val % 16 = 0 := by omega
      have hL : ¬t.val % 4 = 3 := by omega
      have hF : ¬t.val % 4 = 0 := by omega
      have hE : ¬12 ≤ t.val % 16 := by omega
      rw [outsAt_pos m c t (Nat.succ_ne_zero n), step_Mid m c t _ hO hR hL hF hE]
      dsimp only
      rw [SMid_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 0 c' hb (by show 0 = (n + 1) / 4 % 4; omega) hc]
        unfold Ssem
        simp only [h4, hR4, hn4, hnR]
        have hc'' : c'.val = 2 := by omega
        split_ifs <;> first | (exfalso; omega) | rfl
      · rw [if_neg hc]
        unfold Ssem
        simp only [h4, hR4, hn4, hnR]
        have hc'' : c'.val ≠ 2 := by omega
        split_ifs <;> first | (exfalso; omega) | rfl
    · -- (r, c) = (0, 3)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 3 := by omega
      have hR4 : (n + 1) / 4 % 4 = 0 := by omega
      have hn4 : n % 4 = 2 := by omega
      have hnR : n / 4 % 4 = 0 := by omega
      have hO : ¬t.val % 16 = 15 := by omega
      have hR : ¬t.val % 16 = 0 := by omega
      have hL : t.val % 4 = 3 := by omega
      rw [outsAt_pos m c t (Nat.succ_ne_zero n), step_C m c t _ hO hR hL]
      dsimp only
      rw [SC_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 0 c' hb (by show 0 = (n + 1) / 4 % 4; omega) hc]
        unfold Ssem
        simp only [h4, hR4, hn4, hnR]
        have hc'' : c'.val = 3 := by omega
        split_ifs <;> first | (exfalso; omega) | rfl
      · rw [if_neg hc]
        unfold Ssem
        simp only [h4, hR4, hn4, hnR]
        have hc'' : c'.val ≠ 3 := by omega
        split_ifs <;> first | (exfalso; omega) | rfl
    · -- (r, c) = (1, 0)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 0 := by omega
      have hR4 : (n + 1) / 4 % 4 = 1 := by omega
      have hn4 : n % 4 = 3 := by omega
      have hnR : n / 4 % 4 = 0 := by omega
      have hO : ¬t.val % 16 = 15 := by omega
      have hR : ¬t.val % 16 = 0 := by omega
      have hL : ¬t.val % 4 = 3 := by omega
      have hF : t.val % 4 = 0 := by omega
      have hE : ¬12 ≤ t.val % 16 := by omega
      rw [outsAt_pos m c t (Nat.succ_ne_zero n), step_D m c t _ hO hR hL hF hE]
      dsimp only
      rw [SD_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).S c' k, coords2 t, e]
      by_cases hc : c'.val = t.val % 4
      · rw [if_pos hc, tile_colMin m c t k b 1 c' hb (by show 1 = (n + 1) / 4 % 4; omega) hc]
        unfold Ssem
        simp only [h4, hR4, hn4, hnR]
        have hc'' : c'.val = 0 := by omega
        split_ifs <;> first | (exfalso; omega) | rfl
      · rw [if_neg hc]
        unfold Ssem
        simp only [h4, hR4, hn4, hnR]
        have hc'' : c'.val ≠ 0 := by omega
        split_ifs <;> first | (exfalso; omega) | rfl
    · -- (r, c) = (1, 1)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 1 := by omega
      have hR4 : (n + 1) / 4 % 4 = 1 := by omega
      have hn4 : n % 4 = 0 := by omega
      have hnR : n / 4 % 4 = 1 := by omega
      have hO : ¬t.val % 16 = 15 := by omega
      have hR : ¬t.val % 16 = 0 := by omega
      have hL : ¬t.val % 4 = 3 := by omega
      have hF : ¬t.val % 4 = 0 := by omega
      have hE : ¬12 ≤ t.val % 16 := by omega
      rw [outsAt_pos m c t (Nat.succ_ne_zero n), step_Mid m c t _ hO hR hL hF hE]
      dsimp only
      rw [SMid_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 1 c' hb (by show 1 = (n + 1) / 4 % 4; omega) hc]
        unfold Ssem
        simp only [h4, hR4, hn4, hnR]
        have hc'' : c'.val = 1 := by omega
        split_ifs <;> first | (exfalso; omega) | rfl
      · rw [if_neg hc]
        unfold Ssem
        simp only [h4, hR4, hn4, hnR]
        have hc'' : c'.val ≠ 1 := by omega
        split_ifs <;> first | (exfalso; omega) | rfl
    · -- (r, c) = (1, 2)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 2 := by omega
      have hR4 : (n + 1) / 4 % 4 = 1 := by omega
      have hn4 : n % 4 = 1 := by omega
      have hnR : n / 4 % 4 = 1 := by omega
      have hO : ¬t.val % 16 = 15 := by omega
      have hR : ¬t.val % 16 = 0 := by omega
      have hL : ¬t.val % 4 = 3 := by omega
      have hF : ¬t.val % 4 = 0 := by omega
      have hE : ¬12 ≤ t.val % 16 := by omega
      rw [outsAt_pos m c t (Nat.succ_ne_zero n), step_Mid m c t _ hO hR hL hF hE]
      dsimp only
      rw [SMid_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 1 c' hb (by show 1 = (n + 1) / 4 % 4; omega) hc]
        unfold Ssem
        simp only [h4, hR4, hn4, hnR]
        have hc'' : c'.val = 2 := by omega
        split_ifs <;> first | (exfalso; omega) | rfl
      · rw [if_neg hc]
        unfold Ssem
        simp only [h4, hR4, hn4, hnR]
        have hc'' : c'.val ≠ 2 := by omega
        split_ifs <;> first | (exfalso; omega) | rfl
    · -- (r, c) = (1, 3)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 3 := by omega
      have hR4 : (n + 1) / 4 % 4 = 1 := by omega
      have hn4 : n % 4 = 2 := by omega
      have hnR : n / 4 % 4 = 1 := by omega
      have hO : ¬t.val % 16 = 15 := by omega
      have hR : ¬t.val % 16 = 0 := by omega
      have hL : t.val % 4 = 3 := by omega
      rw [outsAt_pos m c t (Nat.succ_ne_zero n), step_C m c t _ hO hR hL]
      dsimp only
      rw [SC_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 1 c' hb (by show 1 = (n + 1) / 4 % 4; omega) hc]
        unfold Ssem
        simp only [h4, hR4, hn4, hnR]
        have hc'' : c'.val = 3 := by omega
        split_ifs <;> first | (exfalso; omega) | rfl
      · rw [if_neg hc]
        unfold Ssem
        simp only [h4, hR4, hn4, hnR]
        have hc'' : c'.val ≠ 3 := by omega
        split_ifs <;> first | (exfalso; omega) | rfl
    · -- (r, c) = (2, 0)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 0 := by omega
      have hR4 : (n + 1) / 4 % 4 = 2 := by omega
      have hn4 : n % 4 = 3 := by omega
      have hnR : n / 4 % 4 = 1 := by omega
      have hO : ¬t.val % 16 = 15 := by omega
      have hR : ¬t.val % 16 = 0 := by omega
      have hL : ¬t.val % 4 = 3 := by omega
      have hF : t.val % 4 = 0 := by omega
      have hE : ¬12 ≤ t.val % 16 := by omega
      rw [outsAt_pos m c t (Nat.succ_ne_zero n), step_D m c t _ hO hR hL hF hE]
      dsimp only
      rw [SD_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).S c' k, coords2 t, e]
      by_cases hc : c'.val = t.val % 4
      · rw [if_pos hc, tile_colMin m c t k b 2 c' hb (by show 2 = (n + 1) / 4 % 4; omega) hc]
        unfold Ssem
        simp only [h4, hR4, hn4, hnR]
        have hc'' : c'.val = 0 := by omega
        split_ifs <;> first | (exfalso; omega) | rfl
      · rw [if_neg hc]
        unfold Ssem
        simp only [h4, hR4, hn4, hnR]
        have hc'' : c'.val ≠ 0 := by omega
        split_ifs <;> first | (exfalso; omega) | rfl
    · -- (r, c) = (2, 1)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 1 := by omega
      have hR4 : (n + 1) / 4 % 4 = 2 := by omega
      have hn4 : n % 4 = 0 := by omega
      have hnR : n / 4 % 4 = 2 := by omega
      have hO : ¬t.val % 16 = 15 := by omega
      have hR : ¬t.val % 16 = 0 := by omega
      have hL : ¬t.val % 4 = 3 := by omega
      have hF : ¬t.val % 4 = 0 := by omega
      have hE : ¬12 ≤ t.val % 16 := by omega
      rw [outsAt_pos m c t (Nat.succ_ne_zero n), step_Mid m c t _ hO hR hL hF hE]
      dsimp only
      rw [SMid_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 2 c' hb (by show 2 = (n + 1) / 4 % 4; omega) hc]
        unfold Ssem
        simp only [h4, hR4, hn4, hnR]
        have hc'' : c'.val = 1 := by omega
        split_ifs <;> first | (exfalso; omega) | rfl
      · rw [if_neg hc]
        unfold Ssem
        simp only [h4, hR4, hn4, hnR]
        have hc'' : c'.val ≠ 1 := by omega
        split_ifs <;> first | (exfalso; omega) | rfl
    · -- (r, c) = (2, 2)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 2 := by omega
      have hR4 : (n + 1) / 4 % 4 = 2 := by omega
      have hn4 : n % 4 = 1 := by omega
      have hnR : n / 4 % 4 = 2 := by omega
      have hO : ¬t.val % 16 = 15 := by omega
      have hR : ¬t.val % 16 = 0 := by omega
      have hL : ¬t.val % 4 = 3 := by omega
      have hF : ¬t.val % 4 = 0 := by omega
      have hE : ¬12 ≤ t.val % 16 := by omega
      rw [outsAt_pos m c t (Nat.succ_ne_zero n), step_Mid m c t _ hO hR hL hF hE]
      dsimp only
      rw [SMid_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 2 c' hb (by show 2 = (n + 1) / 4 % 4; omega) hc]
        unfold Ssem
        simp only [h4, hR4, hn4, hnR]
        have hc'' : c'.val = 2 := by omega
        split_ifs <;> first | (exfalso; omega) | rfl
      · rw [if_neg hc]
        unfold Ssem
        simp only [h4, hR4, hn4, hnR]
        have hc'' : c'.val ≠ 2 := by omega
        split_ifs <;> first | (exfalso; omega) | rfl
    · -- (r, c) = (2, 3)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 3 := by omega
      have hR4 : (n + 1) / 4 % 4 = 2 := by omega
      have hn4 : n % 4 = 2 := by omega
      have hnR : n / 4 % 4 = 2 := by omega
      have hO : ¬t.val % 16 = 15 := by omega
      have hR : ¬t.val % 16 = 0 := by omega
      have hL : t.val % 4 = 3 := by omega
      rw [outsAt_pos m c t (Nat.succ_ne_zero n), step_C m c t _ hO hR hL]
      dsimp only
      rw [SC_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 2 c' hb (by show 2 = (n + 1) / 4 % 4; omega) hc]
        unfold Ssem
        simp only [h4, hR4, hn4, hnR]
        have hc'' : c'.val = 3 := by omega
        split_ifs <;> first | (exfalso; omega) | rfl
      · rw [if_neg hc]
        unfold Ssem
        simp only [h4, hR4, hn4, hnR]
        have hc'' : c'.val ≠ 3 := by omega
        split_ifs <;> first | (exfalso; omega) | rfl
    · -- (r, c) = (3, 0)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 0 := by omega
      have hR4 : (n + 1) / 4 % 4 = 3 := by omega
      have hn4 : n % 4 = 3 := by omega
      have hnR : n / 4 % 4 = 2 := by omega
      have hO : ¬t.val % 16 = 15 := by omega
      have hR : ¬t.val % 16 = 0 := by omega
      have hL : ¬t.val % 4 = 3 := by omega
      have hF : t.val % 4 = 0 := by omega
      have hE : 12 ≤ t.val % 16 := by omega
      rw [outsAt_pos m c t (Nat.succ_ne_zero n), step_E m c t _ hO hR hL hF hE]
      dsimp only
      rw [SE_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).S c' k, coords2 t, e]
      by_cases hc : c'.val = t.val % 4
      · rw [if_pos hc, tile_colMin m c t k b 3 c' hb (by show 3 = (n + 1) / 4 % 4; omega) hc, tile_sqQ m c t k b c' hb hc]
        unfold Ssem
        simp only [h4, hR4, hn4, hnR]
        have hc'' : c'.val = 0 := by omega
        split_ifs <;> first | (exfalso; omega) | rfl
      · rw [if_neg hc]
        unfold Ssem
        simp only [h4, hR4, hn4, hnR]
        have hc'' : c'.val ≠ 0 := by omega
        split_ifs <;> first | (exfalso; omega) | rfl
    · -- (r, c) = (3, 1)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 1 := by omega
      have hR4 : (n + 1) / 4 % 4 = 3 := by omega
      have hn4 : n % 4 = 0 := by omega
      have hnR : n / 4 % 4 = 3 := by omega
      have hO : ¬t.val % 16 = 15 := by omega
      have hR : ¬t.val % 16 = 0 := by omega
      have hL : ¬t.val % 4 = 3 := by omega
      have hF : ¬t.val % 4 = 0 := by omega
      have hE : 12 ≤ t.val % 16 := by omega
      rw [outsAt_pos m c t (Nat.succ_ne_zero n), step_Fin m c t _ hO hR hL hF hE]
      dsimp only
      rw [SFin_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 3 c' hb (by show 3 = (n + 1) / 4 % 4; omega) hc, tile_sqQ m c t k b c' hb hc]
        unfold Ssem
        simp only [h4, hR4, hn4, hnR]
        have hc'' : c'.val = 1 := by omega
        split_ifs <;> first | (exfalso; omega) | rfl
      · rw [if_neg hc]
        unfold Ssem
        simp only [h4, hR4, hn4, hnR]
        have hc'' : c'.val ≠ 1 := by omega
        split_ifs <;> first | (exfalso; omega) | rfl
    · -- (r, c) = (3, 2)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 2 := by omega
      have hR4 : (n + 1) / 4 % 4 = 3 := by omega
      have hn4 : n % 4 = 1 := by omega
      have hnR : n / 4 % 4 = 3 := by omega
      have hO : ¬t.val % 16 = 15 := by omega
      have hR : ¬t.val % 16 = 0 := by omega
      have hL : ¬t.val % 4 = 3 := by omega
      have hF : ¬t.val % 4 = 0 := by omega
      have hE : 12 ≤ t.val % 16 := by omega
      rw [outsAt_pos m c t (Nat.succ_ne_zero n), step_Fin m c t _ hO hR hL hF hE]
      dsimp only
      rw [SFin_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 3 c' hb (by show 3 = (n + 1) / 4 % 4; omega) hc, tile_sqQ m c t k b c' hb hc]
        unfold Ssem
        simp only [h4, hR4, hn4, hnR]
        have hc'' : c'.val = 2 := by omega
        split_ifs <;> first | (exfalso; omega) | rfl
      · rw [if_neg hc]
        unfold Ssem
        simp only [h4, hR4, hn4, hnR]
        have hc'' : c'.val ≠ 2 := by omega
        split_ifs <;> first | (exfalso; omega) | rfl
    · -- (r, c) = (3, 3)
      have e : (outsAt m c (t.val - 1) (Nat.lt_of_le_of_lt (Nat.sub_le _ _) t.isLt)).S (ix2 0 (tix c' k))
          = Ssem (argP m c) (argQ m c) b n c' k := ih (Nat.lt_of_succ_lt hn) b c' k (by omega)
      have h4 : (n + 1) % 4 = 3 := by omega
      have hR4 : (n + 1) / 4 % 4 = 3 := by omega
      have hn4 : n % 4 = 2 := by omega
      have hnR : n / 4 % 4 = 3 := by omega
      have hO : t.val % 16 = 15 := by omega
      rw [outsAt_pos m c t (Nat.succ_ne_zero n), step_G m c t _ hO]
      dsimp only
      rw [SG_apply c (grid0.coords t) (ms0 t) (hs0 t) (ms1 t) (hs1 t) (ms2 t) (hs2 t) (ms3 t) (hs3 t) _ _ _ _ _ (iblk m c 0 t) (iblk m c 1 t) (outsAt m c (t.val - 1) (Nat.lt_of_le_of_lt (Nat.sub_le _ _) t.isLt)).X (outsAt m c (t.val - 1) (Nat.lt_of_le_of_lt (Nat.sub_le _ _) t.isLt)).S c' k, coords2 t, e]
      by_cases hc : c'.val = t.val % 4
      · rw [if_pos hc, tile_colMin m c t k b 3 c' hb (by show 3 = (n + 1) / 4 % 4; omega) hc, tile_sqQ m c t k b c' hb hc]
        unfold Ssem
        simp only [h4, hR4, hn4, hnR]
        have hc'' : c'.val = 3 := by omega
        split_ifs <;> first | (exfalso; omega) | rfl
      · rw [if_neg hc]
        unfold Ssem
        simp only [h4, hR4, hn4, hnR]
        have hc'' : c'.val ≠ 3 := by omega
        split_ifs <;> first | (exfalso; omega) | rfl

/-- At the last point of a batch the second output's buffer holds the second result's block: for gt point mm of batch b, `Gy`. -/
theorem Y_sem (t : Fin cfg0.N) (h : t.val % 16 = 15) (b : Fin 8) (hb : b.val = t.val / 16) (mm : Fin 4096) :
    (outsAt m c t.val t.isLt).Y (ix3 0 0 mm) = Gy (argP m c) (argQ m c) b mm := by
  have hN : t.val < 128 := lt_of_lt_of_eq t.isLt (show cfg0.N = 128 from N_0)
  have hz : t.val ≠ 0 := by omega
  have hmm := mm.isLt
  have e1 : (outsAt m c t.val t.isLt).Y (ix3 0 0 mm) = (outsAt m c t.val t.isLt).S (ix2 0 mm) := by
    rw [outsAt_pos m c t hz, step_G m c t _ h]
    dsimp only
    exact YG_apply c (grid0.coords t) (ms0 t) (hs0 t) (ms1 t) (hs1 t) (ms2 t) (hs2 t) (ms3 t) (hs3 t) _ _ _ _ _ (iblk m c 0 t) (iblk m c 1 t) _ _ mm
  have e2 : mm = tix ⟨mm.val / 1024, by omega⟩ ⟨mm.val % 1024, Nat.mod_lt _ (by norm_num)⟩ :=
    Fin.ext (by show mm.val = 1024 * (mm.val / 1024) + mm.val % 1024; omega)
  rw [e1, e2, S_sem m c t.val t.isLt b _ _ hb]
  unfold Ssem
  have h4 : t.val % 4 = 3 := by omega
  have hR4 : t.val / 4 % 4 = 3 := by omega
  simp only [h4, hR4]
  have : mm.val / 1024 ≤ 3 := by omega
  rw [if_pos this]
  exact if_pos trivial

end Cert.KernelIdeal.Gen.Hand

end
-- ==== Proof.LibMinFloor.lean ====
/-
  Running minima on the extended reals.

  A minimum that starts at +∞ and runs over a finite family commutes with adding a real number to every member and with
  flooring every member at 0: both operations are monotone, and +∞ plus a real is +∞. And a minimum over an index range
  cut into tiles of equal width is the minimum, over the tiles, of the minima inside each tile.
-/
import Mathlib.Data.EReal.Operations
import Mathlib.Data.Finset.Fold
import Mathlib.Order.Lattice
import Mathlib.Data.Fintype.Basic
import Mathlib.Data.Fin.Basic

namespace Cert.MinFloor

open Finset

/-- `max (min_k u k + a) 0 = min_k max (u k + a) 0`, the minima starting at +∞, for a real `a` and any extended reals `u k`. -/
theorem floor_fold_min_add {ι : Type*} [DecidableEq ι] (s : Finset ι) (u : ι → EReal) (a : ℝ) :
    max (s.fold min ⊤ u + (a : EReal)) 0 = s.fold min ⊤ (fun k => max (u k + (a : EReal)) 0) := by
  induction s using Finset.induction_on with
  | empty => simp [EReal.top_add_coe]
  | insert k s hk ih =>
    rw [Finset.fold_insert hk, Finset.fold_insert hk, ← ih, ← min_add_add_right, max_min_distrib_right]

/-- An extended real is below a running minimum from +∞ exactly when it is below every member. -/
theorem le_fold_min_top {ι : Type*} (s : Finset ι) (u : ι → EReal) (z : EReal) :
    z ≤ s.fold min ⊤ u ↔ ∀ k ∈ s, z ≤ u k := by
  rw [Finset.le_fold_min]; exact ⟨fun h => h.2, fun h => ⟨le_top, h⟩⟩

/-- The minimum over `T * w` indices is the minimum over the `T` tiles of the minima over the `w` offsets inside each. -/
theorem fold_min_tiles {T w N : ℕ} (hN : N = T * w) (u : Fin N → EReal)
    (idx : Fin T → Fin w → Fin N) (hidx : ∀ j n, (idx j n).val = j.val * w + n.val) :
    (univ : Finset (Fin N)).fold min ⊤ u
      = (univ : Finset (Fin T)).fold min ⊤ fun j => (univ : Finset (Fin w)).fold min ⊤ fun n => u (idx j n) := by
  refine eq_of_forall_le_iff fun z => ?_
  simp only [le_fold_min_top, mem_univ, forall_true_left]
  constructor
  · intro h j n; exact h _
  · intro h i
    have hw : 0 < w := by
      rcases Nat.eq_zero_or_pos w with h0 | h0
      · subst h0; exact absurd (lt_of_lt_of_eq i.isLt hN) (by simp)
      · exact h0
    have hi : i.val / w < T := by
      have h1 : i.val < T * w := lt_of_lt_of_eq i.isLt hN
      exact Nat.div_lt_of_lt_mul (by rwa [Nat.mul_comm] at h1)
    have e : idx ⟨i.val / w, hi⟩ ⟨i.val % w, Nat.mod_lt _ hw⟩ = i :=
      Fin.ext (by rw [hidx]; show i.val / w * w + i.val % w = i.val; exact Nat.div_add_mod' _ _)
    rw [← e]; exact h _ _

end Cert.MinFloor
-- ==== Proof.Algebra.lean ====
/-
  The kernel's two result formulas equal the reference's, for arrays of real numbers.

  For real points p_n, q_m the squared distance is |p|^2 + |q|^2 - 2 p.q, and the kernel forms it as
  (|q|^2 - sum_d (2 q_d) p_d) + |p|^2: the same real number. The kernel takes the minimum of the first bracket over the
  gt points tile by tile, the four tiles' minima folded from +inf in tile order, and only then adds |p|^2 and floors at 0;
  the reference floors each distance at 0 and takes one minimum over all 4096 points. A minimum from +inf over the four
  tiles of minima over the 1024 offsets is the minimum over all 4096 points, and adding a real number and flooring at 0
  are monotone, so they pass inside the minimum. The second result is the same with the two clouds exchanged.
-/
import proofs.«152746_j51754355916968_2_alg».proof.Proof.Spec
import proofs.«152746_j51754355916968_2_alg».proof.Proof.LibMinFloor
import Idealize.ShloMosaic.PureOps.Ideal.Laws
import Mathlib.Data.EReal.Operations
import Mathlib.Algebra.BigOperators.Fin
import Mathlib.Tactic.Ring
import Mathlib.Tactic.NormNum
import Mathlib.Tactic.FinCases

noncomputable section

namespace Cert.Algebra

open Idealize.ShloMosaic Idealize.ShloMosaic.ValueIdx Finset Cert.Spec

/-! ## The three float words -/

/-- The word 0x00000000 is the extended real 0. -/
theorem zero_eq : Cert.Spec.zero = 0 := Ideal.ofBits_zero_f32

/-- The word 0x7F800000 is +∞. -/
theorem inf_eq : Cert.Spec.inf = ⊤ := by simp [Cert.Spec.inf, Ideal.ofBits, Ideal.ieee]

/-- The word 0x40000000 is the real number 2: sign 0, exponent field 128, fraction 0, so 2^23 * 2^(128 - 127 - 23). -/
theorem two_eq : Cert.Spec.two = ((2 : ℝ) : EReal) := by
  simp [Cert.Spec.two, Ideal.ofBits, Ideal.ieee, -EReal.coe_mul]; norm_num

/-! ## Four tiles' minima, folded in tile order from +∞, are one minimum -/

/-- Folding four extended reals into a running minimum from +∞ one after the other is the minimum over the four. -/
theorem min4_eq_fold (F : Fin 4 → EReal) :
    min (min (min (min ⊤ (F 0)) (F 1)) (F 2)) (F 3) = (univ : Finset (Fin 4)).fold min ⊤ F := by
  refine eq_of_forall_le_iff fun z => ?_
  rw [Cert.MinFloor.le_fold_min_top]
  simp only [le_min_iff, le_top, true_and, mem_univ, forall_true_left]
  constructor
  · rintro ⟨⟨⟨h0, h1⟩, h2⟩, h3⟩ k
    fin_cases k
    exacts [h0, h1, h2, h3]
  · intro h; exact ⟨⟨⟨h 0, h 1⟩, h 2⟩, h 3⟩

/-- The kernel's shape of a floored minimum: the minima of `u` over the four tiles of 1024 points, folded from +∞ in tile
    order, plus a real number, floored at 0, is the minimum over all 4096 points of `u` plus that number floored at 0. -/
theorem tiles_floor (u : Fin 4096 → EReal) (a : ℝ) :
    max (min (min (min (min ⊤
        ((univ : Finset (Fin 1024)).fold min ⊤ fun k => u (tix 0 k)))
        ((univ : Finset (Fin 1024)).fold min ⊤ fun k => u (tix 1 k)))
        ((univ : Finset (Fin 1024)).fold min ⊤ fun k => u (tix 2 k)))
        ((univ : Finset (Fin 1024)).fold min ⊤ fun k => u (tix 3 k)) + (a : EReal)) 0
      = (univ : Finset (Fin 4096)).fold min ⊤ fun m => max (u m + (a : EReal)) 0 := by
  have h4 := min4_eq_fold fun c : Fin 4 => (univ : Finset (Fin 1024)).fold min ⊤ fun k => u (tix c k)
  have ht := Cert.MinFloor.fold_min_tiles (T := 4) (w := 1024) (N := 4096) (by norm_num) u tix
    (fun j k => by rw [tix_val, Nat.mul_comm])
  rw [h4, ← ht, Cert.MinFloor.floor_fold_min_add]

/-! ## Real-valued arrays -/

/-- An array whose every element is a real number is the coercion of a real-valued array. -/
theorem exists_real (P : Arr) (hP : ∀ i, ∃ r : ℝ, P i = (r : EReal)) : ∃ p : (⟨3, ![8, 4096, 3]⟩ : Shape).Idx → ℝ, P = fun i => ((p i : ℝ) : EReal) :=
  ⟨fun i => (hP i).choose, funext fun i => (hP i).choose_spec⟩

/-- The squared norm of a real point is a real number. -/
theorem sqK_coe (p : (⟨3, ![8, 4096, 3]⟩ : Shape).Idx → ℝ) (b : Fin 8) (n : Fin 4096) :
    sqK (fun i => ((p i : ℝ) : EReal)) b n = ((∑ d : Fin 3, p (ix3 b n d) * p (ix3 b n d) : ℝ) : EReal) := by
  simp only [sqK, Fin.sum_univ_three]
  norm_cast

/-- For real points: (|q|^2 - sum_d (2 q_d) p_d) + |p|^2 = (|p|^2 + |q|^2) - 2 (p.q), the norms of the right side summed from 0. -/
theorem member_x (p q : (⟨3, ![8, 4096, 3]⟩ : Shape).Idx → ℝ) (b : Fin 8) (n m : Fin 4096) :
    (sqK (fun i => ((q i : ℝ) : EReal)) b m - dotK (fun i => ((p i : ℝ) : EReal)) (fun i => ((q i : ℝ) : EReal)) b n m)
        + sqK (fun i => ((p i : ℝ) : EReal)) b n
      = (sqR (fun i => ((p i : ℝ) : EReal)) b n + sqR (fun i => ((q i : ℝ) : EReal)) b m)
        - two * dotR (fun i => ((p i : ℝ) : EReal)) (fun i => ((q i : ℝ) : EReal)) b n m := by
  simp only [sqK, dotK, sqR, dotR, two_eq, zero_eq, zero_add, Fin.sum_univ_three]
  norm_cast
  ring

/-- The same with the clouds exchanged: (|p|^2 - sum_d (2 q_d) p_d) + |q|^2. -/
theorem member_y (p q : (⟨3, ![8, 4096, 3]⟩ : Shape).Idx → ℝ) (b : Fin 8) (n m : Fin 4096) :
    (sqK (fun i => ((p i : ℝ) : EReal)) b n - dotK (fun i => ((p i : ℝ) : EReal)) (fun i => ((q i : ℝ) : EReal)) b n m)
        + sqK (fun i => ((q i : ℝ) : EReal)) b m
      = (sqR (fun i => ((p i : ℝ) : EReal)) b n + sqR (fun i => ((q i : ℝ) : EReal)) b m)
        - two * dotR (fun i => ((p i : ℝ) : EReal)) (fun i => ((q i : ℝ) : EReal)) b n m := by
  simp only [sqK, dotK, sqR, dotR, two_eq, zero_eq, zero_add, Fin.sum_univ_three]
  norm_cast
  ring

/-! ## The two results -/

/-- The kernel's first result is the reference's: the nearest gt point of each pred point. -/
theorem gx_eq (P Q : Arr) (hP : ∀ i, ∃ r : ℝ, P i = (r : EReal)) (hQ : ∀ i, ∃ r : ℝ, Q i = (r : EReal))
    (b : Fin 8) (n : Fin 4096) : Cert.Spec.Gx P Q b n = Cert.Spec.refX P Q b n := by
  obtain ⟨p, rfl⟩ := exists_real P hP
  obtain ⟨q, rfl⟩ := exists_real Q hQ
  have h := tiles_floor
    (fun m => sqK (fun i => ((q i : ℝ) : EReal)) b m - dotK (fun i => ((p i : ℝ) : EReal)) (fun i => ((q i : ℝ) : EReal)) b n m)
    (∑ d : Fin 3, p (ix3 b n d) * p (ix3 b n d))
  unfold Gx refX rowMin
  rw [inf_eq, zero_eq, sqK_coe, h]
  refine Finset.fold_congr fun m _ => ?_
  rw [D, zero_eq, ← member_x, sqK_coe p b n]

/-- The kernel's second result is the reference's: the nearest pred point of each gt point. -/
theorem gy_eq (P Q : Arr) (hP : ∀ i, ∃ r : ℝ, P i = (r : EReal)) (hQ : ∀ i, ∃ r : ℝ, Q i = (r : EReal))
    (b : Fin 8) (m : Fin 4096) : Cert.Spec.Gy P Q b m = Cert.Spec.refY P Q b m := by
  obtain ⟨p, rfl⟩ := exists_real P hP
  obtain ⟨q, rfl⟩ := exists_real Q hQ
  have h := tiles_floor
    (fun n => sqK (fun i => ((p i : ℝ) : EReal)) b n - dotK (fun i => ((p i : ℝ) : EReal)) (fun i => ((q i : ℝ) : EReal)) b n m)
    (∑ d : Fin 3, q (ix3 b m d) * q (ix3 b m d))
  unfold Gy refY colMin
  rw [inf_eq, zero_eq, sqK_coe, h]
  refine Finset.fold_congr fun n _ => ?_
  rw [D, zero_eq, ← member_y, sqK_coe q b m]

end Cert.Algebra

end
-- ==== Proof.RefRead.lean ====
/-
  The reference's two min-reduced arrays read at an index.

  The reference forms, for every batch b, pred point n and gt point m, the floored squared distance
  D(b, n, m) = max ((|p_n|^2 + |q_m|^2) - 2 (p_n . q_m)) 0, each norm a sum over the three coordinates started from the zero
  word, and then takes the minimum from +inf over the last axis (m), respectively over the middle axis (n). A minimum is
  commutative and associative, so each reduced element is the running minimum over the dropped axis's coordinates, and the
  source index over a result index (b, j) with coordinate k put back is (b, j, k), respectively (b, k, j).
-/
import proofs.«152746_j51754355916968_2_alg».proof.Proof.Gen.ReferenceIdeal.Read
import proofs.«152746_j51754355916968_2_alg».proof.Proof.Spec
import Idealize.ShloMosaic.PureOps.Reduce
import Idealize.ShloMosaic.Lib.ValueIdx
import Idealize.ShloMosaic.PureOps.Ideal.Laws

noncomputable section

namespace Cert.RefRead

open Cert.ReferenceIdeal Cert.ReferenceIdeal.Gen Cert.ReferenceIdeal.Read Idealize.ShloMosaic Idealize.ShloMosaic.ValueIdx
  Idealize.ShloMosaic.StableHlo Finset

/-! ## The operand indices are the coordinates -/

theorem idx_sqP (i : S8x4096x4096.Idx) (k : Fin 3) :
    idx_main_v1 (idx_main_v5 (idx_main_v7 i)) k = ix3 (n0 := 8) (n1 := 4096) (n2 := 3) (i 0) (i 1) k :=
  funext fun a => Fin.ext (by match a with | ⟨0, _⟩ => rfl | ⟨1, _⟩ => rfl | ⟨2, _⟩ => rfl)

theorem idx_sqQ (i : S8x4096x4096.Idx) (k : Fin 3) :
    idx_main_v3 (idx_main_v6 (idx_main_v8 i)) k = ix3 (n0 := 8) (n1 := 4096) (n2 := 3) (i 0) (i 2) k :=
  funext fun a => Fin.ext (by match a with | ⟨0, _⟩ => rfl | ⟨1, _⟩ => rfl | ⟨2, _⟩ => rfl)

theorem idx_dotP (i : S8x4096x4096.Idx) (k : Fin 3) :
    lidx_main_v4 i k = ix3 (n0 := 8) (n1 := 4096) (n2 := 3) (i 0) (i 1) k :=
  funext fun a => Fin.ext (by match a with | ⟨0, _⟩ => rfl | ⟨1, _⟩ => rfl | ⟨2, _⟩ => rfl)

theorem idx_dotQ (i : S8x4096x4096.Idx) (k : Fin 3) :
    ridx_main_v4 i k = ix3 (n0 := 8) (n1 := 4096) (n2 := 3) (i 0) (i 2) k :=
  funext fun a => Fin.ext (by match a with | ⟨0, _⟩ => rfl | ⟨1, _⟩ => rfl | ⟨2, _⟩ => rfl)

/-! ## The floored squared distance at (b, n, m) -/

/-- The array the two minima are taken of, read at (b, n, m): the floored squared distance of pred point n and gt point m. -/
theorem d_apply (P Q : (⟨S8x4096x3, .f32⟩ : BufTy).Contents (Elt Ideal)) (i : S8x4096x4096.Idx) :
    val_main_v14 (F := Ideal) P Q i = Cert.Spec.D P Q (i 0) (i 1) (i 2) := by
  simp only [val_main_v14_apply, val_main_v12_apply, val_main_v9_apply, val_main_v7_apply, val_main_v5_apply,
    val_main_v1_apply, val_main_v0_apply, val_main_v8_apply, val_main_v6_apply, val_main_v3_apply, val_main_v2_apply,
    val_main_v11_apply, val_main_v10_apply, val_main_v4_apply, val_main_v13_apply, val_main_cst_apply,
    val_main_cst_0_apply, val_main_cst_1_apply, val_main_cst_2_apply,
    Ideal.maximumf_def, Ideal.subf_def, Ideal.addf_def, Ideal.mulf_def, Ideal.ofBits_def,
    idx_sqP, idx_sqQ, idx_dotP, idx_dotQ]
  rfl

/-! ## The two minima -/

/-- A minimum-reduction over the last axis, at (b, n): the running minimum from the initial value over the 4096 coordinates
    of that axis, the source read at the result index with the coordinate put back. -/
theorem reduce_last (y : S8x4096x4096.Idx → Ideal .f32) (init : S_.Idx → Ideal .f32) (h' : S8x4096x4096.ReducesTo [2] S8x4096)
    (hu : 0 < S_.numel) (i : S8x4096.Idx) (h : S8x4096x4096.Reduces [2] S8x4096) :
    Host.reduce FloatOps.minimumf y init h' hu i
      = (univ : Finset (Fin 4096)).fold min (init (Shape.Idx.first hu)) (fun m => y (h.lift i m)) :=
  Host.reduce_eq_fold_single FloatOps.minimumf y init h' h hu i

/-- The same over the middle axis, at (b, m). -/
theorem reduce_mid (y : S8x4096x4096.Idx → Ideal .f32) (init : S_.Idx → Ideal .f32) (h' : S8x4096x4096.ReducesTo [1] S8x4096)
    (hu : 0 < S_.numel) (i : S8x4096.Idx) (h : S8x4096x4096.Reduces [1] S8x4096) :
    Host.reduce FloatOps.minimumf y init h' hu i
      = (univ : Finset (Fin 4096)).fold min (init (Shape.Idx.first hu)) (fun n => y (h.lift i n)) :=
  Host.reduce_eq_fold_single FloatOps.minimumf y init h' h hu i

/-- The reference's first min-reduced array at (b, n): the minimum from +inf over the gt points of the floored distance. -/
theorem ref_x (P Q : (⟨S8x4096x3, .f32⟩ : BufTy).Contents (Elt Ideal)) (i : S8x4096.Idx) :
    val_main_v15 (F := Ideal) P Q i = Cert.Spec.refX P Q (i 0) (i 1) := by
  have h : S8x4096x4096.Reduces [2] S8x4096 := by decide
  unfold val_main_v15
  refine (reduce_last (val_main_v14 (F := Ideal) P Q) (val_main_cst_3 (F := Ideal)) reducesTo_S8x4096x4096_S8x4096_d2 h_S_ i h).trans ?_
  show (univ : Finset (Fin 4096)).fold min (Ideal.ofBits .f32 0x7F800000#32)
      (fun m => val_main_v14 (F := Ideal) P Q (h.lift i m)) = _
  unfold Cert.Spec.refX Cert.Spec.inf
  refine Finset.fold_congr fun m _ => ?_
  rw [d_apply]
  have e0 : (h.lift i m) 0 = i 0 := Fin.ext rfl
  have e1 : (h.lift i m) 1 = i 1 := Fin.ext rfl
  have e2 : (h.lift i m) 2 = m := Fin.ext rfl
  rw [e0, e1, e2]

/-- The reference's second min-reduced array at (b, m): the minimum from +inf over the pred points of the floored distance. -/
theorem ref_y (P Q : (⟨S8x4096x3, .f32⟩ : BufTy).Contents (Elt Ideal)) (i : S8x4096.Idx) :
    val_main_v16 (F := Ideal) P Q i = Cert.Spec.refY P Q (i 0) (i 1) := by
  have h : S8x4096x4096.Reduces [1] S8x4096 := by decide
  unfold val_main_v16
  refine (reduce_mid (val_main_v14 (F := Ideal) P Q) (val_main_cst_4 (F := Ideal)) reducesTo_S8x4096x4096_S8x4096_d1 h_S_ i h).trans ?_
  show (univ : Finset (Fin 4096)).fold min (Ideal.ofBits .f32 0x7F800000#32)
      (fun n => val_main_v14 (F := Ideal) P Q (h.lift i n)) = _
  unfold Cert.Spec.refY Cert.Spec.inf
  refine Finset.fold_congr fun n _ => ?_
  rw [d_apply]
  have e0 : (h.lift i n) 0 = i 0 := Fin.ext rfl
  have e1 : (h.lift i n) 1 = n := Fin.ext rfl
  have e2 : (h.lift i n) 2 = i 1 := Fin.ext rfl
  rw [e0, e1, e2]

end Cert.RefRead

end
-- ==== Proof.Finite.lean ====
/-
  From the precondition to real-valued argument arrays.

  The precondition says of every element x of both argument arrays that |x| < +inf, where |x| is max x (-x) on the extended
  reals and +inf is the float word 0x7F800000: the two tests over all elements are each folded by "and" from 1, and the two
  results are combined by "and". A conjunction that is 1 had only 1s, so every element passes its test; and an extended real
  whose absolute value is below +inf is neither +inf nor -inf: it is a real number.
-/
import proofs.«152746_j51754355916968_2_alg».proof.Defs
import proofs.«152746_j51754355916968_2_alg».proof.Proof.Gen.Pre_finite_inputs
import proofs.«152746_j51754355916968_2_alg».proof.Proof.Gen.KernelIdeal
import Idealize.ShloMosaic.Lib.ReduceAll
import Idealize.ShloMosaic.Lib.ValueIdx
import Idealize.ShloMosaic.PureOps.Ideal.Laws

noncomputable section

namespace Cert.Finite

open Idealize.ShloMosaic Idealize.SL.Sem

/-- The scalar shape has one index. -/
instance : Subsingleton Cert.Pre_finite_inputs.S_.Idx := ⟨fun a b => funext fun d => d.elim0⟩

/-- An extended real whose absolute value max x (-x) is below +inf is a real number. -/
theorem real_of_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The precondition's test on one element: |x| < the word 0x7F800000 makes x a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  exact real_of_lt_top x h'

/-- Under the precondition every element of both argument arrays is a real number, on every device. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S8x4096x3.Idx → EReal) i = (r : EReal))
    ∧ (∀ i, ∃ r : ℝ, (m ((c.tc : Thread Cert.KernelIdeal.nD Cert.KernelIdeal.τ).loc Cert.KernelIdeal.main_arg1) : Cert.KernelIdeal.S8x4096x3.Idx → EReal) i = (r : EReal)) := by
  have h0 := congrFun (h c) ValueIdx.ix0
  dsimp only [Cert.Pre_finite_inputs.fn, Idealize.ShloMosaic.andi] at h0
  obtain ⟨hA, hB⟩ := IntOp.andi_eq_one.1 h0
  refine ⟨fun i => ?_, fun i => ?_⟩
  · exact real_of_abs_lt_inf _ (Host.reduce_andi_all _ _ _ _ _ hA i)
  · exact real_of_abs_lt_inf _ (Host.reduce_andi_all _ _ _ _ _ hB i)

end Cert.Finite

end
-- ==== Proof.Algebraic.lean ====
/-
  From the point-by-point facts to the claim.

  The kernel writes its first result array back block by block: the point (b, r, 3) writes entries (b, 0, 1024 r + j), which
  at that point hold the kernel's first formula at pred point 1024 r + j of batch b; every entry (b, 0, n) is covered by the point
  t = 16 b + 4 (n / 1024) + 3, so the array ends holding the formula everywhere. The second result array is written back whole per
  batch at the point (b, 3, 3), t = 16 b + 15, and ends holding the second formula. After the region both arrays are recast
  from [8, 1, 4096] to [8, 4096] — entry (b, n) is entry (b, 0, n) —, each is summed from the zero word, the sum divided by the word
  0x47000000, and the two quotients are added. The reference ends with the same lines over its two min-reduced arrays, which
  for real-valued arguments are the kernel's two formulas entry by entry; the precondition makes the arguments real-valued.
-/
import proofs.«152746_j51754355916968_2_alg».proof.Proof.KernelIdeal.ValueX
import proofs.«152746_j51754355916968_2_alg».proof.Proof.KernelIdeal.ValueS
import proofs.«152746_j51754355916968_2_alg».proof.Proof.KernelIdeal.Body
import proofs.«152746_j51754355916968_2_alg».proof.Proof.KernelIdeal.Blocks
import proofs.«152746_j51754355916968_2_alg».proof.Proof.Algebra
import proofs.«152746_j51754355916968_2_alg».proof.Proof.RefRead
import proofs.«152746_j51754355916968_2_alg».proof.Proof.Finite
import proofs.«152746_j51754355916968_2_alg».proof.Proof.Spec
import proofs.«152746_j51754355916968_2_alg».proof.Proof.Gen.ReferenceIdeal.Read
import proofs.«152746_j51754355916968_2_alg».proof.Proof.Gen.ReferenceIdeal.Run
import proofs.«152746_j51754355916968_2_alg».proof.Defs
import Idealize.ShloMosaic.Lib.Pipeline.Value
import Idealize.ShloMosaic.Lib.ValueLayout
import Idealize.ShloMosaic.Lib.StableHlo.Run

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Spec

variable (m : (ℓ : Loc nD τ sig) → Buf (Elt Ideal) ℓ) (c : Dev nD)

/-! ## The two result arrays, entry by entry -/

/-- The first result array: entry (b, 0, n) is the kernel's first formula at (b, n). -/
def GX : S8x1x4096.Idx → EReal := fun y => Gx (argP m c) (argQ m c) (y 0) (y 2)

/-- The second result array: entry (b, 0, n) is the kernel's second formula at (b, n). -/
def GY : S8x1x4096.Idx → EReal := fun y => Gy (argP m c) (argQ m c) (y 0) (y 2)

theorem GX_at (i : S8x1x4096.Idx) (b : Fin 8) (n : Fin 4096) (hb : (i 0).val = b.val) (hn : (i 2).val = n.val) :
    GX m c i = Gx (argP m c) (argQ m c) b n := by
  show Gx (argP m c) (argQ m c) (i 0) (i 2) = _
  rw [show (i 0 : Fin 8) = b from Fin.ext hb, show (i 2 : Fin 4096) = n from Fin.ext hn]

theorem GY_at (i : S8x1x4096.Idx) (b : Fin 8) (n : Fin 4096) (hb : (i 0).val = b.val) (hn : (i 2).val = n.val) :
    GY m c i = Gy (argP m c) (argQ m c) b n := by
  show Gy (argP m c) (argQ m c) (i 0) (i 2) = _
  rw [show (i 0 : Fin 8) = b from Fin.ext hb, show (i 2 : Fin 4096) = n from Fin.ext hn]

/-- The first output window's block index at point t is (b, 0, r); the second's is (b, 0, 0). -/
theorem idx2 : ∀ t : Fin cfg0.N, win0_2.index t (0 : Fin 3) = t.val / 16 ∧ win0_2.index t (1 : Fin 3) = 0 ∧ win0_2.index t (2 : Fin 3) = t.val / 4 % 4 :=
  (by decide +kernel : ∀ t : Fin grid0.N, win0_2.index t (0 : Fin 3) = t.val / 16 ∧ win0_2.index t (1 : Fin 3) = 0 ∧ win0_2.index t (2 : Fin 3) = t.val / 4 % 4)
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, win0_3.index t (0 : Fin 3) = t.val / 16 ∧ win0_3.index t (1 : Fin 3) = 0 ∧ win0_3.index t (2 : Fin 3) = 0)

/-- What a point with c = 3 writes back into the first result array is its block of the formula. -/
theorem flushed2_eq (t : Fin cfg0.N) (hf : (cfg0.win 2).flush t = true) :
    (dats m 0 c).flushed 2 t = ((cfg0.win 2).blk t).view.read (Elt Ideal) (GX m c) := by
  have h3 : t.val % 4 = 3 := (flush0_2 t).mp hf
  have hN : t.val < 128 := lt_of_lt_of_eq t.isLt N_0
  obtain ⟨h0, h1, h2⟩ := idx2 t
  show (cfg0.win 2).cut (grid0.coords t) ((dats m 0 c).after 2 t) = _
  rw [after2]
  refine funext fun (j : S1x1x1024.Idx) => ?_
  show (outsAt m c t.val t.isLt).X j = GX m c (((cfg0.win 2).blk t).view.emb j)
  obtain ⟨ja, jb, k, rfl⟩ : ∃ (a : Fin 1) (b : Fin 1) (k : Fin 1024), j = ix3 a b k := ⟨j 0, j 1, j 2, eq_ix3 j⟩
  obtain rfl : ja = 0 := Subsingleton.elim _ _
  obtain rfl : jb = 0 := Subsingleton.elim _ _
  refine (X_fin m c t h3 ⟨t.val / 16, by omega⟩ ⟨t.val / 4 % 4, by omega⟩ rfl rfl k).trans (GX_at m c _ _ _ ?_ ?_).symm
  · show win0_2.index t (0 : Fin 3) * 1 + 1 * 0 = t.val / 16
    rw [h0]; omega
  · show win0_2.index t (2 : Fin 3) * 1024 + 1 * k.val = 1024 * (t.val / 4 % 4) + k.val
    rw [h2]; omega

theorem mem_blk2 (t : Fin cfg0.N) (i : S8x1x4096.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v2_0).slice (win0_2.rect t)).set ↔ _
  rw [View.set_slice_whole, Rect.mem_set_unit]
  exact Iff.rfl

theorem cover2 (i : S8x1x4096.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 4096 := (i 2).isLt
  let t : Fin cfg0.N := ⟨(i 0).val * 16 + (i 2).val / 1024 * 4 + 3, lt_of_lt_of_eq (by omega) N_0.symm⟩
  have ht : t.val = (i 0).val * 16 + (i 2).val / 1024 * 4 + 3 := rfl
  obtain ⟨h0, h1, h2⟩ := idx2 t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-- THE FIRST RESULT ARRAY after the run: entry (b, 0, n) is the kernel's first formula at (b, n). -/
theorem final2 : ((dats m 0 c).arrAt 2 cfg0.N : S8x1x4096.Idx → EReal) = fun y => Gx (argP m c) (argQ m c) (y 0) (y 2) :=
  (dats m 0 c).arrAt_eq_of_cover 2 (GX m c) (flushed2_eq m c) cover2

/-- What the last point of a batch writes back into the second result array is its block of the formula. -/
theorem flushed3_eq (t : Fin cfg0.N) (hf : (cfg0.win 3).flush t = true) :
    (dats m 0 c).flushed 3 t = ((cfg0.win 3).blk t).view.read (Elt Ideal) (GY m c) := by
  have h15 : t.val % 16 = 15 := (flush0_3 t).mp hf
  have hN : t.val < 128 := lt_of_lt_of_eq t.isLt N_0
  obtain ⟨h0, h1, h2⟩ := idx3 t
  show (cfg0.win 3).cut (grid0.coords t) ((dats m 0 c).after 3 t) = _
  rw [after3]
  refine funext fun (j : S1x1x4096.Idx) => ?_
  show (outsAt m c t.val t.isLt).Y j = GY m c (((cfg0.win 3).blk t).view.emb j)
  obtain ⟨ja, jb, k, rfl⟩ : ∃ (a : Fin 1) (b : Fin 1) (k : Fin 4096), j = ix3 a b k := ⟨j 0, j 1, j 2, eq_ix3 j⟩
  obtain rfl : ja = 0 := Subsingleton.elim _ _
  obtain rfl : jb = 0 := Subsingleton.elim _ _
  refine (Y_sem m c t h15 ⟨t.val / 16, by omega⟩ rfl k).trans (GY_at m c _ _ _ ?_ ?_).symm
  · show win0_3.index t (0 : Fin 3) * 1 + 1 * 0 = t.val / 16
    rw [h0]; omega
  · show win0_3.index t (2 : Fin 3) * 4096 + 1 * k.val = k.val
    rw [h2]; omega

theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v2_1).slice (win0_3.rect t)).set ↔ _
  rw [View.set_slice_whole, Rect.mem_set_unit]
  exact Iff.rfl

theorem cover3 (i : S8x1x4096.Idx) : ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 4096 := (i 2).isLt
  let t : Fin cfg0.N := ⟨(i 0).val * 16 + 15, lt_of_lt_of_eq (by omega) N_0.symm⟩
  have ht : t.val = (i 0).val * 16 + 15 := rfl
  obtain ⟨h0, h1, h2⟩ := idx3 t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

/-- THE SECOND RESULT ARRAY after the run: entry (b, 0, n) is the kernel's second formula at (b, n). -/
theorem final3 : ((dats m 0 c).arrAt 3 cfg0.N : S8x1x4096.Idx → EReal) = fun y => Gy (argP m c) (argQ m c) (y 0) (y 2) :=
  (dats m 0 c).arrAt_eq_of_cover 3 (GY m c) (flushed3_eq m c) cover3

/-! ## The host lines after the region -/

/-- What both programs do last: each of the two [8, 4096] arrays is summed from the zero word, the sum divided by the word
    0x47000000, and the two quotients are added. -/
def tail (a b : S8x4096.Idx → Ideal .f32) : S_.Idx → Ideal .f32 :=
  addf (F := Ideal)
    (Host.divf (F := Ideal) (Host.reduceAdd (F := Ideal) a (constant (F := Ideal) S_ .f32 0x00000000#32) reducesTo_S8x4096_S_d0_1 h_S_) (constant (F := Ideal) S_ .f32 0x47000000#32))
    (Host.divf (F := Ideal) (Host.reduceAdd (F := Ideal) b (constant (F := Ideal) S_ .f32 0x00000000#32) reducesTo_S8x4096_S_d0_1 h_S_) (constant (F := Ideal) S_ .f32 0x47000000#32))

/-- An [8, 1, 4096] array recast to [8, 4096] reads, at (b, n), entry (b, 0, n). -/
theorem recast_apply (x : S8x1x4096.Idx → EReal) (h : S8x1x4096.ShapeCasts S8x4096) (i : S8x4096.Idx) :
    shapeCast S8x4096 x h i = x (ix3 (i 0) (0 : Fin 1) (i 1)) :=
  shapeCast_apply x h i _ (by
    rw [Shape.rowMajor_val_three, Shape.rowMajor_val_two]
    show ((i 0).val * 1 + 0) * 4096 + (i 1).val = (i 0).val * 4096 + (i 1).val
    omega)

/-- The kernel's result: the common last lines over its two result arrays, entry (b, n) of each the kernel's formula. -/
theorem kernel_v9 : Pipeline.afterTail₀ cfgs (dats m) 0 (V0 m) [hostOps1] c main_v9
    = tail (fun i => Gx (argP m c) (argQ m c) (i 0) (i 1)) (fun i => Gy (argP m c) (argQ m c) (i 0) (i 1)) := by
  unfold Pipeline.afterTail₀
  show StableHlo.after hostOps1 _ (Proc.devRef .tc main_v9) = _
  after_results
  have e2 : Pipeline.withArrays (cfgs 0).spec c (V0 m c) (fun w => (dats m 0 c).arrAt w (cfgs 0).N) (Proc.devRef .tc main_v2_0) = GX m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v2_1) = GY m c :=
    (Pipeline.withArrays_arr spec0 launch0.win.arr_inj c _ _ 3).trans (final3 m c)
  rw [e2, e3]
  have r2 : (fun i : S8x4096.Idx => shapeCast S8x4096 (GX m c) shapeCasts_S8x1x4096_S8x4096 i) = fun i => Gx (argP m c) (argQ m c) (i 0) (i 1) :=
    funext fun i => recast_apply (GX m c) _ i
  have r3 : (fun i : S8x4096.Idx => shapeCast S8x4096 (GY m c) shapeCasts_S8x1x4096_S8x4096 i) = fun i => Gy (argP m c) (argQ m c) (i 0) (i 1) :=
    funext fun i => recast_apply (GY m c) _ i
  show tail (fun i : S8x4096.Idx => shapeCast S8x4096 (GX m c) shapeCasts_S8x1x4096_S8x4096 i)
      (fun i : S8x4096.Idx => shapeCast S8x4096 (GY m c) shapeCasts_S8x1x4096_S8x4096 i) = _
  rw [r2, r3]

end Cert.KernelIdeal.Gen.Hand

namespace Cert.Proof.Alg

open Idealize.ShloMosaic Idealize.SL.Sem Idealize.ShloMosaic.ValueIdx Cert.Spec

/-- The reference's result: the same last lines over its two min-reduced arrays, which for real-valued arguments are the
    kernel's two formulas entry by entry. -/
theorem ref_v21 (P Q : (⟨Cert.ReferenceIdeal.S8x4096x3, .f32⟩ : BufTy).Contents (Elt Ideal))
    (hP : ∀ i, ∃ r : ℝ, (P : Cert.Spec.Arr) i = (r : EReal)) (hQ : ∀ i, ∃ r : ℝ, (Q : Cert.Spec.Arr) i = (r : EReal)) :
    Cert.ReferenceIdeal.Read.val_main_v21 (F := Ideal) P Q
      = Cert.KernelIdeal.Gen.Hand.tail (fun i => Gx P Q (i 0) (i 1)) (fun i => Gy P Q (i 0) (i 1)) := by
  have ex : Cert.ReferenceIdeal.Read.val_main_v15 (F := Ideal) P Q = fun i => Gx P Q (i 0) (i 1) :=
    funext fun i => (Cert.RefRead.ref_x P Q i).trans (Cert.Algebra.gx_eq P Q hP hQ (i 0) (i 1)).symm
  have ey : Cert.ReferenceIdeal.Read.val_main_v16 (F := Ideal) P Q = fun i => Gy P Q (i 0) (i 1) :=
    funext fun i => (Cert.RefRead.ref_y P Q i).trans (Cert.Algebra.gy_eq P Q hP hQ (i 0) (i 1)).symm
  show Cert.KernelIdeal.Gen.Hand.tail (Cert.ReferenceIdeal.Read.val_main_v15 (F := Ideal) P Q) (Cert.ReferenceIdeal.Read.val_main_v16 (F := Ideal) P Q) = _
  rw [ex, ey]

/-- The two programs at the ideal instance, from memories agreeing on real-valued arguments, both run and end with equal
    results and unchanged arguments. -/
theorem algebraic : Cert.algebraic_KernelIdeal_ReferenceIdeal := by
  intro m ρ m' ρ' hpre hagree
  refine ⟨fun c => Cert.KernelIdeal.Gen.Hand.tail
      (fun i => Gx (Cert.KernelIdeal.Gen.Hand.argP m c) (Cert.KernelIdeal.Gen.Hand.argQ m c) (i 0) (i 1))
      (fun i => Gy (Cert.KernelIdeal.Gen.Hand.argP m c) (Cert.KernelIdeal.Gen.Hand.argQ m c) (i 0) (i 1)), ?_, ?_⟩
  · refine (θ_run Cert.KernelIdeal.defs _ _).mono (fun r h c => ?_) (Cert.KernelIdeal.Gen.Hand.run_main (F := Ideal) m ρ)
    exact ⟨((h c).2 Cert.KernelIdeal.main_v9 (Pipeline.mem_restRefs_of Cert.KernelIdeal.main_v9 (by decide) (by decide))).trans
        (Cert.KernelIdeal.Gen.Hand.kernel_v9 m c),
      ((h c).2 Cert.KernelIdeal.main_arg0 (Pipeline.mem_restRefs_of Cert.KernelIdeal.main_arg0 (by decide) (by decide))).trans
        (Cert.KernelIdeal.Gen.W_main_arg0 m (Cert.KernelIdeal.Gen.Hand.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.Hand.dats m) c)⟩
  · refine (θ_run Cert.ReferenceIdeal.defs _ _).mono (fun r h c => ⟨(h c).1.trans ?_, (h c).2⟩)
      (Cert.ReferenceIdeal.Value.run (F := Ideal) m' ρ')
    obtain ⟨hP, hQ⟩ := Cert.Finite.finite_of_pre m hpre c
    rw [(hagree c).1, (hagree c).2]
    exact ref_v21 _ _ hP hQ

end Cert.Proof.Alg

end
-- ==== Proof.lean ====
/-
  The certificate: both programs' frames, that the idealized kernel is the kernel's own text read at the ideal instance, and
  that the idealized kernel and the idealized reference compute the same number.

  The kernel sweeps, for each of 8 batches, the 4 x 4 grid of (pred tile r, gt tile c) pairs once. Per pair it forms the
  1024 x 1024 table 2 x.y and from it lowers two running minima: over the gt points, of |y|^2 - 2 x.y, kept in the first
  output's staging buffer while c runs (reset at c = 0, finished at c = 3 by adding |x|^2 and flooring at 0); and over the pred
  points, of |x|^2 - 2 x.y, kept per gt tile in a scratch row while r runs (reset at (r, c) = (0, 0), finished tile by tile at
  r = 3 by adding |y|^2 and flooring at 0, copied out at (3, 3)). The reference floors every squared distance
  |x|^2 + |y|^2 - 2 x.y at 0 first and then takes the two minima. On finite inputs the two agree: adding a real number and
  flooring at 0 are monotone and so commute with a minimum, and 2 (x.y) is the sum over the coordinates of (2 y_d) x_d.
-/
import proofs.«152746_j51754355916968_2_alg».proof.Defs
import proofs.«152746_j51754355916968_2_alg».proof.Proof.Gen.Kernel
import proofs.«152746_j51754355916968_2_alg».proof.Proof.Gen.KernelIdeal
import proofs.«152746_j51754355916968_2_alg».proof.Proof.Gen.ReferenceIdeal
import proofs.«152746_j51754355916968_2_alg».proof.Proof.Gen.Pre_finite_inputs
import proofs.«152746_j51754355916968_2_alg».proof.Proof.Gen.ReferenceIdeal.Run
import proofs.«152746_j51754355916968_2_alg».proof.Proof.Kernel.Body
import proofs.«152746_j51754355916968_2_alg».proof.Proof.KernelIdeal.Body
import proofs.«152746_j51754355916968_2_alg».proof.Proof.Algebraic
import Idealize.ShloMosaic.Adequacy
import Idealize.ShloMosaic.Init

noncomputable section

namespace Cert.Proof

open Idealize.ShloMosaic Idealize.SL.Sem

/-- The kernel as printed runs to the end, faults nowhere and leaves both argument arrays as launched. -/
theorem frame_kernel : Cert.frame_Kernel := fun m ρ _ => Cert.Kernel.Gen.Hand.frame m ρ

/-- So does its reading at the ideal instance. -/
theorem frame_kernelIdeal : Cert.frame_KernelIdeal := fun m ρ _ => Cert.KernelIdeal.Gen.Hand.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance both programs end with the same number: the kernel's two result arrays are the formulas `Gx`, `Gy` of
    the arguments, the reference's two minima are `refX`, `refY`, on finite inputs these agree entry by entry, and both programs
    then take the same two means and add them. -/
theorem algebraic : Cert.algebraic_KernelIdeal_ReferenceIdeal := Cert.Proof.Alg.algebraic

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
